-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_v258) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128x384 : Shape := ⟨2, ![128, 384]⟩
abbrev S64x384 : Shape := ⟨2, ![64, 384]⟩
abbrev S1x128 : Shape := ⟨2, ![1, 128]⟩
abbrev S1x64 : Shape := ⟨2, ![1, 64]⟩
abbrev S4x192 : Shape := ⟨2, ![4, 192]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_
  bcast_S_S64x384 : S_.BroadcastsInDim S64x384 (![] : Fin 0 → Fin S64x384.rank)
  reducesTo_S64x384_S_d0_1 : S64x384.ReducesTo [0, 1] S_
  bcast_S_S1x128 : S_.BroadcastsInDim S1x128 (![] : Fin 0 → Fin S1x128.rank)
  reducesTo_S1x128_S_d0_1 : S1x128.ReducesTo [0, 1] S_
  bcast_S_S1x64 : S_.BroadcastsInDim S1x64 (![] : Fin 0 → Fin S1x64.rank)
  reducesTo_S1x64_S_d0_1 : S1x64.ReducesTo [0, 1] S_
  bcast_S_S4x192 : S_.BroadcastsInDim S4x192 (![] : Fin 0 → Fin S4x192.rank)
  reducesTo_S4x192_S_d0_1 : S4x192.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg10 : FVec F S1x128 .f32) (main_arg11 : FVec F S1x64 .f32) (main_arg12 : FVec F S4x192 .f32) (main_arg13 : FVec F S4 .f32) (main_v33 : IVec S_ 1) : IVec S_ 1 :=
  let main_v34 : FVec F S1x128 .f32 := Host.absf main_arg10
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1x64 .f32 := Host.absf main_arg11
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S4x192 .f32 := Host.absf main_arg12
  let main_cst_16 : FVec F S_ .f32 := constant S_ .f32 0x7F800000#32
  let main_v45 : FVec F S4x192 .f32 := broadcastInDim S4x192 ![] bcast_S_S4x192 main_cst_16
  let main_v46 : IVec S4x192 1 := cmpf .olt main_v44 main_v45
  let main_c_17 : IVec S_ 1 := constantI S_ 1 1#1
  let main_v47 : IVec S_ 1 := (fun x v => Host.reduce IntOp.andi x v reducesTo_S4x192_S_d0_1 h_S_) main_v46 main_c_17
  let main_v48 : IVec S_ 1 := andi main_v43 main_v47
  let main_v49 : FVec F S4 .f32 := Host.absf main_arg13
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg7 : FVec F S128x384 .f32) (main_arg8 : FVec F S64x384 .f32) (main_arg9 : FVec F S1x128 .f32) (main_arg10 : FVec F S1x128 .f32) (main_arg11 : FVec F S1x64 .f32) (main_arg12 : FVec F S4x192 .f32) (main_arg13 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x384 .f32 := Host.absf main_arg7
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S64x384 .f32 := Host.absf main_arg8
  let main_cst_8 : FVec F S_ .f32 := constant S_ .f32 0x7F800000#32
  let main_v25 : FVec F S64x384 .f32 := broadcastInDim S64x384 ![] bcast_S_S64x384 main_cst_8
  let main_v26 : IVec S64x384 1 := cmpf .olt main_v24 main_v25
  let main_c_9 : IVec S_ 1 := constantI S_ 1 1#1
  let main_v27 : IVec S_ 1 := (fun x v => Host.reduce IntOp.andi x v reducesTo_S64x384_S_d0_1 h_S_) main_v26 main_c_9
  let main_v28 : IVec S_ 1 := andi main_v23 main_v27
  let main_v29 : FVec F S1x128 .f32 := Host.absf main_arg9
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x128 .f32) (main_arg1 : IVec S2x800000 32) (main_arg2 : IVec S2x800000 32) (main_arg3 : IVec S2x800000 32) (main_arg4 : FVec F S800000 .f32) (main_arg5 : FVec F S800000 .f32) (main_arg6 : FVec F S128x128 .f32) (main_arg7 : FVec F S128x384 .f32) (main_arg8 : FVec F S64x384 .f32) (main_arg9 : FVec F S1x128 .f32) (main_arg10 : FVec F S1x128 .f32) (main_arg11 : FVec F S1x64 .f32) (main_arg12 : FVec F S4x192 .f32) (main_arg13 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg4
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg5
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128x384 : Shape := ⟨2, ![128, 384]⟩
abbrev S64x384 : Shape := ⟨2, ![64, 384]⟩
abbrev S1x128 : Shape := ⟨2, ![1, 128]⟩
abbrev S1x64 : Shape := ⟨2, ![1, 64]⟩
abbrev S4x192 : Shape := ⟨2, ![4, 192]⟩
abbrev S4 : Shape := ⟨1, ![4]⟩
abbrev S1x800000 : Shape := ⟨2, ![1, 800000]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S384x128 : Shape := ⟨2, ![384, 128]⟩
abbrev S384x64 : Shape := ⟨2, ![384, 64]⟩
abbrev S50000x64 : Shape := ⟨2, ![50000, 64]⟩
abbrev S850000x64 : Shape := ⟨2, ![850000, 64]⟩
abbrev S192x4 : Shape := ⟨2, ![192, 4]⟩
abbrev S1x4 : Shape := ⟨2, ![1, 4]⟩
abbrev S50000x192 : Shape := ⟨2, ![50000, 192]⟩
abbrev S50000x4 : Shape := ⟨2, ![50000, 4]⟩
abbrev S2000x128 : Shape := ⟨2, ![2000, 128]⟩
abbrev S2000x64 : Shape := ⟨2, ![2000, 64]⟩
abbrev S128x64 : Shape := ⟨2, ![128, 64]⟩
abbrev S2000x192 : Shape := ⟨2, ![2000, 192]⟩
abbrev S2000x4 : Shape := ⟨2, ![2000, 4]⟩
abbrev S64x4 : Shape := ⟨2, ![64, 4]⟩
abbrev S2000 : Shape := ⟨1, ![2000]⟩
abbrev S2000x1 : Shape := ⟨2, ![2000, 1]⟩

abbrev nBuf : Space → Nat
  | .hbm => 416
  | .vmem => 38
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S2x800000, .i32⟩
  | 4 => ⟨S800000, .f32⟩
  | 5 => ⟨S800000, .f32⟩
  | 6 => ⟨S128x128, .f32⟩
  | 7 => ⟨S128x384, .f32⟩
  | 8 => ⟨S64x384, .f32⟩
  | 9 => ⟨S1x128, .f32⟩
  | 10 => ⟨S1x128, .f32⟩
  | 11 => ⟨S1x64, .f32⟩
  | 12 => ⟨S4x192, .f32⟩
  | 13 => ⟨S4, .f32⟩
  | 14 => ⟨S1x800000, .i32⟩
  | 15 => ⟨S800000, .i32⟩
  | 16 => ⟨S1x800000, .i32⟩
  | 17 => ⟨S800000, .i32⟩
  | 18 => ⟨S1x800000, .i32⟩
  | 19 => ⟨S800000, .i32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S50000, .i32⟩
  | 29 => ⟨S850000, .i32⟩
  | 30 => ⟨S850000, .i32⟩
  | 31 => ⟨S_, .f32⟩
  | 32 => ⟨S50000, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S50000, .i1⟩
  | 41 => ⟨S_, .f32⟩
  | 42 => ⟨S50000, .f32⟩
  | 43 => ⟨S50000, .i1⟩
  | 44 => ⟨S_, .f32⟩
  | 45 => ⟨S_, .f32⟩
  | 46 => ⟨S50000, .f32⟩
  | 47 => ⟨S50000, .f32⟩
  | 48 => ⟨S50000, .f32⟩
  | 49 => ⟨S_, .f32⟩
  | 50 => ⟨S_, .f32⟩
  | 51 => ⟨S50000, .f32⟩
  | 52 => ⟨S50000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000, .f32⟩
  | 72 => ⟨S850000, .f32⟩
  | 73 => ⟨S850000, .i32⟩
  | 74 => ⟨S850000, .i32⟩
  | 75 => ⟨S850000, .i32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .i32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .i32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S50000, .i32⟩
  | 104 => ⟨S850000, .i32⟩
  | 105 => ⟨S850000, .i32⟩
  | 106 => ⟨S_, .f32⟩
  | 107 => ⟨S50000, .f32⟩
  | 108 => ⟨S850000, .f32⟩
  | 109 => ⟨S_, .f32⟩
  | 110 => ⟨S50000, .f32⟩
  | 111 => ⟨S850000x1, .i32⟩
  | 112 => ⟨S50000, .f32⟩
  | 113 => ⟨S_, .f32⟩
  | 114 => ⟨S50000, .f32⟩
  | 115 => ⟨S50000, .i1⟩
  | 116 => ⟨S_, .f32⟩
  | 117 => ⟨S50000, .f32⟩
  | 118 => ⟨S50000, .i1⟩
  | 119 => ⟨S_, .f32⟩
  | 120 => ⟨S_, .f32⟩
  | 121 => ⟨S50000, .f32⟩
  | 122 => ⟨S50000, .f32⟩
  | 123 => ⟨S50000, .f32⟩
  | 124 => ⟨S_, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000, .f32⟩
  | 9 => ⟨S850000, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000, .f32⟩
  | 19 => ⟨S850000, .f32⟩
  | 20 => ⟨S850000, .i32⟩
  | 21 => ⟨S850000, .i32⟩
  | 22 => ⟨S850000, .i32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .i32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .i32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S50000, .i32⟩
  | 51 => ⟨S850000, .i32⟩
  | 52 => ⟨S850000, .i32⟩
  | 53 => ⟨S_, .f32⟩
  | 54 => ⟨S50000, .f32⟩
  | 55 => ⟨S850000, .f32⟩
  | 56 => ⟨S_, .f32⟩
  | 57 => ⟨S50000, .f32⟩
  | 58 => ⟨S850000x1, .i32⟩
  | 59 => ⟨S50000, .f32⟩
  | 60 => ⟨S_, .f32⟩
  | 61 => ⟨S50000, .f32⟩
  | 62 => ⟨S50000, .i1⟩
  | 63 => ⟨S_, .f32⟩
  | 64 => ⟨S50000, .f32⟩
  | 65 => ⟨S50000, .i1⟩
  | 66 => ⟨S_, .f32⟩
  | 67 => ⟨S_, .f32⟩
  | 68 => ⟨S50000, .f32⟩
  | 69 => ⟨S50000, .f32⟩
  | 70 => ⟨S50000, .f32⟩
  | 71 => ⟨S_, .f32⟩
  | 72 => ⟨S_, .f32⟩
  | 73 => ⟨S50000, .f32⟩
  | 74 => ⟨S50000, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000, .f32⟩
  | 84 => ⟨S850000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .f32⟩
  | 94 => ⟨S850000, .f32⟩
  | 95 => ⟨S850000, .i32⟩
  | 96 => ⟨S850000, .i32⟩
  | 97 => ⟨S850000, .i32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .i32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .i32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S128x128, .f32⟩
  | 126 => ⟨S50000x128, .bf16⟩
  | 127 => ⟨S_, .i32⟩
  | _ => ⟨S50000x128, .f32⟩

abbrev hbmTy0_2 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x128, .bf16⟩
  | 8 => ⟨S850000x128, .f32⟩
  | 9 => ⟨S850000x1, .f32⟩
  | 10 => ⟨S850000x128, .f32⟩
  | 11 => ⟨S850000x128, .f32⟩
  | 12 => ⟨S_, .f32⟩
  | 13 => ⟨S50000x128, .f32⟩
  | 14 => ⟨S850000x1, .i32⟩
  | 15 => ⟨S50000x128, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x128, .bf16⟩
  | 25 => ⟨S850000x128, .f32⟩
  | 26 => ⟨S850000x1, .f32⟩
  | 27 => ⟨S850000x128, .f32⟩
  | 28 => ⟨S850000x128, .f32⟩
  | 29 => ⟨S_, .f32⟩
  | 30 => ⟨S50000x128, .f32⟩
  | 31 => ⟨S850000x1, .i32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .bf16⟩
  | 42 => ⟨S850000x128, .f32⟩
  | 43 => ⟨S850000x1, .f32⟩
  | 44 => ⟨S850000x128, .f32⟩
  | 45 => ⟨S850000x128, .f32⟩
  | 46 => ⟨S_, .f32⟩
  | 47 => ⟨S50000x128, .f32⟩
  | 48 => ⟨S850000x1, .i32⟩
  | 49 => ⟨S50000x128, .f32⟩
  | 50 => ⟨S384x128, .f32⟩
  | 51 => ⟨S50000x128, .bf16⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .bf16⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x128, .bf16⟩
  | 78 => ⟨S850000x128, .f32⟩
  | 79 => ⟨S850000x1, .f32⟩
  | 80 => ⟨S850000x128, .f32⟩
  | 81 => ⟨S850000x128, .f32⟩
  | 82 => ⟨S_, .f32⟩
  | 83 => ⟨S50000x128, .f32⟩
  | 84 => ⟨S850000x1, .i32⟩
  | 85 => ⟨S50000x128, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .bf16⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S384x64, .f32⟩
  | 104 => ⟨S50000x64, .bf16⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x64, .bf16⟩
  | 114 => ⟨S850000x64, .f32⟩
  | 115 => ⟨S850000x1, .f32⟩
  | 116 => ⟨S850000x64, .f32⟩
  | 117 => ⟨S850000x64, .f32⟩
  | 118 => ⟨S_, .f32⟩
  | 119 => ⟨S50000x64, .f32⟩
  | 120 => ⟨S850000x1, .i32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_3 (i : Nat) : BufTy := match i % 128 with
  | 0 => ⟨S850000, .i32⟩
  | 1 => ⟨S850000x1, .i32⟩
  | 2 => ⟨S850000x64, .bf16⟩
  | 3 => ⟨S850000x64, .f32⟩
  | 4 => ⟨S850000x1, .f32⟩
  | 5 => ⟨S850000x64, .f32⟩
  | 6 => ⟨S850000x64, .f32⟩
  | 7 => ⟨S_, .f32⟩
  | 8 => ⟨S50000x64, .f32⟩
  | 9 => ⟨S850000x1, .i32⟩
  | 10 => ⟨S50000x64, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000x64, .bf16⟩
  | 20 => ⟨S850000x64, .f32⟩
  | 21 => ⟨S850000x1, .f32⟩
  | 22 => ⟨S850000x64, .f32⟩
  | 23 => ⟨S850000x64, .f32⟩
  | 24 => ⟨S_, .f32⟩
  | 25 => ⟨S50000x64, .f32⟩
  | 26 => ⟨S850000x1, .i32⟩
  | 27 => ⟨S50000x64, .f32⟩
  | 28 => ⟨S192x4, .f32⟩
  | 29 => ⟨S1x4, .f32⟩
  | 30 => ⟨S50000x192, .f32⟩
  | 31 => ⟨S50000x4, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S384x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S384x64, .f32⟩
  | .local _ .vmem, ⟨23, _⟩ => ⟨S2000x64, .bf16⟩
  | .local _ .vmem, ⟨24, _⟩ => ⟨S2000x64, .bf16⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S1x64, .f32⟩
  | .local _ .vmem, ⟨32, _⟩ => ⟨S192x4, .f32⟩
  | .local _ .vmem, ⟨33, _⟩ => ⟨S1x4, .f32⟩
  | .local _ .vmem, ⟨34, _⟩ => ⟨S2000x192, .f32⟩
  | .local _ .vmem, ⟨35, _⟩ => ⟨S2000x192, .f32⟩
  | .local _ .vmem, ⟨36, _⟩ => ⟨S2000x4, .f32⟩
  | .local _ .vmem, ⟨37, _⟩ => ⟨S2000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_cst : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_cst_0 : Ref sig .tc := ⟨.hbm, 31, rfl⟩
abbrev main_call0_v16 : Ref sig .tc := ⟨.hbm, 32, rfl⟩
abbrev main_call0_v17 : Ref sig .tc := ⟨.hbm, 33, rfl⟩
abbrev main_call0_cst_1 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_cst_2 : Ref sig .tc := ⟨.hbm, 38, rfl⟩
abbrev main_call0_v21 : Ref sig .tc := ⟨.hbm, 39, rfl⟩
abbrev main_call0_v22 : Ref sig .tc := ⟨.hbm, 40, rfl⟩
abbrev main_call0_cst_3 : Ref sig .tc := ⟨.hbm, 41, rfl⟩
abbrev main_call0_v23 : Ref sig .tc := ⟨.hbm, 42, rfl⟩
abbrev main_call0_v24 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_v25 : Ref sig .tc := ⟨.hbm, 47, rfl⟩
abbrev main_call0_v26 : Ref sig .tc := ⟨.hbm, 48, rfl⟩
abbrev main_call0_cst_5 : Ref sig .tc := ⟨.hbm, 49, rfl⟩
abbrev main_call0_call1_v0 : Ref sig .tc := ⟨.hbm, 50, rfl⟩
abbrev main_call0_call1_v1 : Ref sig .tc := ⟨.hbm, 51, rfl⟩
abbrev main_call0_v27 : Ref sig .tc := ⟨.hbm, 52, rfl⟩
abbrev main_call0_c : Ref sig .tc := ⟨.hbm, 53, rfl⟩
abbrev main_call0_v28 : Ref sig .tc := ⟨.hbm, 54, rfl⟩
abbrev main_call0_v29 : Ref sig .tc := ⟨.hbm, 55, rfl⟩
abbrev main_call0_c_6 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_c_7 : Ref sig .tc := ⟨.hbm, 63, rfl⟩
abbrev main_call0_v36 : Ref sig .tc := ⟨.hbm, 64, rfl⟩
abbrev main_call0_v37 : Ref sig .tc := ⟨.hbm, 65, rfl⟩
abbrev main_call0_c_8 : Ref sig .tc := ⟨.hbm, 66, rfl⟩
abbrev main_call0_v38 : Ref sig .tc := ⟨.hbm, 67, rfl⟩
abbrev main_call0_v39 : Ref sig .tc := ⟨.hbm, 68, rfl⟩
abbrev main_call0_v40 : Ref sig .tc := ⟨.hbm, 69, rfl⟩
abbrev main_call0_v41 : Ref sig .tc := ⟨.hbm, 70, rfl⟩
abbrev main_call0_v42 : Ref sig .tc := ⟨.hbm, 71, rfl⟩
abbrev main_call0_v43 : Ref sig .tc := ⟨.hbm, 72, rfl⟩
abbrev main_call0_call2_v0 : Ref sig .tc := ⟨.hbm, 73, rfl⟩
abbrev main_call0_call2_v1_0 : Ref sig .tc := ⟨.hbm, 74, rfl⟩
abbrev main_call0_v44 : Ref sig .tc := ⟨.hbm, 75, rfl⟩
abbrev main_call0_c_9 : Ref sig .tc := ⟨.hbm, 76, rfl⟩
abbrev main_call0_v45 : Ref sig .tc := ⟨.hbm, 77, rfl⟩
abbrev main_call0_v46 : Ref sig .tc := ⟨.hbm, 78, rfl⟩
abbrev main_call0_c_10 : Ref sig .tc := ⟨.hbm, 79, rfl⟩
abbrev main_call0_v47 : Ref sig .tc := ⟨.hbm, 80, rfl⟩
abbrev main_call0_v48 : Ref sig .tc := ⟨.hbm, 81, rfl⟩
abbrev main_call0_v49 : Ref sig .tc := ⟨.hbm, 82, rfl⟩
abbrev main_call0_v50 : Ref sig .tc := ⟨.hbm, 83, rfl⟩
abbrev main_call0_v51 : Ref sig .tc := ⟨.hbm, 84, rfl⟩
abbrev main_call0_c_11 : Ref sig .tc := ⟨.hbm, 85, rfl⟩
abbrev main_call0_v52 : Ref sig .tc := ⟨.hbm, 86, rfl⟩
abbrev main_call0_v53 : Ref sig .tc := ⟨.hbm, 87, rfl⟩
abbrev main_call0_c_12 : Ref sig .tc := ⟨.hbm, 88, rfl⟩
abbrev main_call0_v54 : Ref sig .tc := ⟨.hbm, 89, rfl⟩
abbrev main_call0_v55 : Ref sig .tc := ⟨.hbm, 90, rfl⟩
abbrev main_call0_v56 : Ref sig .tc := ⟨.hbm, 91, rfl⟩
abbrev main_call0_v57 : Ref sig .tc := ⟨.hbm, 92, rfl⟩
abbrev main_call0_v58 : Ref sig .tc := ⟨.hbm, 93, rfl⟩
abbrev main_call0_c_13 : Ref sig .tc := ⟨.hbm, 94, rfl⟩
abbrev main_call0_v59 : Ref sig .tc := ⟨.hbm, 95, rfl⟩
abbrev main_call0_v60 : Ref sig .tc := ⟨.hbm, 96, rfl⟩
abbrev main_call0_c_14 : Ref sig .tc := ⟨.hbm, 97, rfl⟩
abbrev main_call0_v61 : Ref sig .tc := ⟨.hbm, 98, rfl⟩
abbrev main_call0_v62 : Ref sig .tc := ⟨.hbm, 99, rfl⟩
abbrev main_call0_v63 : Ref sig .tc := ⟨.hbm, 100, rfl⟩
abbrev main_call0_v64 : Ref sig .tc := ⟨.hbm, 101, rfl⟩
abbrev main_call0_v65 : Ref sig .tc := ⟨.hbm, 102, rfl⟩
abbrev main_call0_v66 : Ref sig .tc := ⟨.hbm, 103, rfl⟩
abbrev main_call0_v67 : Ref sig .tc := ⟨.hbm, 104, rfl⟩
abbrev main_call0_v68 : Ref sig .tc := ⟨.hbm, 105, rfl⟩
abbrev main_call0_cst_15 : Ref sig .tc := ⟨.hbm, 106, rfl⟩
abbrev main_call0_v69 : Ref sig .tc := ⟨.hbm, 107, rfl⟩
abbrev main_call0_v70 : Ref sig .tc := ⟨.hbm, 108, rfl⟩
abbrev main_call0_cst_16 : Ref sig .tc := ⟨.hbm, 109, rfl⟩
abbrev main_call0_v71 : Ref sig .tc := ⟨.hbm, 110, rfl⟩
abbrev main_call0_v72 : Ref sig .tc := ⟨.hbm, 111, rfl⟩
abbrev main_call0_v73 : Ref sig .tc := ⟨.hbm, 112, rfl⟩
abbrev main_call0_cst_17 : Ref sig .tc := ⟨.hbm, 113, rfl⟩
abbrev main_call0_v74 : Ref sig .tc := ⟨.hbm, 114, rfl⟩
abbrev main_call0_v75 : Ref sig .tc := ⟨.hbm, 115, rfl⟩
abbrev main_call0_cst_18 : Ref sig .tc := ⟨.hbm, 116, rfl⟩
abbrev main_call0_v76 : Ref sig .tc := ⟨.hbm, 117, rfl⟩
abbrev main_call0_v77 : Ref sig .tc := ⟨.hbm, 118, rfl⟩
abbrev main_call0_cst_19 : Ref sig .tc := ⟨.hbm, 119, rfl⟩
abbrev main_call0_call3_v0 : Ref sig .tc := ⟨.hbm, 120, rfl⟩
abbrev main_call0_call3_v1 : Ref sig .tc := ⟨.hbm, 121, rfl⟩
abbrev main_call0_v78 : Ref sig .tc := ⟨.hbm, 122, rfl⟩
abbrev main_call0_v79 : Ref sig .tc := ⟨.hbm, 123, rfl⟩
abbrev main_call0_cst_20 : Ref sig .tc := ⟨.hbm, 124, rfl⟩
abbrev main_call0_call4_v0 : Ref sig .tc := ⟨.hbm, 125, rfl⟩
abbrev main_call0_call4_v1 : Ref sig .tc := ⟨.hbm, 126, rfl⟩
abbrev main_call0_v80 : Ref sig .tc := ⟨.hbm, 127, rfl⟩
abbrev main_call0_c_21 : Ref sig .tc := ⟨.hbm, 128, rfl⟩
abbrev main_call0_v81 : Ref sig .tc := ⟨.hbm, 129, rfl⟩
abbrev main_call0_v82 : Ref sig .tc := ⟨.hbm, 130, rfl⟩
abbrev main_call0_c_22 : Ref sig .tc := ⟨.hbm, 131, rfl⟩
abbrev main_call0_v83 : Ref sig .tc := ⟨.hbm, 132, rfl⟩
abbrev main_call0_v84 : Ref sig .tc := ⟨.hbm, 133, rfl⟩
abbrev main_call0_v85 : Ref sig .tc := ⟨.hbm, 134, rfl⟩
abbrev main_call0_v86 : Ref sig .tc := ⟨.hbm, 135, rfl⟩
abbrev main_call0_v87 : Ref sig .tc := ⟨.hbm, 136, rfl⟩
abbrev main_call0_v88 : Ref sig .tc := ⟨.hbm, 137, rfl⟩
abbrev main_call0_c_23 : Ref sig .tc := ⟨.hbm, 138, rfl⟩
abbrev main_call0_v89 : Ref sig .tc := ⟨.hbm, 139, rfl⟩
abbrev main_call0_v90 : Ref sig .tc := ⟨.hbm, 140, rfl⟩
abbrev main_call0_c_24 : Ref sig .tc := ⟨.hbm, 141, rfl⟩
abbrev main_call0_v91 : Ref sig .tc := ⟨.hbm, 142, rfl⟩
abbrev main_call0_v92 : Ref sig .tc := ⟨.hbm, 143, rfl⟩
abbrev main_call0_v93 : Ref sig .tc := ⟨.hbm, 144, rfl⟩
abbrev main_call0_v94 : Ref sig .tc := ⟨.hbm, 145, rfl⟩
abbrev main_call0_v95 : Ref sig .tc := ⟨.hbm, 146, rfl⟩
abbrev main_call0_v96 : Ref sig .tc := ⟨.hbm, 147, rfl⟩
abbrev main_call0_call5_v0 : Ref sig .tc := ⟨.hbm, 148, rfl⟩
abbrev main_call0_call5_v1_0 : Ref sig .tc := ⟨.hbm, 149, rfl⟩
abbrev main_call0_v97 : Ref sig .tc := ⟨.hbm, 150, rfl⟩
abbrev main_call0_c_25 : Ref sig .tc := ⟨.hbm, 151, rfl⟩
abbrev main_call0_v98 : Ref sig .tc := ⟨.hbm, 152, rfl⟩
abbrev main_call0_v99 : Ref sig .tc := ⟨.hbm, 153, rfl⟩
abbrev main_call0_c_26 : Ref sig .tc := ⟨.hbm, 154, rfl⟩
abbrev main_call0_v100 : Ref sig .tc := ⟨.hbm, 155, rfl⟩
abbrev main_call0_v101 : Ref sig .tc := ⟨.hbm, 156, rfl⟩
abbrev main_call0_v102 : Ref sig .tc := ⟨.hbm, 157, rfl⟩
abbrev main_call0_v103 : Ref sig .tc := ⟨.hbm, 158, rfl⟩
abbrev main_call0_v104 : Ref sig .tc := ⟨.hbm, 159, rfl⟩
abbrev main_call0_c_27 : Ref sig .tc := ⟨.hbm, 160, rfl⟩
abbrev main_call0_v105 : Ref sig .tc := ⟨.hbm, 161, rfl⟩
abbrev main_call0_v106 : Ref sig .tc := ⟨.hbm, 162, rfl⟩
abbrev main_call0_c_28 : Ref sig .tc := ⟨.hbm, 163, rfl⟩
abbrev main_call0_v107 : Ref sig .tc := ⟨.hbm, 164, rfl⟩
abbrev main_call0_v108 : Ref sig .tc := ⟨.hbm, 165, rfl⟩
abbrev main_call0_v109 : Ref sig .tc := ⟨.hbm, 166, rfl⟩
abbrev main_call0_v110 : Ref sig .tc := ⟨.hbm, 167, rfl⟩
abbrev main_call0_v111 : Ref sig .tc := ⟨.hbm, 168, rfl⟩
abbrev main_call0_c_29 : Ref sig .tc := ⟨.hbm, 169, rfl⟩
abbrev main_call0_v112 : Ref sig .tc := ⟨.hbm, 170, rfl⟩
abbrev main_call0_v113 : Ref sig .tc := ⟨.hbm, 171, rfl⟩
abbrev main_call0_c_30 : Ref sig .tc := ⟨.hbm, 172, rfl⟩
abbrev main_call0_v114 : Ref sig .tc := ⟨.hbm, 173, rfl⟩
abbrev main_call0_v115 : Ref sig .tc := ⟨.hbm, 174, rfl⟩
abbrev main_call0_v116 : Ref sig .tc := ⟨.hbm, 175, rfl⟩
abbrev main_call0_v117 : Ref sig .tc := ⟨.hbm, 176, rfl⟩
abbrev main_call0_v118 : Ref sig .tc := ⟨.hbm, 177, rfl⟩
abbrev main_call0_v119 : Ref sig .tc := ⟨.hbm, 178, rfl⟩
abbrev main_call0_v120 : Ref sig .tc := ⟨.hbm, 179, rfl⟩
abbrev main_call0_v121 : Ref sig .tc := ⟨.hbm, 180, rfl⟩
abbrev main_call0_cst_31 : Ref sig .tc := ⟨.hbm, 181, rfl⟩
abbrev main_call0_v122 : Ref sig .tc := ⟨.hbm, 182, rfl⟩
abbrev main_call0_v123 : Ref sig .tc := ⟨.hbm, 183, rfl⟩
abbrev main_call0_cst_32 : Ref sig .tc := ⟨.hbm, 184, rfl⟩
abbrev main_call0_v124 : Ref sig .tc := ⟨.hbm, 185, rfl⟩
abbrev main_call0_v125 : Ref sig .tc := ⟨.hbm, 186, rfl⟩
abbrev main_call0_v126 : Ref sig .tc := ⟨.hbm, 187, rfl⟩
abbrev main_call0_cst_33 : Ref sig .tc := ⟨.hbm, 188, rfl⟩
abbrev main_call0_v127 : Ref sig .tc := ⟨.hbm, 189, rfl⟩
abbrev main_call0_v128 : Ref sig .tc := ⟨.hbm, 190, rfl⟩
abbrev main_call0_cst_34 : Ref sig .tc := ⟨.hbm, 191, rfl⟩
abbrev main_call0_v129 : Ref sig .tc := ⟨.hbm, 192, rfl⟩
abbrev main_call0_v130 : Ref sig .tc := ⟨.hbm, 193, rfl⟩
abbrev main_call0_cst_35 : Ref sig .tc := ⟨.hbm, 194, rfl⟩
abbrev main_call0_call6_v0 : Ref sig .tc := ⟨.hbm, 195, rfl⟩
abbrev main_call0_call6_v1 : Ref sig .tc := ⟨.hbm, 196, rfl⟩
abbrev main_call0_v131 : Ref sig .tc := ⟨.hbm, 197, rfl⟩
abbrev main_call0_v132 : Ref sig .tc := ⟨.hbm, 198, rfl⟩
abbrev main_call0_cst_36 : Ref sig .tc := ⟨.hbm, 199, rfl⟩
abbrev main_call0_call7_v0 : Ref sig .tc := ⟨.hbm, 200, rfl⟩
abbrev main_call0_call7_v1 : Ref sig .tc := ⟨.hbm, 201, rfl⟩
abbrev main_call0_v133 : Ref sig .tc := ⟨.hbm, 202, rfl⟩
abbrev main_call0_c_37 : Ref sig .tc := ⟨.hbm, 203, rfl⟩
abbrev main_call0_v134 : Ref sig .tc := ⟨.hbm, 204, rfl⟩
abbrev main_call0_v135 : Ref sig .tc := ⟨.hbm, 205, rfl⟩
abbrev main_call0_c_38 : Ref sig .tc := ⟨.hbm, 206, rfl⟩
abbrev main_call0_v136 : Ref sig .tc := ⟨.hbm, 207, rfl⟩
abbrev main_call0_v137 : Ref sig .tc := ⟨.hbm, 208, rfl⟩
abbrev main_call0_v138 : Ref sig .tc := ⟨.hbm, 209, rfl⟩
abbrev main_call0_v139 : Ref sig .tc := ⟨.hbm, 210, rfl⟩
abbrev main_call0_v140 : Ref sig .tc := ⟨.hbm, 211, rfl⟩
abbrev main_call0_v141 : Ref sig .tc := ⟨.hbm, 212, rfl⟩
abbrev main_call0_c_39 : Ref sig .tc := ⟨.hbm, 213, rfl⟩
abbrev main_call0_v142 : Ref sig .tc := ⟨.hbm, 214, rfl⟩
abbrev main_call0_v143 : Ref sig .tc := ⟨.hbm, 215, rfl⟩
abbrev main_call0_c_40 : Ref sig .tc := ⟨.hbm, 216, rfl⟩
abbrev main_call0_v144 : Ref sig .tc := ⟨.hbm, 217, rfl⟩
abbrev main_call0_v145 : Ref sig .tc := ⟨.hbm, 218, rfl⟩
abbrev main_call0_v146 : Ref sig .tc := ⟨.hbm, 219, rfl⟩
abbrev main_call0_v147 : Ref sig .tc := ⟨.hbm, 220, rfl⟩
abbrev main_call0_v148 : Ref sig .tc := ⟨.hbm, 221, rfl⟩
abbrev main_call0_v149 : Ref sig .tc := ⟨.hbm, 222, rfl⟩
abbrev main_call0_call8_v0 : Ref sig .tc := ⟨.hbm, 223, rfl⟩
abbrev main_call0_call8_v1_0 : Ref sig .tc := ⟨.hbm, 224, rfl⟩
abbrev main_call0_v150 : Ref sig .tc := ⟨.hbm, 225, rfl⟩
abbrev main_call0_c_41 : Ref sig .tc := ⟨.hbm, 226, rfl⟩
abbrev main_call0_v151 : Ref sig .tc := ⟨.hbm, 227, rfl⟩
abbrev main_call0_v152 : Ref sig .tc := ⟨.hbm, 228, rfl⟩
abbrev main_call0_c_42 : Ref sig .tc := ⟨.hbm, 229, rfl⟩
abbrev main_call0_v153 : Ref sig .tc := ⟨.hbm, 230, rfl⟩
abbrev main_call0_v154 : Ref sig .tc := ⟨.hbm, 231, rfl⟩
abbrev main_call0_v155 : Ref sig .tc := ⟨.hbm, 232, rfl⟩
abbrev main_call0_v156 : Ref sig .tc := ⟨.hbm, 233, rfl⟩
abbrev main_call0_v157 : Ref sig .tc := ⟨.hbm, 234, rfl⟩
abbrev main_call0_c_43 : Ref sig .tc := ⟨.hbm, 235, rfl⟩
abbrev main_call0_v158 : Ref sig .tc := ⟨.hbm, 236, rfl⟩
abbrev main_call0_v159 : Ref sig .tc := ⟨.hbm, 237, rfl⟩
abbrev main_call0_c_44 : Ref sig .tc := ⟨.hbm, 238, rfl⟩
abbrev main_call0_v160 : Ref sig .tc := ⟨.hbm, 239, rfl⟩
abbrev main_call0_v161 : Ref sig .tc := ⟨.hbm, 240, rfl⟩
abbrev main_call0_v162 : Ref sig .tc := ⟨.hbm, 241, rfl⟩
abbrev main_call0_v163 : Ref sig .tc := ⟨.hbm, 242, rfl⟩
abbrev main_call0_v164 : Ref sig .tc := ⟨.hbm, 243, rfl⟩
abbrev main_call0_c_45 : Ref sig .tc := ⟨.hbm, 244, rfl⟩
abbrev main_call0_v165 : Ref sig .tc := ⟨.hbm, 245, rfl⟩
abbrev main_call0_v166 : Ref sig .tc := ⟨.hbm, 246, rfl⟩
abbrev main_call0_c_46 : Ref sig .tc := ⟨.hbm, 247, rfl⟩
abbrev main_call0_v167 : Ref sig .tc := ⟨.hbm, 248, rfl⟩
abbrev main_call0_v168 : Ref sig .tc := ⟨.hbm, 249, rfl⟩
abbrev main_call0_v169 : Ref sig .tc := ⟨.hbm, 250, rfl⟩
abbrev main_call0_v170 : Ref sig .tc := ⟨.hbm, 251, rfl⟩
abbrev main_call0_v171 : Ref sig .tc := ⟨.hbm, 252, rfl⟩
abbrev main_call0_v172 : Ref sig .tc := ⟨.hbm, 253, rfl⟩
abbrev main_call0_v173 : Ref sig .tc := ⟨.hbm, 254, rfl⟩
abbrev main_call0_c_47 : Ref sig .tc := ⟨.hbm, 255, rfl⟩
abbrev main_call0_v174 : Ref sig .tc := ⟨.hbm, 256, rfl⟩
abbrev main_call0_v175 : Ref sig .tc := ⟨.hbm, 257, rfl⟩
abbrev main_call0_c_48 : Ref sig .tc := ⟨.hbm, 258, rfl⟩
abbrev main_call0_v176 : Ref sig .tc := ⟨.hbm, 259, rfl⟩
abbrev main_call0_v177 : Ref sig .tc := ⟨.hbm, 260, rfl⟩
abbrev main_call0_v178 : Ref sig .tc := ⟨.hbm, 261, rfl⟩
abbrev main_call0_v179 : Ref sig .tc := ⟨.hbm, 262, rfl⟩
abbrev main_call0_v180 : Ref sig .tc := ⟨.hbm, 263, rfl⟩
abbrev main_call0_v181 : Ref sig .tc := ⟨.hbm, 264, rfl⟩
abbrev main_call0_v182 : Ref sig .tc := ⟨.hbm, 265, rfl⟩
abbrev main_call0_v183 : Ref sig .tc := ⟨.hbm, 266, rfl⟩
abbrev main_call0_v184 : Ref sig .tc := ⟨.hbm, 267, rfl⟩
abbrev main_call0_cst_49 : Ref sig .tc := ⟨.hbm, 268, rfl⟩
abbrev main_call0_v185 : Ref sig .tc := ⟨.hbm, 269, rfl⟩
abbrev main_call0_v186 : Ref sig .tc := ⟨.hbm, 270, rfl⟩
abbrev main_call0_v187 : Ref sig .tc := ⟨.hbm, 271, rfl⟩
abbrev main_call0_c_50 : Ref sig .tc := ⟨.hbm, 272, rfl⟩
abbrev main_call0_v188 : Ref sig .tc := ⟨.hbm, 273, rfl⟩
abbrev main_call0_v189 : Ref sig .tc := ⟨.hbm, 274, rfl⟩
abbrev main_call0_c_51 : Ref sig .tc := ⟨.hbm, 275, rfl⟩
abbrev main_call0_v190 : Ref sig .tc := ⟨.hbm, 276, rfl⟩
abbrev main_call0_v191 : Ref sig .tc := ⟨.hbm, 277, rfl⟩
abbrev main_call0_v192 : Ref sig .tc := ⟨.hbm, 278, rfl⟩
abbrev main_call0_v193 : Ref sig .tc := ⟨.hbm, 279, rfl⟩
abbrev main_call0_v194 : Ref sig .tc := ⟨.hbm, 280, rfl⟩
abbrev main_call0_v195 : Ref sig .tc := ⟨.hbm, 281, rfl⟩
abbrev main_call0_v196 : Ref sig .tc := ⟨.hbm, 282, rfl⟩
abbrev main_call0_v197 : Ref sig .tc := ⟨.hbm, 283, rfl⟩
abbrev main_call0_v198 : Ref sig .tc := ⟨.hbm, 284, rfl⟩
abbrev main_call0_cst_52 : Ref sig .tc := ⟨.hbm, 285, rfl⟩
abbrev main_call0_v199 : Ref sig .tc := ⟨.hbm, 286, rfl⟩
abbrev main_call0_v200 : Ref sig .tc := ⟨.hbm, 287, rfl⟩
abbrev main_call0_v201 : Ref sig .tc := ⟨.hbm, 288, rfl⟩
abbrev main_call0_c_53 : Ref sig .tc := ⟨.hbm, 289, rfl⟩
abbrev main_call0_v202 : Ref sig .tc := ⟨.hbm, 290, rfl⟩
abbrev main_call0_v203 : Ref sig .tc := ⟨.hbm, 291, rfl⟩
abbrev main_call0_c_54 : Ref sig .tc := ⟨.hbm, 292, rfl⟩
abbrev main_call0_v204 : Ref sig .tc := ⟨.hbm, 293, rfl⟩
abbrev main_call0_v205 : Ref sig .tc := ⟨.hbm, 294, rfl⟩
abbrev main_call0_v206 : Ref sig .tc := ⟨.hbm, 295, rfl⟩
abbrev main_call0_v207 : Ref sig .tc := ⟨.hbm, 296, rfl⟩
abbrev main_call0_v208 : Ref sig .tc := ⟨.hbm, 297, rfl⟩
abbrev main_call0_v209 : Ref sig .tc := ⟨.hbm, 298, rfl⟩
abbrev main_call0_v210 : Ref sig .tc := ⟨.hbm, 299, rfl⟩
abbrev main_call0_v211 : Ref sig .tc := ⟨.hbm, 300, rfl⟩
abbrev main_call0_v212 : Ref sig .tc := ⟨.hbm, 301, rfl⟩
abbrev main_call0_cst_55 : Ref sig .tc := ⟨.hbm, 302, rfl⟩
abbrev main_call0_v213 : Ref sig .tc := ⟨.hbm, 303, rfl⟩
abbrev main_call0_v214 : Ref sig .tc := ⟨.hbm, 304, rfl⟩
abbrev main_call0_v215 : Ref sig .tc := ⟨.hbm, 305, rfl⟩
abbrev main_call0_v216 : Ref sig .tc := ⟨.hbm, 306, rfl⟩
abbrev main_call0_v217 : Ref sig .tc := ⟨.hbm, 307, rfl⟩
abbrev main_call0_c_56 : Ref sig .tc := ⟨.hbm, 308, rfl⟩
abbrev main_call0_v218 : Ref sig .tc := ⟨.hbm, 309, rfl⟩
abbrev main_call0_v219 : Ref sig .tc := ⟨.hbm, 310, rfl⟩
abbrev main_call0_c_57 : Ref sig .tc := ⟨.hbm, 311, rfl⟩
abbrev main_call0_v220 : Ref sig .tc := ⟨.hbm, 312, rfl⟩
abbrev main_call0_v221 : Ref sig .tc := ⟨.hbm, 313, rfl⟩
abbrev main_call0_v222 : Ref sig .tc := ⟨.hbm, 314, rfl⟩
abbrev main_call0_v223 : Ref sig .tc := ⟨.hbm, 315, rfl⟩
abbrev main_call0_v224 : Ref sig .tc := ⟨.hbm, 316, rfl⟩
abbrev main_call0_v225 : Ref sig .tc := ⟨.hbm, 317, rfl⟩
abbrev main_call0_v226 : Ref sig .tc := ⟨.hbm, 318, rfl⟩
abbrev main_call0_v227 : Ref sig .tc := ⟨.hbm, 319, rfl⟩
abbrev main_call0_v228 : Ref sig .tc := ⟨.hbm, 320, rfl⟩
abbrev main_call0_cst_58 : Ref sig .tc := ⟨.hbm, 321, rfl⟩
abbrev main_call0_v229 : Ref sig .tc := ⟨.hbm, 322, rfl⟩
abbrev main_call0_v230 : Ref sig .tc := ⟨.hbm, 323, rfl⟩
abbrev main_call0_v231 : Ref sig .tc := ⟨.hbm, 324, rfl⟩
abbrev main_call0_c_59 : Ref sig .tc := ⟨.hbm, 325, rfl⟩
abbrev main_call0_v232 : Ref sig .tc := ⟨.hbm, 326, rfl⟩
abbrev main_call0_v233 : Ref sig .tc := ⟨.hbm, 327, rfl⟩
abbrev main_call0_c_60 : Ref sig .tc := ⟨.hbm, 328, rfl⟩
abbrev main_call0_v234 : Ref sig .tc := ⟨.hbm, 329, rfl⟩
abbrev main_call0_v235 : Ref sig .tc := ⟨.hbm, 330, rfl⟩
abbrev main_call0_v236 : Ref sig .tc := ⟨.hbm, 331, rfl⟩
abbrev main_call0_v237 : Ref sig .tc := ⟨.hbm, 332, rfl⟩
abbrev main_call0_v238 : Ref sig .tc := ⟨.hbm, 333, rfl⟩
abbrev main_call0_v239 : Ref sig .tc := ⟨.hbm, 334, rfl⟩
abbrev main_call0_v240 : Ref sig .tc := ⟨.hbm, 335, rfl⟩
abbrev main_call0_v241 : Ref sig .tc := ⟨.hbm, 336, rfl⟩
abbrev main_call0_v242 : Ref sig .tc := ⟨.hbm, 337, rfl⟩
abbrev main_call0_cst_61 : Ref sig .tc := ⟨.hbm, 338, rfl⟩
abbrev main_call0_v243 : Ref sig .tc := ⟨.hbm, 339, rfl⟩
abbrev main_call0_v244 : Ref sig .tc := ⟨.hbm, 340, rfl⟩
abbrev main_call0_v245 : Ref sig .tc := ⟨.hbm, 341, rfl⟩
abbrev main_call0_c_62 : Ref sig .tc := ⟨.hbm, 342, rfl⟩
abbrev main_call0_v246 : Ref sig .tc := ⟨.hbm, 343, rfl⟩
abbrev main_call0_v247 : Ref sig .tc := ⟨.hbm, 344, rfl⟩
abbrev main_call0_c_63 : Ref sig .tc := ⟨.hbm, 345, rfl⟩
abbrev main_call0_v248 : Ref sig .tc := ⟨.hbm, 346, rfl⟩
abbrev main_call0_v249 : Ref sig .tc := ⟨.hbm, 347, rfl⟩
abbrev main_call0_v250 : Ref sig .tc := ⟨.hbm, 348, rfl⟩
abbrev main_call0_v251 : Ref sig .tc := ⟨.hbm, 349, rfl⟩
abbrev main_call0_v252 : Ref sig .tc := ⟨.hbm, 350, rfl⟩
abbrev main_call0_v253 : Ref sig .tc := ⟨.hbm, 351, rfl⟩
abbrev main_call0_v254 : Ref sig .tc := ⟨.hbm, 352, rfl⟩
abbrev main_call0_v255 : Ref sig .tc := ⟨.hbm, 353, rfl⟩
abbrev main_call0_v256 : Ref sig .tc := ⟨.hbm, 354, rfl⟩
abbrev main_call0_cst_64 : Ref sig .tc := ⟨.hbm, 355, rfl⟩
abbrev main_call0_v257 : Ref sig .tc := ⟨.hbm, 356, rfl⟩
abbrev main_call0_v258 : Ref sig .tc := ⟨.hbm, 357, rfl⟩
abbrev main_call0_v259 : Ref sig .tc := ⟨.hbm, 358, rfl⟩
abbrev main_call0_v260 : Ref sig .tc := ⟨.hbm, 359, rfl⟩
abbrev main_call0_v261 : Ref sig .tc := ⟨.hbm, 360, rfl⟩
abbrev main_call0_c_65 : Ref sig .tc := ⟨.hbm, 361, rfl⟩
abbrev main_call0_v262 : Ref sig .tc := ⟨.hbm, 362, rfl⟩
abbrev main_call0_v263 : Ref sig .tc := ⟨.hbm, 363, rfl⟩
abbrev main_call0_c_66 : Ref sig .tc := ⟨.hbm, 364, rfl⟩
abbrev main_call0_v264 : Ref sig .tc := ⟨.hbm, 365, rfl⟩
abbrev main_call0_v265 : Ref sig .tc := ⟨.hbm, 366, rfl⟩
abbrev main_call0_v266 : Ref sig .tc := ⟨.hbm, 367, rfl⟩
abbrev main_call0_v267 : Ref sig .tc := ⟨.hbm, 368, rfl⟩
abbrev main_call0_v268 : Ref sig .tc := ⟨.hbm, 369, rfl⟩
abbrev main_call0_v269 : Ref sig .tc := ⟨.hbm, 370, rfl⟩
abbrev main_call0_v270 : Ref sig .tc := ⟨.hbm, 371, rfl⟩
abbrev main_call0_v271 : Ref sig .tc := ⟨.hbm, 372, rfl⟩
abbrev main_call0_v272 : Ref sig .tc := ⟨.hbm, 373, rfl⟩
abbrev main_call0_cst_67 : Ref sig .tc := ⟨.hbm, 374, rfl⟩
abbrev main_call0_v273 : Ref sig .tc := ⟨.hbm, 375, rfl⟩
abbrev main_call0_v274 : Ref sig .tc := ⟨.hbm, 376, rfl⟩
abbrev main_call0_v275 : Ref sig .tc := ⟨.hbm, 377, rfl⟩
abbrev main_call0_c_68 : Ref sig .tc := ⟨.hbm, 378, rfl⟩
abbrev main_call0_v276 : Ref sig .tc := ⟨.hbm, 379, rfl⟩
abbrev main_call0_v277 : Ref sig .tc := ⟨.hbm, 380, rfl⟩
abbrev main_call0_c_69 : Ref sig .tc := ⟨.hbm, 381, rfl⟩
abbrev main_call0_v278 : Ref sig .tc := ⟨.hbm, 382, rfl⟩
abbrev main_call0_v279 : Ref sig .tc := ⟨.hbm, 383, rfl⟩
abbrev main_call0_v280 : Ref sig .tc := ⟨.hbm, 384, rfl⟩
abbrev main_call0_v281 : Ref sig .tc := ⟨.hbm, 385, rfl⟩
abbrev main_call0_v282 : Ref sig .tc := ⟨.hbm, 386, rfl⟩
abbrev main_call0_v283 : Ref sig .tc := ⟨.hbm, 387, rfl⟩
abbrev main_call0_v284 : Ref sig .tc := ⟨.hbm, 388, rfl⟩
abbrev main_call0_v285 : Ref sig .tc := ⟨.hbm, 389, rfl⟩
abbrev main_call0_v286 : Ref sig .tc := ⟨.hbm, 390, rfl⟩
abbrev main_call0_cst_70 : Ref sig .tc := ⟨.hbm, 391, rfl⟩
abbrev main_call0_v287 : Ref sig .tc := ⟨.hbm, 392, rfl⟩
abbrev main_call0_v288 : Ref sig .tc := ⟨.hbm, 393, rfl⟩
abbrev main_call0_v289 : Ref sig .tc := ⟨.hbm, 394, rfl⟩
abbrev main_call0_c_71 : Ref sig .tc := ⟨.hbm, 395, rfl⟩
abbrev main_call0_v290 : Ref sig .tc := ⟨.hbm, 396, rfl⟩
abbrev main_call0_v291 : Ref sig .tc := ⟨.hbm, 397, rfl⟩
abbrev main_call0_c_72 : Ref sig .tc := ⟨.hbm, 398, rfl⟩
abbrev main_call0_v292 : Ref sig .tc := ⟨.hbm, 399, rfl⟩
abbrev main_call0_v293 : Ref sig .tc := ⟨.hbm, 400, rfl⟩
abbrev main_call0_v294 : Ref sig .tc := ⟨.hbm, 401, rfl⟩
abbrev main_call0_v295 : Ref sig .tc := ⟨.hbm, 402, rfl⟩
abbrev main_call0_v296 : Ref sig .tc := ⟨.hbm, 403, rfl⟩
abbrev main_call0_v297 : Ref sig .tc := ⟨.hbm, 404, rfl⟩
abbrev main_call0_v298 : Ref sig .tc := ⟨.hbm, 405, rfl⟩
abbrev main_call0_v299 : Ref sig .tc := ⟨.hbm, 406, rfl⟩
abbrev main_call0_v300 : Ref sig .tc := ⟨.hbm, 407, rfl⟩
abbrev main_call0_cst_73 : Ref sig .tc := ⟨.hbm, 408, rfl⟩
abbrev main_call0_v301 : Ref sig .tc := ⟨.hbm, 409, rfl⟩
abbrev main_call0_v302 : Ref sig .tc := ⟨.hbm, 410, rfl⟩
abbrev main_call0_v303 : Ref sig .tc := ⟨.hbm, 411, rfl⟩
abbrev main_call0_v304 : Ref sig .tc := ⟨.hbm, 412, rfl⟩
abbrev main_call0_v305 : Ref sig .tc := ⟨.hbm, 413, rfl⟩
abbrev main_v0_0 : Ref sig .tc := ⟨.hbm, 414, rfl⟩
abbrev main_v0_1 : Ref sig .tc := ⟨.hbm, 415, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S384x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S192x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x192 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x4 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  bitsLt_bf16_f32 : FTy.bits .bf16 < FTy.bits .f32
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S128x384_S384x128_1_0 : S128x384.Transposes [1, 0] S384x128
  transposes_S64x384_S384x64_1_0 : S64x384.Transposes [1, 0] S384x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  transposes_S4x192_S192x4_1_0 : S4x192.Transposes [1, 0] S192x4
  shapeCasts_S4_S1x4 : S4.ShapeCasts S1x4
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  broadcasts_S1x128_S2000x128 : S1x128.Broadcasts S2000x128
  inb_S384x128_S128x128_0_0 : ∀ a, (![0, 0] : Fin 2 → Nat) a + S128x128.size a ≤ S384x128.size a
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S384x64_S128x64_0_0 : ∀ a, (![0, 0] : Fin 2 → Nat) a + S128x64.size a ≤ S384x64.size a
  h_S128x64 : 0 < S128x64.numel
  shapeCasts_S128x64_S128x64 : S128x64.ShapeCasts S128x64
  inb_S384x64_S128x64_128_0 : ∀ a, (![128, 0] : Fin 2 → Nat) a + S128x64.size a ≤ S384x64.size a
  inb_S384x64_S128x64_256_0 : ∀ a, (![256, 0] : Fin 2 → Nat) a + S128x64.size a ≤ S384x64.size a
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  inb_S1x64_S1x64_0_0 : ∀ a, (![0, 0] : Fin 2 → Nat) a + S1x64.size a ≤ S1x64.size a
  h_S1x64 : 0 < S1x64.numel
  shapeCasts_S2000x64_S2000x64 : S2000x64.ShapeCasts S2000x64
  broadcasts_S1x64_S2000x64 : S1x64.Broadcasts S2000x64
  concatenates_S2000x64_S2000x64_S2000x64_S2000x192_d1 : Shape.Concatenates [S2000x64, S2000x64, S2000x64] S2000x192 1
  inb_S2000x192_S2000x192_0_0 : ∀ a, (![0, 0] : Fin 2 → Nat) a + S2000x192.size a ≤ S2000x192.size a
  h_S2000x192 : 0 < S2000x192.numel
  inb_S192x4_S64x4_0_0 : ∀ a, (![0, 0] : Fin 2 → Nat) a + S64x4.size a ≤ S192x4.size a
  h_S64x4 : 0 < S64x4.numel
  shapeCasts_S64x4_S64x4 : S64x4.ShapeCasts S64x4
  inb_S192x4_S64x4_64_0 : ∀ a, (![64, 0] : Fin 2 → Nat) a + S64x4.size a ≤ S192x4.size a
  inb_S192x4_S64x4_128_0 : ∀ a, (![128, 0] : Fin 2 → Nat) a + S64x4.size a ≤ S192x4.size a
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  reduces_S2000x4_S2000 : S2000x4.Reduces [1] S2000
  shapeCasts_S2000_S2000x1 : S2000.ShapeCasts S2000x1
  broadcasts_S2000x1_S2000x4 : S2000x1.Broadcasts S2000x4
  inb_S2000x4_S2000x4_0_0 : ∀ a, (![0, 0] : Fin 2 → Nat) a + S2000x4.size a ≤ S2000x4.size a
  h_S2000x4 : 0 < S2000x4.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S850000_S850000x1_S850000_n_0_n_n_0_1_1_wf : GatherDims.WF S850000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x4_S2000x4_1_0_0_1_n_n_wf : DotDims.WF S2000x64 S64x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x128.size a ≤ S384x128.size a
  hwx1_4 : ∀ i : grid1.Coords, EltTy.bits .f32 = 32 ∨ (Rect.block (s := S384x128) S384x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S384x64.size a ≤ S384x64.size a
  hwx2_4 : ∀ i : grid2.Coords, EltTy.bits .f32 = 32 ∨ (Rect.block (s := S384x64) S384x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .bf16 = 32 ∨ (Rect.block (s := S50000x64) S2000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S192x4.size a ≤ S192x4.size a
  hwx3_4 : ∀ i : grid3.Coords, EltTy.bits .f32 = 32 ∨ (Rect.block (s := S192x4) S192x4.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x4.size a ≤ S1x4.size a
  hwx3_5 : ∀ i : grid3.Coords, EltTy.bits .f32 = 32 ∨ (Rect.block (s := S1x4) S1x4.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x192.size a ≤ S50000x192.size a
  hwx3_6 : ∀ i : grid3.Coords, EltTy.bits .f32 = 32 ∨ (Rect.block (s := S50000x192) S2000x192.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x4.size a ≤ S50000x4.size a
  hwx3_7 : ∀ i : grid3.Coords, EltTy.bits .f32 = 32 ∨ (Rect.block (s := S50000x4) S2000x4.size (cc3_transform_7 i) (hinb3_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def comparator_i32_i32_d0 : BitVec 32 × BitVec 32 → BitVec 32 × BitVec 32 → BitVec 1 :=
  fun l r =>
    let v2 := IntOp.cmpi .slt l.1 r.1
    v2
def gather_S850000_S850000x1_S850000_n_0_n_n_0_1_1 : GatherDims S850000 S850000x1 S850000 where
  offsetDims := []
  collapsedSliceDims := [0]
  operandBatchingDims := []
  startIndicesBatchingDims := []
  startIndexMap := [0]
  indexVectorDim := 1
  sliceSizes := ![1]
  wf := gather_S850000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v172) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v173) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v187) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v201) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v215) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v216) S384x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v217) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v231) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v245) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v259) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v260) S384x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v261) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v275) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v289) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v303) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v304) S192x4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v305) S1x4.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v0_0) S2000x192.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v0_1) S2000x4.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128x384 : Shape := ⟨2, ![128, 384]⟩
abbrev S64x384 : Shape := ⟨2, ![64, 384]⟩
abbrev S1x128 : Shape := ⟨2, ![1, 128]⟩
abbrev S1x64 : Shape := ⟨2, ![1, 64]⟩
abbrev S4x192 : Shape := ⟨2, ![4, 192]⟩
abbrev S4 : Shape := ⟨1, ![4]⟩
abbrev S_ : Shape := ⟨0, ![]⟩
abbrev S1x800000 : Shape := ⟨2, ![1, 800000]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S50000x384 : Shape := ⟨2, ![50000, 384]⟩
abbrev S384x128 : Shape := ⟨2, ![384, 128]⟩
abbrev S384x64 : Shape := ⟨2, ![384, 64]⟩
abbrev S50000x64 : Shape := ⟨2, ![50000, 64]⟩
abbrev S850000x64 : Shape := ⟨2, ![850000, 64]⟩
abbrev S50000x192 : Shape := ⟨2, ![50000, 192]⟩
abbrev S192x4 : Shape := ⟨2, ![192, 4]⟩
abbrev S50000x4 : Shape := ⟨2, ![50000, 4]⟩
abbrev S1x4 : Shape := ⟨2, ![1, 4]⟩
abbrev S50000x1 : Shape := ⟨2, ![50000, 1]⟩

abbrev nBuf : Space → Nat
  | .hbm => 363
  | .vmem => 0
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S2x800000, .i32⟩
  | 4 => ⟨S800000, .f32⟩
  | 5 => ⟨S800000, .f32⟩
  | 6 => ⟨S128x128, .f32⟩
  | 7 => ⟨S128x384, .f32⟩
  | 8 => ⟨S64x384, .f32⟩
  | 9 => ⟨S1x128, .f32⟩
  | 10 => ⟨S1x128, .f32⟩
  | 11 => ⟨S1x64, .f32⟩
  | 12 => ⟨S4x192, .f32⟩
  | 13 => ⟨S4, .f32⟩
  | 14 => ⟨S_, .f32⟩
  | 15 => ⟨S800000, .f32⟩
  | 16 => ⟨S1x800000, .i32⟩
  | 17 => ⟨S800000, .i32⟩
  | 18 => ⟨S1x800000, .i32⟩
  | 19 => ⟨S800000, .i32⟩
  | 20 => ⟨S50000, .i32⟩
  | 21 => ⟨S850000, .i32⟩
  | 22 => ⟨S850000, .i32⟩
  | 23 => ⟨S_, .f32⟩
  | 24 => ⟨S50000, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .i1⟩
  | 36 => ⟨S_, .f32⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S1x800000, .i32⟩
  | 66 => ⟨S800000, .i32⟩
  | 67 => ⟨S1x800000, .i32⟩
  | 68 => ⟨S800000, .i32⟩
  | 69 => ⟨S50000, .i32⟩
  | 70 => ⟨S850000, .i32⟩
  | 71 => ⟨S850000, .i32⟩
  | 72 => ⟨S_, .f32⟩
  | 73 => ⟨S50000, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .i1⟩
  | 85 => ⟨S_, .f32⟩
  | 86 => ⟨S_, .f32⟩
  | 87 => ⟨S50000, .f32⟩
  | 88 => ⟨S50000, .f32⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S1x800000, .i32⟩
  | 115 => ⟨S800000, .i32⟩
  | 116 => ⟨S1x800000, .i32⟩
  | 117 => ⟨S800000, .i32⟩
  | 118 => ⟨S50000, .i32⟩
  | 119 => ⟨S850000, .i32⟩
  | 120 => ⟨S850000, .i32⟩
  | 121 => ⟨S_, .f32⟩
  | 122 => ⟨S50000, .f32⟩
  | 123 => ⟨S850000, .f32⟩
  | 124 => ⟨S_, .f32⟩
  | 125 => ⟨S50000, .f32⟩
  | 126 => ⟨S850000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .i1⟩
  | 3 => ⟨S_, .f32⟩
  | 4 => ⟨S50000, .f32⟩
  | 5 => ⟨S50000, .i1⟩
  | 6 => ⟨S_, .f32⟩
  | 7 => ⟨S_, .f32⟩
  | 8 => ⟨S50000, .f32⟩
  | 9 => ⟨S50000, .f32⟩
  | 10 => ⟨S50000, .f32⟩
  | 11 => ⟨S_, .f32⟩
  | 12 => ⟨S_, .f32⟩
  | 13 => ⟨S50000, .f32⟩
  | 14 => ⟨S50000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000, .f32⟩
  | 24 => ⟨S850000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S850000, .f32⟩
  | 35 => ⟨S128x128, .f32⟩
  | 36 => ⟨S50000x128, .f32⟩
  | 37 => ⟨S850000x1, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x128, .f32⟩
  | 47 => ⟨S850000x128, .f32⟩
  | 48 => ⟨S850000x128, .f32⟩
  | 49 => ⟨S_, .f32⟩
  | 50 => ⟨S50000x128, .f32⟩
  | 51 => ⟨S850000x1, .i32⟩
  | 52 => ⟨S50000x128, .f32⟩
  | 53 => ⟨S50000x128, .f32⟩
  | 54 => ⟨S50000x128, .f32⟩
  | 55 => ⟨S850000x1, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S50000x128, .f32⟩
  | 72 => ⟨S50000x128, .f32⟩
  | 73 => ⟨S850000x1, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S50000x128, .f32⟩
  | 90 => ⟨S50000x128, .f32⟩
  | 91 => ⟨S50000x384, .f32⟩
  | 92 => ⟨S_, .f32⟩
  | 93 => ⟨S50000x384, .f32⟩
  | 94 => ⟨S50000x384, .f32⟩
  | 95 => ⟨S384x128, .f32⟩
  | 96 => ⟨S50000x128, .f32⟩
  | 97 => ⟨S850000x1, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S50000x128, .f32⟩
  | 114 => ⟨S50000x128, .f32⟩
  | 115 => ⟨S850000x1, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x128, .f32⟩
  | 126 => ⟨S850000x128, .f32⟩
  | 127 => ⟨S_, .f32⟩
  | _ => ⟨S50000x128, .f32⟩

abbrev hbmTy0_2 (i : Nat) : BufTy := match i % 128 with
  | 0 => ⟨S50000x128, .f32⟩
  | 1 => ⟨S850000x1, .i32⟩
  | 2 => ⟨S50000x128, .f32⟩
  | 3 => ⟨S50000x128, .f32⟩
  | 4 => ⟨S50000x128, .f32⟩
  | 5 => ⟨S850000x1, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x128, .f32⟩
  | 16 => ⟨S850000x128, .f32⟩
  | 17 => ⟨S_, .f32⟩
  | 18 => ⟨S50000x128, .f32⟩
  | 19 => ⟨S850000x1, .i32⟩
  | 20 => ⟨S50000x128, .f32⟩
  | 21 => ⟨S50000x128, .f32⟩
  | 22 => ⟨S50000x128, .f32⟩
  | 23 => ⟨S50000x384, .f32⟩
  | 24 => ⟨S_, .f32⟩
  | 25 => ⟨S50000x384, .f32⟩
  | 26 => ⟨S50000x384, .f32⟩
  | 27 => ⟨S384x64, .f32⟩
  | 28 => ⟨S50000x64, .f32⟩
  | 29 => ⟨S850000x1, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x64, .f32⟩
  | 39 => ⟨S850000x64, .f32⟩
  | 40 => ⟨S850000x64, .f32⟩
  | 41 => ⟨S_, .f32⟩
  | 42 => ⟨S50000x64, .f32⟩
  | 43 => ⟨S850000x1, .i32⟩
  | 44 => ⟨S50000x64, .f32⟩
  | 45 => ⟨S50000x64, .f32⟩
  | 46 => ⟨S50000x64, .f32⟩
  | 47 => ⟨S850000x1, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S50000x64, .f32⟩
  | 64 => ⟨S50000x64, .f32⟩
  | 65 => ⟨S850000x1, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x64, .f32⟩
  | 75 => ⟨S850000x64, .f32⟩
  | 76 => ⟨S850000x64, .f32⟩
  | 77 => ⟨S_, .f32⟩
  | 78 => ⟨S50000x64, .f32⟩
  | 79 => ⟨S850000x1, .i32⟩
  | 80 => ⟨S50000x64, .f32⟩
  | 81 => ⟨S50000x64, .f32⟩
  | 82 => ⟨S50000x64, .f32⟩
  | 83 => ⟨S50000x192, .f32⟩
  | 84 => ⟨S_, .f32⟩
  | 85 => ⟨S50000x192, .f32⟩
  | 86 => ⟨S50000x192, .f32⟩
  | 87 => ⟨S192x4, .f32⟩
  | 88 => ⟨S50000x4, .f32⟩
  | 89 => ⟨S1x4, .f32⟩
  | 90 => ⟨S50000x4, .f32⟩
  | 91 => ⟨S50000x4, .f32⟩
  | 92 => ⟨S_, .f32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x4, .f32⟩
  | 99 => ⟨S50000x4, .f32⟩
  | 100 => ⟨S50000x4, .f32⟩
  | 101 => ⟨S_, .f32⟩
  | 102 => ⟨S50000, .f32⟩
  | 103 => ⟨S50000x1, .f32⟩
  | 104 => ⟨S50000x1, .f32⟩
  | 105 => ⟨S50000x4, .f32⟩
  | 106 => ⟨S50000x4, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_c : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_call2_v0 : Ref sig .tc := ⟨.hbm, 86, rfl⟩
abbrev main_call2_v1 : Ref sig .tc := ⟨.hbm, 87, rfl⟩
abbrev main_v52 : Ref sig .tc := ⟨.hbm, 88, rfl⟩
abbrev main_v53 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v54 : Ref sig .tc := ⟨.hbm, 93, rfl⟩
abbrev main_c_15 : Ref sig .tc := ⟨.hbm, 94, rfl⟩
abbrev main_v55 : Ref sig .tc := ⟨.hbm, 95, rfl⟩
abbrev main_v56 : Ref sig .tc := ⟨.hbm, 96, rfl⟩
abbrev main_c_16 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_17 : Ref sig .tc := ⟨.hbm, 104, rfl⟩
abbrev main_v63 : Ref sig .tc := ⟨.hbm, 105, rfl⟩
abbrev main_v64 : Ref sig .tc := ⟨.hbm, 106, rfl⟩
abbrev main_c_18 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_19 : Ref sig .tc := ⟨.hbm, 121, rfl⟩
abbrev main_v78 : Ref sig .tc := ⟨.hbm, 122, rfl⟩
abbrev main_v79 : Ref sig .tc := ⟨.hbm, 123, rfl⟩
abbrev main_cst_20 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_21 : Ref sig .tc := ⟨.hbm, 128, rfl⟩
abbrev main_v83 : Ref sig .tc := ⟨.hbm, 129, rfl⟩
abbrev main_v84 : Ref sig .tc := ⟨.hbm, 130, rfl⟩
abbrev main_cst_22 : Ref sig .tc := ⟨.hbm, 131, rfl⟩
abbrev main_v85 : Ref sig .tc := ⟨.hbm, 132, rfl⟩
abbrev main_v86 : Ref sig .tc := ⟨.hbm, 133, rfl⟩
abbrev main_cst_23 : Ref sig .tc := ⟨.hbm, 134, rfl⟩
abbrev main_call4_v0 : Ref sig .tc := ⟨.hbm, 135, rfl⟩
abbrev main_call4_v1 : Ref sig .tc := ⟨.hbm, 136, rfl⟩
abbrev main_v87 : Ref sig .tc := ⟨.hbm, 137, rfl⟩
abbrev main_v88 : Ref sig .tc := ⟨.hbm, 138, rfl⟩
abbrev main_cst_24 : Ref sig .tc := ⟨.hbm, 139, rfl⟩
abbrev main_call5_v0 : Ref sig .tc := ⟨.hbm, 140, rfl⟩
abbrev main_call5_v1 : Ref sig .tc := ⟨.hbm, 141, rfl⟩
abbrev main_v89 : Ref sig .tc := ⟨.hbm, 142, rfl⟩
abbrev main_c_25 : Ref sig .tc := ⟨.hbm, 143, rfl⟩
abbrev main_v90 : Ref sig .tc := ⟨.hbm, 144, rfl⟩
abbrev main_v91 : Ref sig .tc := ⟨.hbm, 145, rfl⟩
abbrev main_c_26 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_27 : Ref sig .tc := ⟨.hbm, 153, rfl⟩
abbrev main_v98 : Ref sig .tc := ⟨.hbm, 154, rfl⟩
abbrev main_v99 : Ref sig .tc := ⟨.hbm, 155, rfl⟩
abbrev main_c_28 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_c_29 : Ref sig .tc := ⟨.hbm, 166, rfl⟩
abbrev main_v109 : Ref sig .tc := ⟨.hbm, 167, rfl⟩
abbrev main_v110 : Ref sig .tc := ⟨.hbm, 168, rfl⟩
abbrev main_c_30 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_31 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_32 : Ref sig .tc := ⟨.hbm, 184, rfl⟩
abbrev main_v124 : Ref sig .tc := ⟨.hbm, 185, rfl⟩
abbrev main_v125 : Ref sig .tc := ⟨.hbm, 186, rfl⟩
abbrev main_c_33 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_34 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_c_35 : Ref sig .tc := ⟨.hbm, 202, rfl⟩
abbrev main_v139 : Ref sig .tc := ⟨.hbm, 203, rfl⟩
abbrev main_v140 : Ref sig .tc := ⟨.hbm, 204, rfl⟩
abbrev main_c_36 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_cst_37 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_call6_cst : Ref sig .tc := ⟨.hbm, 220, rfl⟩
abbrev main_call6_v0 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_c_38 : Ref sig .tc := ⟨.hbm, 226, rfl⟩
abbrev main_v158 : Ref sig .tc := ⟨.hbm, 227, rfl⟩
abbrev main_v159 : Ref sig .tc := ⟨.hbm, 228, rfl⟩
abbrev main_c_39 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_40 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_c_41 : Ref sig .tc := ⟨.hbm, 244, rfl⟩
abbrev main_v173 : Ref sig .tc := ⟨.hbm, 245, rfl⟩
abbrev main_v174 : Ref sig .tc := ⟨.hbm, 246, rfl⟩
abbrev main_c_42 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_cst_43 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_c_44 : Ref sig .tc := ⟨.hbm, 262, rfl⟩
abbrev main_v188 : Ref sig .tc := ⟨.hbm, 263, rfl⟩
abbrev main_v189 : Ref sig .tc := ⟨.hbm, 264, rfl⟩
abbrev main_c_45 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_cst_46 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_call7_cst : Ref sig .tc := ⟨.hbm, 280, rfl⟩
abbrev main_call7_v0 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_c_47 : Ref sig .tc := ⟨.hbm, 286, rfl⟩
abbrev main_v207 : Ref sig .tc := ⟨.hbm, 287, rfl⟩
abbrev main_v208 : Ref sig .tc := ⟨.hbm, 288, rfl⟩
abbrev main_c_48 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_cst_49 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_c_50 : Ref sig .tc := ⟨.hbm, 304, rfl⟩
abbrev main_v222 : Ref sig .tc := ⟨.hbm, 305, rfl⟩
abbrev main_v223 : Ref sig .tc := ⟨.hbm, 306, rfl⟩
abbrev main_c_51 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_cst_52 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_c_53 : Ref sig .tc := ⟨.hbm, 322, rfl⟩
abbrev main_v237 : Ref sig .tc := ⟨.hbm, 323, rfl⟩
abbrev main_v238 : Ref sig .tc := ⟨.hbm, 324, rfl⟩
abbrev main_c_54 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_cst_55 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_call8_cst : Ref sig .tc := ⟨.hbm, 340, rfl⟩
abbrev main_call8_v0 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_call9_cst : Ref sig .tc := ⟨.hbm, 348, rfl⟩
abbrev main_call9_v0 : Ref sig .tc := ⟨.hbm, 349, rfl⟩
abbrev main_call9_cst_0 : Ref sig .tc := ⟨.hbm, 350, rfl⟩
abbrev main_call9_v1 : Ref sig .tc := ⟨.hbm, 351, rfl⟩
abbrev main_call9_v2 : Ref sig .tc := ⟨.hbm, 352, rfl⟩
abbrev main_call9_v3 : Ref sig .tc := ⟨.hbm, 353, rfl⟩
abbrev main_call9_v4 : Ref sig .tc := ⟨.hbm, 354, rfl⟩
abbrev main_call9_v5 : Ref sig .tc := ⟨.hbm, 355, rfl⟩
abbrev main_call9_v6 : Ref sig .tc := ⟨.hbm, 356, rfl⟩
abbrev main_call9_cst_1 : Ref sig .tc := ⟨.hbm, 357, rfl⟩
abbrev main_call9_v7 : Ref sig .tc := ⟨.hbm, 358, rfl⟩
abbrev main_call9_v8 : Ref sig .tc := ⟨.hbm, 359, rfl⟩
abbrev main_call9_v9 : Ref sig .tc := ⟨.hbm, 360, rfl⟩
abbrev main_call9_v10 : Ref sig .tc := ⟨.hbm, 361, rfl⟩
abbrev main_v258 : Ref sig .tc := ⟨.hbm, 362, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  bcast_S_S50000x384 : S_.BroadcastsInDim S50000x384 (![] : Fin 0 → Fin S50000x384.rank)
  transposes_S128x384_S384x128_1_0 : S128x384.Transposes [1, 0] S384x128
  transposes_S64x384_S384x64_1_0 : S64x384.Transposes [1, 0] S384x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  concatenates_S50000x64_S50000x64_S50000x64_S50000x192_d1 : Shape.Concatenates [S50000x64, S50000x64, S50000x64] S50000x192 1
  bcast_S_S50000x192 : S_.BroadcastsInDim S50000x192 (![] : Fin 0 → Fin S50000x192.rank)
  transposes_S4x192_S192x4_1_0 : S4x192.Transposes [1, 0] S192x4
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  reducesTo_S50000x4_S50000_d1 : S50000x4.ReducesTo [1] S50000
  h_S_ : 0 < S_.numel
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x384_S384x128_S50000x128_1_0_0_1_n_n_wf : DotDims.WF S50000x384 S384x128 S50000x128 [1] [0] [0] [1] [] []
  dot_S50000x384_S384x64_S50000x64_1_0_0_1_n_n_wf : DotDims.WF S50000x384 S384x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x192_S192x4_S50000x4_1_0_0_1_n_n_wf : DotDims.WF S50000x192 S192x4 S50000x4 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x192_S192x4_S50000x4_1_0_0_1_n_n : DotDims S50000x192 S192x4 S50000x4 where
  lhsContracting := [1]
  rhsContracting := [0]
  lhsNonContracting := [0]
  rhsNonContracting := [1]
  lhsBatch := []
  rhsBatch := []
  wf := dot_S50000x192_S192x4_S50000x4_1_0_0_1_n_n_wf

class Facts : Prop extends Facts₀ where

variable [Facts]
-- ==== Proof.KStages.lean ====
/-
  The kernel program's host stages between its regions, as functions of arrays, in that program's own operations.

  The arcs of a graph are SORTED by target: `sortRows d` is the stable sorting permutation of the target words `d` (the
  position whose arc lands at each place, wrapped once by the arc count when negative, as a one-column index matrix), and an
  arc array read through it (`sortedI`, `sortedF`) is that array in sorted order.  `propSorted128` / `propSorted64`
  propagate a node array along the sorted arcs: the same sum per target row as along the unsorted arcs, its terms in
  another order.
-/
import proofs.«156776_j29454885716514_2_alg».proof.Proof.Gen.KernelIdeal

noncomputable section

namespace Cert.KStage

open Cert.KernelIdeal Cert.KernelIdeal.Gen Idealize.ShloMosaic Idealize.ShloMosaic.TcCoe Idealize.SL.Sem Idealize.ShloMosaic.StableHlo

variable {F : FTy → Type} [FloatOps F]

/-- The sorting permutation of the target words, as start rows for a gather. -/
def sortRows (d : (⟨S850000, .i32⟩ : BufTy).Contents (Elt F)) : (⟨S850000x1, .i32⟩ : BufTy).Contents (Elt F) :=
  broadcastInDim S850000x1 ![0] bcast_S850000_S850000x1_0
    (select
      (cmpi .slt (Host.sort2 S850000 0 comparator_i32_i32_d0 d (iotaInDim S850000 32 0)).2
        (broadcastInDim S850000 ![] bcast_S_S850000 (constantI S_ 32 0#32)))
      (addi (Host.sort2 S850000 0 comparator_i32_i32_d0 d (iotaInDim S850000 32 0)).2
        (broadcastInDim S850000 ![] bcast_S_S850000 (constantI S_ 32 850000#32)))
      (Host.sort2 S850000 0 comparator_i32_i32_d0 d (iotaInDim S850000 32 0)).2)

/-- An integer arc array in the order sorted by the target words `d`. -/
def sortedI (x d : (⟨S850000, .i32⟩ : BufTy).Contents (Elt F)) : (⟨S850000, .i32⟩ : BufTy).Contents (Elt F) :=
  Host.gather gather_S850000_S850000x1_S850000_n_0_n_n_0_1_1 x (sortRows (F := F) d)

/-- A float arc array in the order sorted by the target words `d`. -/
def sortedF (x : (⟨S850000, .f32⟩ : BufTy).Contents (Elt F)) (d : (⟨S850000, .i32⟩ : BufTy).Contents (Elt F)) :
    (⟨S850000, .f32⟩ : BufTy).Contents (Elt F) :=
  Host.gather gather_S850000_S850000x1_S850000_n_0_n_n_0_1_1 x (sortRows (F := F) d)

/-- A source word wrapped once by the node count when negative, as a one-column index matrix. -/
def wrapRow (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Propagation of a 128-column node array along the arcs sorted by target. -/
def propSorted128 (h : (⟨S50000x128, .bf16⟩ : BufTy).Contents (Elt F)) (s d : (⟨S850000, .i32⟩ : BufTy).Contents (Elt F))
    (n : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 (sortedI (F := F) d d))
    (mulf (broadcastInDim S850000x128 ![0, 1] bcast_S850000x1_S850000x128_0_1
        (broadcastInDim S850000x1 ![0] bcast_S850000_S850000x1_0 (sortedF (F := F) n d)))
      (extf .f32 (Host.gather gather_S50000x128_S850000x1_S850000x128_1_0_n_n_0_1_1128 h (wrapRow (F := F) (sortedI (F := F) s d)))
        bitsLt_bf16_f32))

/-- Propagation of a 64-column node array along the arcs sorted by target. -/
def propSorted64 (h : (⟨S50000x64, .bf16⟩ : BufTy).Contents (Elt F)) (s d : (⟨S850000, .i32⟩ : BufTy).Contents (Elt F))
    (n : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 (sortedI (F := F) d d))
    (mulf (broadcastInDim S850000x64 ![0, 1] bcast_S850000x1_S850000x64_0_1
        (broadcastInDim S850000x1 ![0] bcast_S850000_S850000x1_0 (sortedF (F := F) n d)))
      (extf .f32 (Host.gather gather_S50000x64_S850000x1_S850000x64_1_0_n_n_0_1_164 h (wrapRow (F := F) (sortedI (F := F) s d)))
        bitsLt_bf16_f32))

end Cert.KStage

end
-- ==== Proof.Stages.lean ====
/-
  The layers of the graph network as functions of arrays, written in the host program's own operations.

  A node array `h` of `C` columns is PROPAGATED along a list of 850000 weighted arcs (source row `s e`, target row `d e`,
  weight `n e`): row `v` of the result is the sum, over the arcs whose target word names `v`, of `n e` times the row of `h`
  the (wrapped, clamped) source word names.  A DENSE layer adds a bias row to three propagated arrays, clips each at zero,
  lays them side by side (384 or 192 columns) and multiplies by a weight matrix; the last layer adds the class bias and
  takes the logarithm of the softmax along each row of 4.
-/
import proofs.«156776_j29454885716514_2_alg».proof.Proof.Gen.ReferenceIdeal

noncomputable section

namespace Cert.Stage

open Cert.ReferenceIdeal Cert.ReferenceIdeal.Gen Idealize.ShloMosaic Idealize.ShloMosaic.TcCoe Idealize.SL.Sem Idealize.ShloMosaic.StableHlo

variable {F : FTy → Type} [FloatOps F]

/-- A source word wrapped once by the node count when negative, as a one-column index matrix. -/
def wrapRow (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Propagation of a 128-column node array along weighted arcs. -/
def prop128 (h : (⟨S50000x128, .f32⟩ : BufTy).Contents (Elt F)) (s d : (⟨S850000, .i32⟩ : BufTy).Contents (Elt F))
    (n : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (broadcastInDim S850000x128 ![0, 1] bcast_S850000x1_S850000x128_0_1
        (broadcastInDim S850000x1 ![0] bcast_S850000_S850000x1_0 n))
      (Host.gather gather_S50000x128_S850000x1_S850000x128_1_0_n_n_0_1_1128 h (wrapRow s)))

/-- Propagation of a 64-column node array along weighted arcs. -/
def prop64 (h : (⟨S50000x64, .f32⟩ : BufTy).Contents (Elt F)) (s d : (⟨S850000, .i32⟩ : BufTy).Contents (Elt F))
    (n : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (broadcastInDim S850000x64 ![0, 1] bcast_S850000x1_S850000x64_0_1
        (broadcastInDim S850000x1 ![0] bcast_S850000_S850000x1_0 n))
      (Host.gather gather_S50000x64_S850000x1_S850000x64_1_0_n_n_0_1_164 h (wrapRow s)))

/-- The first dense layer: the node features times the transposed weight. -/
def lin0 (x : (⟨S50000x128, .f32⟩ : BufTy).Contents (Elt F)) (wt : (⟨S128x128, .f32⟩ : BufTy).Contents (Elt F)) :
    (⟨S50000x128, .f32⟩ : BufTy).Contents (Elt F) :=
  Host.dotGeneral dot_S50000x128_S128x128_S50000x128_1_0_0_1_n_n none x wt

/-- Three 128-column arrays, each plus the bias row and clipped at zero, side by side. -/
def act128 (p1 p2 p3 : (⟨S50000x128, .f32⟩ : BufTy).Contents (Elt F)) (b : (⟨S1x128, .f32⟩ : BufTy).Contents (Elt F)) :
    (⟨S50000x384, .f32⟩ : BufTy).Contents (Elt F) :=
  maximumf
    (concatenate S50000x384 1
      [⟨S50000x128, addf p1 (broadcastInDim S50000x128 ![0, 1] bcast_S1x128_S50000x128_0_1 b)⟩,
       ⟨S50000x128, addf p2 (broadcastInDim S50000x128 ![0, 1] bcast_S1x128_S50000x128_0_1 b)⟩,
       ⟨S50000x128, addf p3 (broadcastInDim S50000x128 ![0, 1] bcast_S1x128_S50000x128_0_1 b)⟩]
      concatenates_S50000x128_S50000x128_S50000x128_S50000x384_d1)
    (broadcastInDim S50000x384 ![] bcast_S_S50000x384 (constant S_ .f32 0x00000000#32))

/-- Three 64-column arrays, each plus the bias row and clipped at zero, side by side. -/
def act64 (p1 p2 p3 : (⟨S50000x64, .f32⟩ : BufTy).Contents (Elt F)) (b : (⟨S1x64, .f32⟩ : BufTy).Contents (Elt F)) :
    (⟨S50000x192, .f32⟩ : BufTy).Contents (Elt F) :=
  maximumf
    (concatenate S50000x192 1
      [⟨S50000x64, addf p1 (broadcastInDim S50000x64 ![0, 1] bcast_S1x64_S50000x64_0_1 b)⟩,
       ⟨S50000x64, addf p2 (broadcastInDim S50000x64 ![0, 1] bcast_S1x64_S50000x64_0_1 b)⟩,
       ⟨S50000x64, addf p3 (broadcastInDim S50000x64 ![0, 1] bcast_S1x64_S50000x64_0_1 b)⟩]
      concatenates_S50000x64_S50000x64_S50000x64_S50000x192_d1)
    (broadcastInDim S50000x192 ![] bcast_S_S50000x192 (constant S_ .f32 0x00000000#32))

/-- The second dense layer: 384 activations times a 384 by 128 weight. -/
def layer1 (p1 p2 p3 : (⟨S50000x128, .f32⟩ : BufTy).Contents (Elt F)) (b : (⟨S1x128, .f32⟩ : BufTy).Contents (Elt F))
    (wt : (⟨S384x128, .f32⟩ : BufTy).Contents (Elt F)) : (⟨S50000x128, .f32⟩ : BufTy).Contents (Elt F) :=
  Host.dotGeneral dot_S50000x384_S384x128_S50000x128_1_0_0_1_n_n none (act128 p1 p2 p3 b) wt

/-- The third dense layer: 384 activations times a 384 by 64 weight. -/
def layer2 (p1 p2 p3 : (⟨S50000x128, .f32⟩ : BufTy).Contents (Elt F)) (b : (⟨S1x128, .f32⟩ : BufTy).Contents (Elt F))
    (wt : (⟨S384x64, .f32⟩ : BufTy).Contents (Elt F)) : (⟨S50000x64, .f32⟩ : BufTy).Contents (Elt F) :=
  Host.dotGeneral dot_S50000x384_S384x64_S50000x64_1_0_0_1_n_n none (act128 p1 p2 p3 b) wt

/-- The class scores: 192 activations times a 192 by 4 weight, plus the class bias row. -/
def logits (a : (⟨S50000x192, .f32⟩ : BufTy).Contents (Elt F)) (wt : (⟨S192x4, .f32⟩ : BufTy).Contents (Elt F))
    (bc : (⟨S1x4, .f32⟩ : BufTy).Contents (Elt F)) : (⟨S50000x4, .f32⟩ : BufTy).Contents (Elt F) :=
  addf (Host.dotGeneral dot_S50000x192_S192x4_S50000x4_1_0_0_1_n_n none a wt)
    (broadcastInDim S50000x4 ![0, 1] bcast_S1x4_S50000x4_0_1 bc)

/-- The scores of a row less the row's largest. -/
def shifted (z : (⟨S50000x4, .f32⟩ : BufTy).Contents (Elt F)) : (⟨S50000x4, .f32⟩ : BufTy).Contents (Elt F) :=
  subf z (broadcastInDim S50000x4 ![0, 1] bcast_S50000x1_S50000x4_0_1
    (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x4_S50000_d1 h_S_))))

/-- The logarithm of the softmax along each row of 4. -/
def logSoftmax (z : (⟨S50000x4, .f32⟩ : BufTy).Contents (Elt F)) : (⟨S50000x4, .f32⟩ : BufTy).Contents (Elt F) :=
  subf (shifted z) (broadcastInDim S50000x4 ![0, 1] bcast_S50000x1_S50000x4_0_1
    (Host.log (broadcastInDim S50000x1 ![0] bcast_S50000_S50000x1_0
      (Host.reduceAdd (Host.exp (shifted z)) (constant S_ .f32 0x00000000#32) reducesTo_S50000x4_S50000_d1 h_S_))))

end Cert.Stage

end
-- ==== Proof.Spec.lean ====
/-
  The whole network as one function of the fourteen argument arrays.

  Each of the three graphs gets one self-arc of weight one per node appended to its 800000 arcs (`srcOf`, `dstOf`, `selfW`);
  a node's degree is the sum of the weights of the arcs that end in it (`deg`), its scale the reciprocal square root of a
  positive degree and zero otherwise (`dinv`), and an arc's coefficient its weight times the scales of its two ends
  (`normOf`).  A layer multiplies the node array by a weight matrix, propagates the product along each graph, adds the
  bias, clips at zero and lays the three results side by side; after three layers (`outX`) a class layer and the
  logarithm of the softmax give the class scores (`outY`).
-/
import proofs.«156776_j29454885716514_2_alg».proof.Proof.Stages

noncomputable section

namespace Cert.Stage

open Cert.ReferenceIdeal Cert.ReferenceIdeal.Gen Idealize.ShloMosaic Idealize.ShloMosaic.TcCoe Idealize.SL.Sem Idealize.ShloMosaic.StableHlo

variable {F : FTy → Type} [FloatOps F]

/-- The source words of a graph's arcs, then one self-arc per node. -/
def srcOf (e : (⟨S2x800000, .i32⟩ : BufTy).Contents (Elt F)) : (⟨S850000, .i32⟩ : BufTy).Contents (Elt F) :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- The target words of a graph's arcs, then one self-arc per node. -/
def dstOf (e : (⟨S2x800000, .i32⟩ : BufTy).Contents (Elt F)) : (⟨S850000, .i32⟩ : BufTy).Contents (Elt F) :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- The arc weights, then weight one for each self-arc. -/
def selfW (w : (⟨S800000, .f32⟩ : BufTy).Contents (Elt F)) : (⟨S850000, .f32⟩ : BufTy).Contents (Elt F) :=
  concatenate S850000 0
    [⟨S800000, w⟩, ⟨S50000, broadcastInDim S50000 ![] bcast_S_S50000 (constant S_ .f32 0x3F800000#32)⟩]
    concatenates_S800000_S50000_S850000_d0

/-- Weight one on every arc. -/
def onesW : (⟨S800000, .f32⟩ : BufTy).Contents (Elt F) :=
  broadcastInDim S800000 ![] bcast_S_S800000 (constant S_ .f32 0x3F800000#32)

/-- A node's degree: the sum of the weights of the arcs whose target word names it. -/
def deg (d : (⟨S850000, .i32⟩ : BufTy).Contents (Elt F)) (w : (⟨S850000, .f32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d) w

/-- A node's scale: the reciprocal square root of a positive degree, zero otherwise. -/
def dinv (d : (⟨S850000, .i32⟩ : BufTy).Contents (Elt F)) (w : (⟨S850000, .f32⟩ : BufTy).Contents (Elt F)) : (⟨S50000, .f32⟩ : BufTy).Contents (Elt F) :=
  select (cmpf .ogt (deg (F := F) d w) (broadcastInDim S50000 ![] bcast_S_S50000 (constant S_ .f32 0x00000000#32)))
    (Host.rsqrt
      (select (cmpf .ogt (deg (F := F) d w) (broadcastInDim S50000 ![] bcast_S_S50000 (constant S_ .f32 0x00000000#32)))
        (deg (F := F) d w) (broadcastInDim S50000 ![] bcast_S_S50000 (constant S_ .f32 0x3F800000#32))))
    (broadcastInDim S50000 ![] bcast_S_S50000 (constant S_ .f32 0x00000000#32))

/-- An arc's coefficient: its weight times the scales of its source and of its target. -/
def normOf (s d : (⟨S850000, .i32⟩ : BufTy).Contents (Elt F)) (w : (⟨S850000, .f32⟩ : BufTy).Contents (Elt F)) : (⟨S850000, .f32⟩ : BufTy).Contents (Elt F) :=
  mulf (mulf (Host.gather gather_S50000_S850000x1_S850000_n_0_n_n_0_1_1 (dinv (F := F) d w) (wrapRow (F := F) s)) w)
    (Host.gather gather_S50000_S850000x1_S850000_n_0_n_n_0_1_1 (dinv (F := F) d w) (wrapRow (F := F) d))

/-- The first hidden array: the features times the transposed first weight. -/
def hid0 (x : (⟨S50000x128, .f32⟩ : BufTy).Contents (Elt F)) (W0 : (⟨S128x128, .f32⟩ : BufTy).Contents (Elt F)) : (⟨S50000x128, .f32⟩ : BufTy).Contents (Elt F) :=
  lin0 (F := F) x (transpose S128x128 [1, 0] W0 transposes_S128x128_S128x128_1_0)

/-- The second hidden array from the first, along three graphs. -/
def hid1 (h : (⟨S50000x128, .f32⟩ : BufTy).Contents (Elt F)) (s1 d1 : (⟨S850000, .i32⟩ : BufTy).Contents (Elt F)) (n1 : (⟨S850000, .f32⟩ : BufTy).Contents (Elt F))
    (s2 d2 : (⟨S850000, .i32⟩ : BufTy).Contents (Elt F)) (n2 : (⟨S850000, .f32⟩ : BufTy).Contents (Elt F)) (s3 d3 : (⟨S850000, .i32⟩ : BufTy).Contents (Elt F)) (n3 : (⟨S850000, .f32⟩ : BufTy).Contents (Elt F))
    (b : (⟨S1x128, .f32⟩ : BufTy).Contents (Elt F)) (W1 : (⟨S128x384, .f32⟩ : BufTy).Contents (Elt F)) : (⟨S50000x128, .f32⟩ : BufTy).Contents (Elt F) :=
  layer1 (F := F) (prop128 (F := F) h s1 d1 n1) (prop128 (F := F) h s2 d2 n2) (prop128 (F := F) h s3 d3 n3) b
    (transpose S384x128 [1, 0] W1 transposes_S128x384_S384x128_1_0)

/-- The third hidden array from the second, along three graphs. -/
def hid2 (h : (⟨S50000x128, .f32⟩ : BufTy).Contents (Elt F)) (s1 d1 : (⟨S850000, .i32⟩ : BufTy).Contents (Elt F)) (n1 : (⟨S850000, .f32⟩ : BufTy).Contents (Elt F))
    (s2 d2 : (⟨S850000, .i32⟩ : BufTy).Contents (Elt F)) (n2 : (⟨S850000, .f32⟩ : BufTy).Contents (Elt F)) (s3 d3 : (⟨S850000, .i32⟩ : BufTy).Contents (Elt F)) (n3 : (⟨S850000, .f32⟩ : BufTy).Contents (Elt F))
    (b : (⟨S1x128, .f32⟩ : BufTy).Contents (Elt F)) (W2 : (⟨S64x384, .f32⟩ : BufTy).Contents (Elt F)) : (⟨S50000x64, .f32⟩ : BufTy).Contents (Elt F) :=
  layer2 (F := F) (prop128 (F := F) h s1 d1 n1) (prop128 (F := F) h s2 d2 n2) (prop128 (F := F) h s3 d3 n3) b
    (transpose S384x64 [1, 0] W2 transposes_S64x384_S384x64_1_0)

/-- The embedding from the third hidden array, along three graphs. -/
def emb (h : (⟨S50000x64, .f32⟩ : BufTy).Contents (Elt F)) (s1 d1 : (⟨S850000, .i32⟩ : BufTy).Contents (Elt F)) (n1 : (⟨S850000, .f32⟩ : BufTy).Contents (Elt F))
    (s2 d2 : (⟨S850000, .i32⟩ : BufTy).Contents (Elt F)) (n2 : (⟨S850000, .f32⟩ : BufTy).Contents (Elt F)) (s3 d3 : (⟨S850000, .i32⟩ : BufTy).Contents (Elt F)) (n3 : (⟨S850000, .f32⟩ : BufTy).Contents (Elt F))
    (b : (⟨S1x64, .f32⟩ : BufTy).Contents (Elt F)) : (⟨S50000x192, .f32⟩ : BufTy).Contents (Elt F) :=
  act64 (F := F) (prop64 (F := F) h s1 d1 n1) (prop64 (F := F) h s2 d2 n2) (prop64 (F := F) h s3 d3 n3) b

/-- The class scores of an embedding. -/
def scores (a : (⟨S50000x192, .f32⟩ : BufTy).Contents (Elt F)) (Wc : (⟨S4x192, .f32⟩ : BufTy).Contents (Elt F)) (bc : (⟨S4, .f32⟩ : BufTy).Contents (Elt F)) : (⟨S50000x4, .f32⟩ : BufTy).Contents (Elt F) :=
  logSoftmax (F := F) (logits (F := F) a (transpose S192x4 [1, 0] Wc transposes_S4x192_S192x4_1_0)
    (broadcastInDim S1x4 ![1] bcast_S4_S1x4_1 bc))

/-- The embedding as a function of the arguments. -/
def outX (x : (⟨S50000x128, .f32⟩ : BufTy).Contents (Elt F)) (e1 e2 e3 : (⟨S2x800000, .i32⟩ : BufTy).Contents (Elt F)) (w2 w3 : (⟨S800000, .f32⟩ : BufTy).Contents (Elt F))
    (W0 : (⟨S128x128, .f32⟩ : BufTy).Contents (Elt F)) (W1 : (⟨S128x384, .f32⟩ : BufTy).Contents (Elt F)) (W2 : (⟨S64x384, .f32⟩ : BufTy).Contents (Elt F))
    (b0 b1 : (⟨S1x128, .f32⟩ : BufTy).Contents (Elt F)) (b2 : (⟨S1x64, .f32⟩ : BufTy).Contents (Elt F)) : (⟨S50000x192, .f32⟩ : BufTy).Contents (Elt F) :=
  emb (F := F)
    (hid2 (F := F)
      (hid1 (F := F) (hid0 (F := F) x W0)
        (srcOf e1) (dstOf e1) (normOf (F := F) (srcOf e1) (dstOf e1) (selfW (F := F) (onesW (F := F))))
        (srcOf e2) (dstOf e2) (normOf (F := F) (srcOf e2) (dstOf e2) (selfW (F := F) w2))
        (srcOf e3) (dstOf e3) (normOf (F := F) (srcOf e3) (dstOf e3) (selfW (F := F) w3)) b0 W1)
      (srcOf e1) (dstOf e1) (normOf (F := F) (srcOf e1) (dstOf e1) (selfW (F := F) (onesW (F := F))))
      (srcOf e2) (dstOf e2) (normOf (F := F) (srcOf e2) (dstOf e2) (selfW (F := F) w2))
      (srcOf e3) (dstOf e3) (normOf (F := F) (srcOf e3) (dstOf e3) (selfW (F := F) w3)) b1 W2)
    (srcOf e1) (dstOf e1) (normOf (F := F) (srcOf e1) (dstOf e1) (selfW (F := F) (onesW (F := F))))
    (srcOf e2) (dstOf e2) (normOf (F := F) (srcOf e2) (dstOf e2) (selfW (F := F) w2))
    (srcOf e3) (dstOf e3) (normOf (F := F) (srcOf e3) (dstOf e3) (selfW (F := F) w3)) b2

/-- The class scores as a function of the arguments. -/
def outY (x : (⟨S50000x128, .f32⟩ : BufTy).Contents (Elt F)) (e1 e2 e3 : (⟨S2x800000, .i32⟩ : BufTy).Contents (Elt F)) (w2 w3 : (⟨S800000, .f32⟩ : BufTy).Contents (Elt F))
    (W0 : (⟨S128x128, .f32⟩ : BufTy).Contents (Elt F)) (W1 : (⟨S128x384, .f32⟩ : BufTy).Contents (Elt F)) (W2 : (⟨S64x384, .f32⟩ : BufTy).Contents (Elt F))
    (b0 b1 : (⟨S1x128, .f32⟩ : BufTy).Contents (Elt F)) (b2 : (⟨S1x64, .f32⟩ : BufTy).Contents (Elt F)) (Wc : (⟨S4x192, .f32⟩ : BufTy).Contents (Elt F)) (bc : (⟨S4, .f32⟩ : BufTy).Contents (Elt F)) :
    (⟨S50000x4, .f32⟩ : BufTy).Contents (Elt F) :=
  scores (F := F) (outX (F := F) x e1 e2 e3 w2 w3 W0 W1 W2 b0 b1 b2) Wc bc

end Cert.Stage

end
-- ==== Proof.KHost.lean ====
/-
  The kernel program's host stretches, read one at a time.

  Before the first region the three graphs are prepared as in the reference program and then SORTED by target word (each
  arc array read through the sorting permutation); between two regions the region's node array is propagated along each
  sorted graph.  After each stretch the buffers it wrote hold that function of the buffers before it, and every other
  buffer keeps its contents.
-/
import proofs.«156776_j29454885716514_2_alg».proof.Proof.Gen.KernelIdeal.Frame
import proofs.«156776_j29454885716514_2_alg».proof.Proof.KStages
import proofs.«156776_j29454885716514_2_alg».proof.Proof.Spec

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- A buffer none of a literal list's operations writes keeps its contents: each operation's written buffer is another one. -/
macro "keeps_contents" ops:ident : tactic => `(tactic| (
  refine after_of_forall_not_mem _ _ (List.forall_iff_forall_mem.mp ?_)
  simp only [$ops:ident, List.Forall, nullary_writes, unary_writes, binary_writes, ternary_writes, quaternary_writes,
    reshape_writes, nary_writes, Finset.mem_singleton]
  repeat' apply And.intro
  all_goals exact devRef_ne_of_ne (by decide)))

/-- Propagation of a 128-column node array (stored in the 16-bit format, widened after the rows are fetched) along arcs
    already in sorted order. -/
def propK128 (h : (⟨S50000x128, .bf16⟩ : BufTy).Contents (Elt F)) (s d : (⟨S850000, .i32⟩ : BufTy).Contents (Elt F)) (n : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (broadcastInDim S850000x128 ![0, 1] bcast_S850000x1_S850000x128_0_1
        (broadcastInDim S850000x1 ![0] bcast_S850000_S850000x1_0 n))
      (extf .f32 (Host.gather gather_S50000x128_S850000x1_S850000x128_1_0_n_n_0_1_1128 h (Cert.KStage.wrapRow (F := F) s)) bitsLt_bf16_f32))

/-- Propagation of a 64-column node array along arcs already in sorted order. -/
def propK64 (h : (⟨S50000x64, .bf16⟩ : BufTy).Contents (Elt F)) (s d : (⟨S850000, .i32⟩ : BufTy).Contents (Elt F)) (n : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (broadcastInDim S850000x64 ![0, 1] bcast_S850000x1_S850000x64_0_1
        (broadcastInDim S850000x1 ![0] bcast_S850000_S850000x1_0 n))
      (extf .f32 (Host.gather gather_S50000x64_S850000x1_S850000x64_1_0_n_n_0_1_164 h (Cert.KStage.wrapRow (F := F) s)) bitsLt_bf16_f32))

/-- Propagating along the sorted graph is propagating along the three sorted arc arrays. -/
theorem propSorted128_eq_propK (h : (⟨S50000x128, .bf16⟩ : BufTy).Contents (Elt F)) (s d : (⟨S850000, .i32⟩ : BufTy).Contents (Elt F)) (n : (⟨S850000, .f32⟩ : BufTy).Contents (Elt F)) :
    Cert.KStage.propSorted128 (F := F) h s d n
      = propK128 (F := F) h (Cert.KStage.sortedI (F := F) s d) (Cert.KStage.sortedI (F := F) d d) (Cert.KStage.sortedF (F := F) n d) := rfl
theorem propSorted64_eq_propK (h : (⟨S50000x64, .bf16⟩ : BufTy).Contents (Elt F)) (s d : (⟨S850000, .i32⟩ : BufTy).Contents (Elt F)) (n : (⟨S850000, .f32⟩ : BufTy).Contents (Elt F)) :
    Cert.KStage.propSorted64 (F := F) h s d n
      = propK64 (F := F) h (Cert.KStage.sortedI (F := F) s d) (Cert.KStage.sortedI (F := F) d d) (Cert.KStage.sortedF (F := F) n d) := rfl

variable (V : Valuation τ sig (Elt F))

/-! ## Before the first region: the weight transposed (the graphs' sorted arc arrays are read in their own module) -/

set_option maxHeartbeats 4000000 in
theorem pre_wt : after (hostOps0 : List (HloOp τ sig (Elt F))) V (Proc.devRef .tc main_call0_v172)
    = transpose S128x128 [1, 0] (V (Proc.devRef .tc main_arg6)) transposes_S128x128_S128x128_1_0 := by
  after_results_simp <;> rfl

set_option maxHeartbeats 4000000 in
theorem pre_keep_arg0 : after (hostOps0 : List (HloOp τ sig (Elt F))) V (Proc.devRef .tc main_arg0) = V (Proc.devRef .tc main_arg0) := by keeps_contents hostOps0
set_option maxHeartbeats 4000000 in
theorem pre_keep_arg7 : after (hostOps0 : List (HloOp τ sig (Elt F))) V (Proc.devRef .tc main_arg7) = V (Proc.devRef .tc main_arg7) := by keeps_contents hostOps0
set_option maxHeartbeats 4000000 in
theorem pre_keep_arg8 : after (hostOps0 : List (HloOp τ sig (Elt F))) V (Proc.devRef .tc main_arg8) = V (Proc.devRef .tc main_arg8) := by keeps_contents hostOps0
set_option maxHeartbeats 4000000 in
theorem pre_keep_arg9 : after (hostOps0 : List (HloOp τ sig (Elt F))) V (Proc.devRef .tc main_arg9) = V (Proc.devRef .tc main_arg9) := by keeps_contents hostOps0
set_option maxHeartbeats 4000000 in
theorem pre_keep_arg10 : after (hostOps0 : List (HloOp τ sig (Elt F))) V (Proc.devRef .tc main_arg10) = V (Proc.devRef .tc main_arg10) := by keeps_contents hostOps0
set_option maxHeartbeats 4000000 in
theorem pre_keep_arg11 : after (hostOps0 : List (HloOp τ sig (Elt F))) V (Proc.devRef .tc main_arg11) = V (Proc.devRef .tc main_arg11) := by keeps_contents hostOps0
set_option maxHeartbeats 4000000 in
theorem pre_keep_arg12 : after (hostOps0 : List (HloOp τ sig (Elt F))) V (Proc.devRef .tc main_arg12) = V (Proc.devRef .tc main_arg12) := by keeps_contents hostOps0
set_option maxHeartbeats 4000000 in
theorem pre_keep_arg13 : after (hostOps0 : List (HloOp τ sig (Elt F))) V (Proc.devRef .tc main_arg13) = V (Proc.devRef .tc main_arg13) := by keeps_contents hostOps0

/-! ## Between the first and the second region -/

set_option maxHeartbeats 4000000 in
theorem mid1_p1 : after (hostOps1 : List (HloOp τ sig (Elt F))) V (Proc.devRef .tc main_call0_v187) = propK128 (F := F) (V (Proc.devRef .tc main_call0_v173)) (V (Proc.devRef .tc main_call0_v51)) (V (Proc.devRef .tc main_call0_v58)) (V (Proc.devRef .tc main_call0_v65)) := by
  after_results_simp <;> rfl
set_option maxHeartbeats 4000000 in
theorem mid1_p2 : after (hostOps1 : List (HloOp τ sig (Elt F))) V (Proc.devRef .tc main_call0_v201) = propK128 (F := F) (V (Proc.devRef .tc main_call0_v173)) (V (Proc.devRef .tc main_call0_v104)) (V (Proc.devRef .tc main_call0_v111)) (V (Proc.devRef .tc main_call0_v118)) := by
  after_results_simp <;> rfl
set_option maxHeartbeats 4000000 in
theorem mid1_p3 : after (hostOps1 : List (HloOp τ sig (Elt F))) V (Proc.devRef .tc main_call0_v215) = propK128 (F := F) (V (Proc.devRef .tc main_call0_v173)) (V (Proc.devRef .tc main_call0_v157)) (V (Proc.devRef .tc main_call0_v164)) (V (Proc.devRef .tc main_call0_v171)) := by
  after_results_simp <;> rfl
set_option maxHeartbeats 4000000 in
theorem mid1_wt : after (hostOps1 : List (HloOp τ sig (Elt F))) V (Proc.devRef .tc main_call0_v216)
    = transpose S384x128 [1, 0] (V (Proc.devRef .tc main_arg7)) transposes_S128x384_S384x128_1_0 := by
  after_results_simp <;> rfl
set_option maxHeartbeats 4000000 in
theorem mid1_keep_v51 : after (hostOps1 : List (HloOp τ sig (Elt F))) V (Proc.devRef .tc main_call0_v51) = V (Proc.devRef .tc main_call0_v51) := by keeps_contents hostOps1
set_option maxHeartbeats 4000000 in
theorem mid1_keep_v58 : after (hostOps1 : List (HloOp τ sig (Elt F))) V (Proc.devRef .tc main_call0_v58) = V (Proc.devRef .tc main_call0_v58) := by keeps_contents hostOps1
set_option maxHeartbeats 4000000 in
theorem mid1_keep_v65 : after (hostOps1 : List (HloOp τ sig (Elt F))) V (Proc.devRef .tc main_call0_v65) = V (Proc.devRef .tc main_call0_v65) := by keeps_contents hostOps1
set_option maxHeartbeats 4000000 in
theorem mid1_keep_v104 : after (hostOps1 : List (HloOp τ sig (Elt F))) V (Proc.devRef .tc main_call0_v104) = V (Proc.devRef .tc main_call0_v104) := by keeps_contents hostOps1
set_option maxHeartbeats 4000000 in
theorem mid1_keep_v111 : after (hostOps1 : List (HloOp τ sig (Elt F))) V (Proc.devRef .tc main_call0_v111) = V (Proc.devRef .tc main_call0_v111) := by keeps_contents hostOps1
set_option maxHeartbeats 4000000 in
theorem mid1_keep_v118 : after (hostOps1 : List (HloOp τ sig (Elt F))) V (Proc.devRef .tc main_call0_v118) = V (Proc.devRef .tc main_call0_v118) := by keeps_contents hostOps1
set_option maxHeartbeats 4000000 in
theorem mid1_keep_v157 : after (hostOps1 : List (HloOp τ sig (Elt F))) V (Proc.devRef .tc main_call0_v157) = V (Proc.devRef .tc main_call0_v157) := by keeps_contents hostOps1
set_option maxHeartbeats 4000000 in
theorem mid1_keep_v164 : after (hostOps1 : List (HloOp τ sig (Elt F))) V (Proc.devRef .tc main_call0_v164) = V (Proc.devRef .tc main_call0_v164) := by keeps_contents hostOps1
set_option maxHeartbeats 4000000 in
theorem mid1_keep_v171 : after (hostOps1 : List (HloOp τ sig (Elt F))) V (Proc.devRef .tc main_call0_v171) = V (Proc.devRef .tc main_call0_v171) := by keeps_contents hostOps1
set_option maxHeartbeats 4000000 in
theorem mid1_keep_arg8 : after (hostOps1 : List (HloOp τ sig (Elt F))) V (Proc.devRef .tc main_arg8) = V (Proc.devRef .tc main_arg8) := by keeps_contents hostOps1
set_option maxHeartbeats 4000000 in
theorem mid1_keep_arg9 : after (hostOps1 : List (HloOp τ sig (Elt F))) V (Proc.devRef .tc main_arg9) = V (Proc.devRef .tc main_arg9) := by keeps_contents hostOps1
set_option maxHeartbeats 4000000 in
theorem mid1_keep_arg10 : after (hostOps1 : List (HloOp τ sig (Elt F))) V (Proc.devRef .tc main_arg10) = V (Proc.devRef .tc main_arg10) := by keeps_contents hostOps1
set_option maxHeartbeats 4000000 in
theorem mid1_keep_arg11 : after (hostOps1 : List (HloOp τ sig (Elt F))) V (Proc.devRef .tc main_arg11) = V (Proc.devRef .tc main_arg11) := by keeps_contents hostOps1
set_option maxHeartbeats 4000000 in
theorem mid1_keep_arg12 : after (hostOps1 : List (HloOp τ sig (Elt F))) V (Proc.devRef .tc main_arg12) = V (Proc.devRef .tc main_arg12) := by keeps_contents hostOps1
set_option maxHeartbeats 4000000 in
theorem mid1_keep_arg13 : after (hostOps1 : List (HloOp τ sig (Elt F))) V (Proc.devRef .tc main_arg13) = V (Proc.devRef .tc main_arg13) := by keeps_contents hostOps1

/-! ## Between the second and the third region -/

set_option maxHeartbeats 4000000 in
theorem mid2_p1 : after (hostOps2 : List (HloOp τ sig (Elt F))) V (Proc.devRef .tc main_call0_v231) = propK128 (F := F) (V (Proc.devRef .tc main_call0_v217)) (V (Proc.devRef .tc main_call0_v51)) (V (Proc.devRef .tc main_call0_v58)) (V (Proc.devRef .tc main_call0_v65)) := by
  after_results_simp <;> rfl
set_option maxHeartbeats 4000000 in
theorem mid2_p2 : after (hostOps2 : List (HloOp τ sig (Elt F))) V (Proc.devRef .tc main_call0_v245) = propK128 (F := F) (V (Proc.devRef .tc main_call0_v217)) (V (Proc.devRef .tc main_call0_v104)) (V (Proc.devRef .tc main_call0_v111)) (V (Proc.devRef .tc main_call0_v118)) := by
  after_results_simp <;> rfl
set_option maxHeartbeats 4000000 in
theorem mid2_p3 : after (hostOps2 : List (HloOp τ sig (Elt F))) V (Proc.devRef .tc main_call0_v259) = propK128 (F := F) (V (Proc.devRef .tc main_call0_v217)) (V (Proc.devRef .tc main_call0_v157)) (V (Proc.devRef .tc main_call0_v164)) (V (Proc.devRef .tc main_call0_v171)) := by
  after_results_simp <;> rfl
set_option maxHeartbeats 4000000 in
theorem mid2_wt : after (hostOps2 : List (HloOp τ sig (Elt F))) V (Proc.devRef .tc main_call0_v260)
    = transpose S384x64 [1, 0] (V (Proc.devRef .tc main_arg8)) transposes_S64x384_S384x64_1_0 := by
  after_results_simp <;> rfl
set_option maxHeartbeats 4000000 in
theorem mid2_keep_v51 : after (hostOps2 : List (HloOp τ sig (Elt F))) V (Proc.devRef .tc main_call0_v51) = V (Proc.devRef .tc main_call0_v51) := by keeps_contents hostOps2
set_option maxHeartbeats 4000000 in
theorem mid2_keep_v58 : after (hostOps2 : List (HloOp τ sig (Elt F))) V (Proc.devRef .tc main_call0_v58) = V (Proc.devRef .tc main_call0_v58) := by keeps_contents hostOps2
set_option maxHeartbeats 4000000 in
theorem mid2_keep_v65 : after (hostOps2 : List (HloOp τ sig (Elt F))) V (Proc.devRef .tc main_call0_v65) = V (Proc.devRef .tc main_call0_v65) := by keeps_contents hostOps2
set_option maxHeartbeats 4000000 in
theorem mid2_keep_v104 : after (hostOps2 : List (HloOp τ sig (Elt F))) V (Proc.devRef .tc main_call0_v104) = V (Proc.devRef .tc main_call0_v104) := by keeps_contents hostOps2
set_option maxHeartbeats 4000000 in
theorem mid2_keep_v111 : after (hostOps2 : List (HloOp τ sig (Elt F))) V (Proc.devRef .tc main_call0_v111) = V (Proc.devRef .tc main_call0_v111) := by keeps_contents hostOps2
set_option maxHeartbeats 4000000 in
theorem mid2_keep_v118 : after (hostOps2 : List (HloOp τ sig (Elt F))) V (Proc.devRef .tc main_call0_v118) = V (Proc.devRef .tc main_call0_v118) := by keeps_contents hostOps2
set_option maxHeartbeats 4000000 in
theorem mid2_keep_v157 : after (hostOps2 : List (HloOp τ sig (Elt F))) V (Proc.devRef .tc main_call0_v157) = V (Proc.devRef .tc main_call0_v157) := by keeps_contents hostOps2
set_option maxHeartbeats 4000000 in
theorem mid2_keep_v164 : after (hostOps2 : List (HloOp τ sig (Elt F))) V (Proc.devRef .tc main_call0_v164) = V (Proc.devRef .tc main_call0_v164) := by keeps_contents hostOps2
set_option maxHeartbeats 4000000 in
theorem mid2_keep_v171 : after (hostOps2 : List (HloOp τ sig (Elt F))) V (Proc.devRef .tc main_call0_v171) = V (Proc.devRef .tc main_call0_v171) := by keeps_contents hostOps2
set_option maxHeartbeats 4000000 in
theorem mid2_keep_arg10 : after (hostOps2 : List (HloOp τ sig (Elt F))) V (Proc.devRef .tc main_arg10) = V (Proc.devRef .tc main_arg10) := by keeps_contents hostOps2
set_option maxHeartbeats 4000000 in
theorem mid2_keep_arg11 : after (hostOps2 : List (HloOp τ sig (Elt F))) V (Proc.devRef .tc main_arg11) = V (Proc.devRef .tc main_arg11) := by keeps_contents hostOps2
set_option maxHeartbeats 4000000 in
theorem mid2_keep_arg12 : after (hostOps2 : List (HloOp τ sig (Elt F))) V (Proc.devRef .tc main_arg12) = V (Proc.devRef .tc main_arg12) := by keeps_contents hostOps2
set_option maxHeartbeats 4000000 in
theorem mid2_keep_arg13 : after (hostOps2 : List (HloOp τ sig (Elt F))) V (Proc.devRef .tc main_arg13) = V (Proc.devRef .tc main_arg13) := by keeps_contents hostOps2

/-! ## Between the third and the last region -/

set_option maxHeartbeats 4000000 in
theorem mid3_p1 : after (hostOps3 : List (HloOp τ sig (Elt F))) V (Proc.devRef .tc main_call0_v275) = propK64 (F := F) (V (Proc.devRef .tc main_call0_v261)) (V (Proc.devRef .tc main_call0_v51)) (V (Proc.devRef .tc main_call0_v58)) (V (Proc.devRef .tc main_call0_v65)) := by
  after_results_simp <;> rfl
set_option maxHeartbeats 4000000 in
theorem mid3_p2 : after (hostOps3 : List (HloOp τ sig (Elt F))) V (Proc.devRef .tc main_call0_v289) = propK64 (F := F) (V (Proc.devRef .tc main_call0_v261)) (V (Proc.devRef .tc main_call0_v104)) (V (Proc.devRef .tc main_call0_v111)) (V (Proc.devRef .tc main_call0_v118)) := by
  after_results_simp <;> rfl
set_option maxHeartbeats 4000000 in
theorem mid3_p3 : after (hostOps3 : List (HloOp τ sig (Elt F))) V (Proc.devRef .tc main_call0_v303) = propK64 (F := F) (V (Proc.devRef .tc main_call0_v261)) (V (Proc.devRef .tc main_call0_v157)) (V (Proc.devRef .tc main_call0_v164)) (V (Proc.devRef .tc main_call0_v171)) := by
  after_results_simp <;> rfl
set_option maxHeartbeats 4000000 in
theorem mid3_wt : after (hostOps3 : List (HloOp τ sig (Elt F))) V (Proc.devRef .tc main_call0_v304)
    = transpose S192x4 [1, 0] (V (Proc.devRef .tc main_arg12)) transposes_S4x192_S192x4_1_0 := by
  after_results_simp <;> rfl
set_option maxHeartbeats 4000000 in
theorem mid3_bias : after (hostOps3 : List (HloOp τ sig (Elt F))) V (Proc.devRef .tc main_call0_v305)
    = shapeCast S1x4 (V (Proc.devRef .tc main_arg13)) shapeCasts_S4_S1x4 := by
  after_results_simp <;> rfl
set_option maxHeartbeats 4000000 in
theorem mid3_keep_arg11 : after (hostOps3 : List (HloOp τ sig (Elt F))) V (Proc.devRef .tc main_arg11) = V (Proc.devRef .tc main_arg11) := by keeps_contents hostOps3

end Cert.KernelIdeal.HostValue

end
-- ==== Proof.KHostPre.lean ====
/-
  The kernel program's first host stretch, read at the nine sorted arc arrays.

  Before the first region each graph's arcs are sorted by target word: the source words, the target words and the arc
  coefficients are each fetched through the start rows made from the stable sorting permutation of the target words.
  After the stretch the nine buffers that hold them are those functions of the argument arrays.  Each read goes in three
  moves.  The sorting permutation is given a name and never opened.  A value is carried into a buffer, and back, along an
  equation between the buffer's type and the value's type; both are one and the same type, so each such transport is the
  identity, and they are removed one at a time.  What is left is the fetch, by the same start rows, of the unsorted array,
  which is the specification's array by computation.
-/
import proofs.«156776_j29454885716514_2_alg».proof.Proof.Gen.KernelIdeal.Frame
import proofs.«156776_j29454885716514_2_alg».proof.Proof.KStages
import proofs.«156776_j29454885716514_2_alg».proof.Proof.Spec

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Two flat arrays end to end: 800000 entries, then 50000. -/
def cat2 {α : Type} (a : S800000.Idx → α) (b : S50000.Idx → α) : S850000.Idx → α :=
  concatenate S850000 0 [⟨S800000, a⟩, ⟨S50000, b⟩] concatenates_S800000_S50000_S850000_d0

/-- The concatenation of two such arrays, by name. -/
theorem cat2_def {α : Type} (a : S800000.Idx → α) (b : S50000.Idx → α) (h) :
    concatenate S850000 0 [⟨S800000, a⟩, ⟨S50000, b⟩] h = cat2 a b := rfl

/-- A transport along an equation between one and the same type is the identity. -/
theorem cast_same {α : Sort _} (h : α = α) (a : α) : cast h a = a := by
  cases h; rfl

variable (V : Valuation τ sig (Elt F))

/-! ## The three graphs' arc arrays in sorted order -/

set_option maxHeartbeats 4000000 in
/-- Graph 1: the source words in the order sorted by target. -/
theorem pre_src1 : after (hostOps0 : List (HloOp τ sig (Elt F))) V (Proc.devRef .tc main_call0_v51) = Cert.KStage.sortedI (F := F) (Cert.Stage.srcOf (F := F) (V (Proc.devRef .tc main_arg1))) (Cert.Stage.dstOf (F := F) (V (Proc.devRef .tc main_arg1))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg1))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedI Cert.KStage.sortRows
  rw [hP']
  refine congrArg (fun x => Host.gather gather_S850000_S850000x1_S850000_n_0_n_n_0_1_1 x _) ?_
  rfl
set_option maxHeartbeats 4000000 in
/-- Graph 1: the target words in sorted order. -/
theorem pre_dst1 : after (hostOps0 : List (HloOp τ sig (Elt F))) V (Proc.devRef .tc main_call0_v58) = Cert.KStage.sortedI (F := F) (Cert.Stage.dstOf (F := F) (V (Proc.devRef .tc main_arg1))) (Cert.Stage.dstOf (F := F) (V (Proc.devRef .tc main_arg1))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg1))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedI Cert.KStage.sortRows
  rw [hP']
  refine congrArg (fun x => Host.gather gather_S850000_S850000x1_S850000_n_0_n_n_0_1_1 x _) ?_
  rfl
set_option maxHeartbeats 4000000 in
/-- Graph 1: the arc coefficients in the order sorted by target. -/
theorem pre_norm1 : after (hostOps0 : List (HloOp τ sig (Elt F))) V (Proc.devRef .tc main_call0_v65) = Cert.KStage.sortedF (F := F) (Cert.Stage.normOf (F := F) (Cert.Stage.srcOf (F := F) (V (Proc.devRef .tc main_arg1))) (Cert.Stage.dstOf (F := F) (V (Proc.devRef .tc main_arg1))) (Cert.Stage.selfW (F := F) (Cert.Stage.onesW (F := F)))) (Cert.Stage.dstOf (F := F) (V (Proc.devRef .tc main_arg1))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg1))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedF Cert.KStage.sortRows
  rw [hP']
  refine congrArg (fun x => Host.gather gather_S850000_S850000x1_S850000_n_0_n_n_0_1_1 x _) ?_
  rfl
set_option maxHeartbeats 4000000 in
/-- Graph 2: the source words in the order sorted by target. -/
theorem pre_src2 : after (hostOps0 : List (HloOp τ sig (Elt F))) V (Proc.devRef .tc main_call0_v104) = Cert.KStage.sortedI (F := F) (Cert.Stage.srcOf (F := F) (V (Proc.devRef .tc main_arg2))) (Cert.Stage.dstOf (F := F) (V (Proc.devRef .tc main_arg2))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg2))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedI Cert.KStage.sortRows
  rw [hP']
  refine congrArg (fun x => Host.gather gather_S850000_S850000x1_S850000_n_0_n_n_0_1_1 x _) ?_
  rfl
set_option maxHeartbeats 4000000 in
/-- Graph 2: the target words in sorted order. -/
theorem pre_dst2 : after (hostOps0 : List (HloOp τ sig (Elt F))) V (Proc.devRef .tc main_call0_v111) = Cert.KStage.sortedI (F := F) (Cert.Stage.dstOf (F := F) (V (Proc.devRef .tc main_arg2))) (Cert.Stage.dstOf (F := F) (V (Proc.devRef .tc main_arg2))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg2))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedI Cert.KStage.sortRows
  rw [hP']
  refine congrArg (fun x => Host.gather gather_S850000_S850000x1_S850000_n_0_n_n_0_1_1 x _) ?_
  rfl
set_option maxHeartbeats 4000000 in
/-- Graph 2: the arc coefficients in the order sorted by target. -/
theorem pre_norm2 : after (hostOps0 : List (HloOp τ sig (Elt F))) V (Proc.devRef .tc main_call0_v118) = Cert.KStage.sortedF (F := F) (Cert.Stage.normOf (F := F) (Cert.Stage.srcOf (F := F) (V (Proc.devRef .tc main_arg2))) (Cert.Stage.dstOf (F := F) (V (Proc.devRef .tc main_arg2))) (Cert.Stage.selfW (F := F) (V (Proc.devRef .tc main_arg4)))) (Cert.Stage.dstOf (F := F) (V (Proc.devRef .tc main_arg2))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg2))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedF Cert.KStage.sortRows
  rw [hP']
  refine congrArg (fun x => Host.gather gather_S850000_S850000x1_S850000_n_0_n_n_0_1_1 x _) ?_
  rfl
set_option maxHeartbeats 4000000 in
/-- Graph 3: the source words in the order sorted by target. -/
theorem pre_src3 : after (hostOps0 : List (HloOp τ sig (Elt F))) V (Proc.devRef .tc main_call0_v157) = Cert.KStage.sortedI (F := F) (Cert.Stage.srcOf (F := F) (V (Proc.devRef .tc main_arg3))) (Cert.Stage.dstOf (F := F) (V (Proc.devRef .tc main_arg3))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg3))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedI Cert.KStage.sortRows
  rw [hP']
  refine congrArg (fun x => Host.gather gather_S850000_S850000x1_S850000_n_0_n_n_0_1_1 x _) ?_
  rfl
set_option maxHeartbeats 4000000 in
/-- Graph 3: the target words in sorted order. -/
theorem pre_dst3 : after (hostOps0 : List (HloOp τ sig (Elt F))) V (Proc.devRef .tc main_call0_v164) = Cert.KStage.sortedI (F := F) (Cert.Stage.dstOf (F := F) (V (Proc.devRef .tc main_arg3))) (Cert.Stage.dstOf (F := F) (V (Proc.devRef .tc main_arg3))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg3))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedI Cert.KStage.sortRows
  rw [hP']
  refine congrArg (fun x => Host.gather gather_S850000_S850000x1_S850000_n_0_n_n_0_1_1 x _) ?_
  rfl
set_option maxHeartbeats 4000000 in
/-- Graph 3: the arc coefficients in the order sorted by target. -/
theorem pre_norm3 : after (hostOps0 : List (HloOp τ sig (Elt F))) V (Proc.devRef .tc main_call0_v171) = Cert.KStage.sortedF (F := F) (Cert.Stage.normOf (F := F) (Cert.Stage.srcOf (F := F) (V (Proc.devRef .tc main_arg3))) (Cert.Stage.dstOf (F := F) (V (Proc.devRef .tc main_arg3))) (Cert.Stage.selfW (F := F) (V (Proc.devRef .tc main_arg5)))) (Cert.Stage.dstOf (F := F) (V (Proc.devRef .tc main_arg3))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def]
  generalize hP : (Host.sort2 S850000 0 comparator_i32_i32_d0 _ _).2 = P
  have hP' : (Host.sort2 S850000 0 comparator_i32_i32_d0 (Cert.Stage.dstOf (F := F) (V (Proc.devRef .tc main_arg3))) (iotaInDim S850000 32 0)).2 = P := by
    rw [← hP]
    refine congrArg Prod.snd (congr (congrArg (Host.sort2 S850000 0 comparator_i32_i32_d0) ?_) ?_)
    · rfl
    · rfl
  clear hP
  simp only [TRef.toBuf, TRef.ofBuf, cast_same]
  unfold Cert.KStage.sortedF Cert.KStage.sortRows
  rw [hP']
  refine congrArg (fun x => Host.gather gather_S850000_S850000x1_S850000_n_0_n_n_0_1_1 x _) ?_
  rfl

end Cert.KernelIdeal.HostValue

end
-- ==== Proof.KRun.lean ====
/-
  The kernel program's run, read for its two result arrays: every weakly fair execution ends, faulting nowhere, with the
  argument arrays as launched and each result array at the contents the last region's write-backs leave it with (the fold of
  the host stretches and the four regions through @main, `Gen.W8`).  The frame theorem's own launch, with the final state
  read at the two result buffers as well as at the arguments.
-/
import proofs.«156776_j29454885716514_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates with the two result arrays at the last boundary's
    contents and the argument arrays as launched. -/
theorem run_values : θ_run defs (onTc (τ := τ) (main (F := F))) ⟨m, fun _ => 0, ρ⟩ (fun r => ∀ c : Dev nD,
      r.2.mem ((c.tc : Thread nD τ).loc main_v0_0) = W8 m ρ c (Proc.devRef .tc main_v0_0)
      ∧ r.2.mem ((c.tc : Thread nD τ).loc main_v0_1) = W8 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0_0 (by decide)), h c _ (mem_uc main_v0_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.RunValue

end
-- ==== Proof.LibScatterGather.lean ====
/-
  Reads at an index, at the ideal instance: the accumulating scatter along the leading axis (each element plus the
  sum of the updates whose row word, read signed, names it) and the gather along the leading axis (the operand at the
  start word read signed and clamped), for rank-1 and rank-2 operands with one index word per row.
-/
import Idealize.ShloMosaic.Lib.ValueIdx
import Idealize.ShloMosaic.PureOps.Contract

noncomputable section

open scoped BigOperators

namespace Cert.Lib

open Idealize.ShloMosaic Idealize.ShloMosaic.ValueIdx

/-! ## The accumulating scatter into a flat array -/

/-- Dimension numbers of a scatter of `M` scalars into a flat array of `N`: no window axes, operand axis 0 inserted,
    one index word per update. -/
abbrev scat1Dims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on element `i'` exactly when its index word, read signed, is `i'`'s coordinate. -/
theorem scat1_resultIdx_eq_some {N M w : Nat}
    (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i' : (⟨1, ![N]⟩ : Shape).Idx) :
    (scat1Dims N M wf).resultIdx? j idx = some i' ↔
      (idx (ix2 (⟨(j 0).val, (j 0).isLt⟩ : Fin M) ⟨0, Nat.one_pos⟩)).toInt = ((i' 0).val : Int) := by
  have hs : ∀ a, (scat1Dims N M wf).start j idx a + (scat1Dims N M wf).window j a
      = (idx (ix2 (⟨(j 0).val, (j 0).isLt⟩ : Fin M) ⟨0, Nat.one_pos⟩)).toInt := by
    intro a
    obtain rfl : a = 0 := Subsingleton.elim _ _
    have hw : (scat1Dims N M wf).window j 0 = 0 := by
      unfold ScatterDims.window
      rw [dif_neg (by simp [Shape.kept, List.mem_filter])]
    have hst : (scat1Dims N M wf).start j idx 0
        = (idx (ix2 (⟨(j 0).val, (j 0).isLt⟩ : Fin M) ⟨0, Nat.one_pos⟩)).toInt := by
      unfold ScatterDims.start
      rw [dif_pos (show (0 : Fin 1) ∈ (scat1Dims N M wf).scatterDimsToOperandDims from List.mem_singleton.mpr rfl)]
      congr 2
      funext b; refine Fin.ext ?_
      match b with
      | ⟨0, _⟩ => rfl
      | ⟨1, _⟩ => rfl
    rw [hw, hst]; simp
  unfold ScatterDims.resultIdx?
  constructor
  · intro h
    split at h
    · rename_i hb
      have h' := congrArg (fun o => o.map (fun (q : (⟨1, ![N]⟩ : Shape).Idx) => ((q 0).val : Int))) h
      simp only [Option.map_some] at h'
      have := (Option.some.inj h')
      rw [← this]
      have h0 := hb 0
      rw [hs 0] at h0 ⊢
      simp only [Fin.val_mk]
      omega
    · cases h
  · intro h
    have hb : ∀ a, 0 ≤ (scat1Dims N M wf).start j idx a + (scat1Dims N M wf).window j a ∧
        (scat1Dims N M wf).start j idx a + (scat1Dims N M wf).window j a < ((⟨1, ![N]⟩ : Shape).size a : Int) := by
      intro a
      obtain rfl : a = 0 := Subsingleton.elim _ _
      rw [hs 0, h]
      exact ⟨Int.natCast_nonneg _, by exact_mod_cast (i' 0).isLt⟩
    rw [dif_pos hb]
    congr 1
    funext a
    obtain rfl : a = 0 := Subsingleton.elim _ _
    refine Fin.ext ?_
    simp only [Fin.val_mk]
    rw [hs 0, h]; simp

/-- THE SCATTER-ADD INTO A FLAT ARRAY READ AT `i`: the element plus the sum of the updates whose index word, read
    signed, is `i`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (scat1Dims N M wf) x idx upd (ix1 i) =
      x (ix1 i) + ∑ e ∈ Finset.univ.filter (fun e : Fin M => (idx (ix2 e ⟨0, Nat.one_pos⟩)).toInt = (i.val : Int)),
        upd (ix1 e) := by
  unfold Ideal.hostScatterAdd
  congr 1
  refine Finset.sum_nbij' (fun j => (⟨(j 0).val, (j 0).isLt⟩ : Fin M)) (fun e => ix1 e) ?_ ?_ ?_ ?_ ?_
  · intro j hj
    rw [Finset.mem_filter] at hj ⊢
    exact ⟨Finset.mem_univ _, (scat1_resultIdx_eq_some wf idx j (ix1 i)).mp hj.2⟩
  · intro e he
    rw [Finset.mem_filter] at he ⊢
    exact ⟨Finset.mem_univ _, (scat1_resultIdx_eq_some wf idx (ix1 e) (ix1 i)).mpr he.2⟩
  · intro j _
    funext a; match a with | ⟨0, _⟩ => rfl
  · intro e _
    rfl
  · intro j _
    congr 1
    funext a; match a with | ⟨0, _⟩ => rfl

/-! ## The accumulating scatter of rows into a matrix -/

/-- Dimension numbers of a scatter of `M` rows of `C` into an `N` by `C` matrix: update axis 1 the window, operand
    axis 0 inserted, one index word per row. -/
abbrev scat2Dims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update element `(e, c')` lands on `(i, c)` exactly when row `e`'s index word, read signed, is `i` and `c' = c`. -/
theorem scat2_resultIdx_eq_some {N C M w : Nat}
    (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i' : (⟨2, ![N, C]⟩ : Shape).Idx) :
    (scat2Dims N C M wf).resultIdx? j idx = some i' ↔
      (idx (ix2 (⟨(j 0).val, (j 0).isLt⟩ : Fin M) ⟨0, Nat.one_pos⟩)).toInt = ((i' 0).val : Int) ∧
        (j 1).val = (i' 1).val := by
  have hs0 : (scat2Dims N C M wf).start j idx 0 + (scat2Dims N C M wf).window j 0
      = (idx (ix2 (⟨(j 0).val, (j 0).isLt⟩ : Fin M) ⟨0, Nat.one_pos⟩)).toInt := by
    have hw : (scat2Dims N C M wf).window j 0 = 0 := by
      unfold ScatterDims.window
      rw [dif_neg (by simp [Shape.kept, List.mem_filter])]
    have hst : (scat2Dims N C M wf).start j idx 0
        = (idx (ix2 (⟨(j 0).val, (j 0).isLt⟩ : Fin M) ⟨0, Nat.one_pos⟩)).toInt := by
      unfold ScatterDims.start
      rw [dif_pos (show (0 : Fin 2) ∈ (scat2Dims N C M wf).scatterDimsToOperandDims from List.mem_singleton.mpr rfl)]
      congr 2
      funext b; refine Fin.ext ?_
      match b with
      | ⟨0, _⟩ => rfl
      | ⟨1, _⟩ => rfl
    rw [hw, hst]; simp
  have hs1 : (scat2Dims N C M wf).start j idx 1 + (scat2Dims N C M wf).window j 1 = ((j 1).val : Int) := by
    have hw : (scat2Dims N C M wf).window j 1 = (j 1).val := by
      unfold ScatterDims.window
      rw [dif_pos (by simp [Shape.kept, List.mem_filter])]
      rfl
    have hst : (scat2Dims N C M wf).start j idx 1 = 0 := by
      unfold ScatterDims.start
      rw [dif_neg (by simp)]
    rw [hw, hst]; simp
  unfold ScatterDims.resultIdx?
  constructor
  · intro h
    split at h
    · rename_i hb
      have h0' := congrArg (fun o => o.map (fun (q : (⟨2, ![N, C]⟩ : Shape).Idx) => ((q 0).val : Int))) h
      have h1' := congrArg (fun o => o.map (fun (q : (⟨2, ![N, C]⟩ : Shape).Idx) => ((q 1).val : Int))) h
      simp only [Option.map_some] at h0' h1'
      have e0 := (Option.some.inj h0')
      have e1 := (Option.some.inj h1')
      rw [← e0]
      have h0 := hb 0
      have h1 := hb 1
      rw [hs0] at h0 ⊢
      rw [hs1] at h1 e1
      simp only [Fin.val_mk] at e1 ⊢
      omega
    · cases h
  · rintro ⟨h, hc⟩
    have hb : ∀ a, 0 ≤ (scat2Dims N C M wf).start j idx a + (scat2Dims N C M wf).window j a ∧
        (scat2Dims N C M wf).start j idx a + (scat2Dims N C M wf).window j a < ((⟨2, ![N, C]⟩ : Shape).size a : Int) := by
      intro a
      match a with
      | ⟨0, _⟩ =>
        rw [show (⟨0, by omega⟩ : Fin 2) = 0 from rfl, hs0, h]
        exact ⟨Int.natCast_nonneg _, by exact_mod_cast (i' 0).isLt⟩
      | ⟨1, _⟩ =>
        rw [show (⟨1, by omega⟩ : Fin 2) = 1 from rfl, hs1]
        exact ⟨Int.natCast_nonneg _, by exact_mod_cast (j 1).isLt⟩
    rw [dif_pos hb]
    congr 1
    funext a
    refine Fin.ext ?_
    match a with
    | ⟨0, _⟩ =>
      simp only [Fin.val_mk]
      rw [show (⟨0, by omega⟩ : Fin 2) = 0 from rfl, hs0, h]; simp
    | ⟨1, _⟩ =>
      simp only [Fin.val_mk]
      rw [show (⟨1, by omega⟩ : Fin 2) = 1 from rfl, hs1]; simpa using hc

/-- THE SCATTER-ADD OF ROWS READ AT `(i, c)`: the element plus the sum, over the rows whose index word, read signed,
    is `i`, of the row's entry in column `c`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (c : Fin C) :
    Ideal.hostScatterAdd (scat2Dims N C M wf) x idx upd (ix2 i c) =
      x (ix2 i c) + ∑ e ∈ Finset.univ.filter (fun e : Fin M => (idx (ix2 e ⟨0, Nat.one_pos⟩)).toInt = (i.val : Int)),
        upd (ix2 e c) := by
  unfold Ideal.hostScatterAdd
  congr 1
  have hj1 : ∀ j : (⟨2, ![M, C]⟩ : Shape).Idx, (j 1).val = c.val →
      j = ix2 (⟨(j 0).val, (j 0).isLt⟩ : Fin M) c := by
    intro j hc
    funext a
    match a with
    | ⟨0, _⟩ => rfl
    | ⟨1, _⟩ => exact Fin.ext hc
  refine Finset.sum_nbij' (fun j => (⟨(j 0).val, (j 0).isLt⟩ : Fin M)) (fun e => ix2 e c) ?_ ?_ ?_ ?_ ?_
  · intro j hj
    rw [Finset.mem_filter] at hj ⊢
    exact ⟨Finset.mem_univ _, ((scat2_resultIdx_eq_some wf idx j (ix2 i c)).mp hj.2).1⟩
  · intro e he
    rw [Finset.mem_filter] at he ⊢
    exact ⟨Finset.mem_univ _, (scat2_resultIdx_eq_some wf idx (ix2 e c) (ix2 i c)).mpr ⟨he.2, rfl⟩⟩
  · intro j hj
    rw [Finset.mem_filter] at hj
    exact (hj1 j ((scat2_resultIdx_eq_some wf idx j (ix2 i c)).mp hj.2).2).symm
  · intro e _
    rfl
  · intro j hj
    rw [Finset.mem_filter] at hj
    exact congrArg upd (hj1 j ((scat2_resultIdx_eq_some wf idx j (ix2 i c)).mp hj.2).2)

/-! ## The gather along the leading axis -/

section Gather
variable {α : Type}

/-- Dimension numbers of a gather of `M` rows of an `N` by `C` matrix: result axis 1 the offset, operand axis 0
    collapsed and named by the one index word per row, slices one row wide. -/
abbrev gath2Dims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand's column `c` in the row that index word `e` names, read signed and
    clamped into `[0, N − 1]`. -/
theorem gather2_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (gath2Dims N C M wf) x idx (ix2 e c) =
      x (ix2 ⟨min (idx (ix2 e ⟨0, Nat.one_pos⟩)).toInt.toNat (N - 1), by omega⟩ c) := by
  unfold Host.gather
  congr 1
  funext a
  refine Fin.ext ?_
  show (gath2Dims N C M wf).start (ix2 e c) idx a + (gath2Dims N C M wf).batchCoord (ix2 e c) a
    + (gath2Dims N C M wf).offCoord (ix2 e c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (gath2Dims N C M wf).startIndexMap from List.mem_singleton.mpr rfl)]
    have hsi : (gath2Dims N C M wf).siIdx (ix2 e c) ⟨List.idxOf (⟨0, by omega⟩ : Fin 2) (gath2Dims N C M wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    have hst : (gath2Dims N C M wf).start (ix2 e c) idx ⟨1, by omega⟩ = 0 := by
      unfold GatherDims.start
      rw [dif_neg (by simp)]
    have hoff : (gath2Dims N C M wf).offCoord (ix2 e c) ⟨1, by omega⟩ = c.val := by
      unfold GatherDims.offCoord
      rw [dif_pos (by simp [Shape.kept, List.mem_filter])]
      rfl
    rw [hst, hoff]; simp

/-- Dimension numbers of a gather of `M` elements of a flat array of `N`: no offset axes, operand axis 0 collapsed and
    named by the one index word per element. -/
abbrev gath1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at the position index word `e` names, read signed and clamped into
    `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1Dims N M wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (gath1Dims N M wf).start (ix1 e) idx 0 + (gath1Dims N M wf).batchCoord (ix1 e) 0
    + (gath1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1Dims N M wf).startIndexMap from List.mem_singleton.mpr rfl)]
  have hsi : (gath1Dims N M wf).siIdx (ix1 e) ⟨List.idxOf (0 : Fin 1) (gath1Dims N M wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Gather

end Cert.Lib

end
-- ==== Proof.SegPerm.lean ====
/-
  Propagating along the arcs sorted by target is propagating along the arcs.

  An accumulating scatter of rows with one index word per row, read at a row `v` and a column `c`, is the operand's
  entry plus the sum, over the arcs whose target word read signed is `v`, of the arc's weight times the gathered entry of
  the node array.  The sorted program reads the source words, the target words and the weights through one and the same
  map `perm d` of the arcs, the stable sorting permutation of the target words.  That map is a bijection of the arcs, so
  the sorted program's sum at `(v, c)` has the terms of the unsorted program's sum, met in another order; the two are
  equal because addition of extended reals is commutative and associative.  Nothing is assumed finite.
-/
import proofs.«156776_j29454885716514_2_alg».proof.Proof.Stages
import proofs.«156776_j29454885716514_2_alg».proof.Proof.KStages
import proofs.«156776_j29454885716514_2_alg».proof.Proof.LibScatterGather
import Idealize.ShloMosaic.Lib.SortFacts
import Idealize.ShloMosaic.Lib.Pipeline.Value
import Idealize.ShloMosaic.Lib.ValueIdx

noncomputable section

open scoped BigOperators

namespace Cert.SegPerm

open Idealize.ShloMosaic Idealize.ShloMosaic.ValueIdx Idealize.ShloMosaic.Pipeline Cert.Lib

/-- The number of arcs. -/
abbrev E : Nat := 850000

/-- The stable sorting permutation of the arcs by target word: place `k` of the sorted order holds arc `perm d k`. -/
def perm (d : IVec ⟨1, ![E]⟩ 32) : Fin E → Fin E :=
  sortedFrom (fun k k' => Cert.KernelIdeal.comparator_i32_i32_d0
    (d (Shape.Idx.ofFin k), iotaInDim ⟨1, ![E]⟩ 32 0 (Shape.Idx.ofFin k))
    (d (Shape.Idx.ofFin k'), iotaInDim ⟨1, ![E]⟩ 32 0 (Shape.Idx.ofFin k')) == 1#1)

/-- The sorting permutation is a bijection of the arcs. -/
theorem perm_bijective (d : IVec ⟨1, ![E]⟩ 32) : Function.Bijective (perm d) :=
  ⟨sortedFrom_injective _, sortedFrom_surjective _⟩

/-- The second result of the two-operand sort of the target words and the iota, read at place `e`: the word of the
    number `perm d e`. -/
theorem sort2_iota_apply (d : IVec ⟨1, ![E]⟩ 32) (e : Fin E) :
    (Host.sort2 ⟨1, ![E]⟩ 0 Cert.KernelIdeal.comparator_i32_i32_d0 d (iotaInDim ⟨1, ![E]⟩ 32 0)).2 (ix1 e)
      = BitVec.ofNat 32 (perm d e).val := by
  unfold Host.sort2
  simp [perm, iotaInDim]

/-- A word of a number below the arc count reads back, signed, as the number. -/
theorem ofNat_toInt_of_lt (k : Nat) (hk : k < 850000) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

/-- Such a word is not negative. -/
theorem ofNat_not_slt_zero (k : Nat) (hk : k < 850000) : IntOp.cmpi .slt (BitVec.ofNat 32 k) 0#32 = 0#1 := by
  have h : (BitVec.ofNat 32 k).slt 0#32 = false := by
    rw [BitVec.slt_eq_decide, ofNat_toInt_of_lt k hk]
    simp
  show BitVec.ofBool ((BitVec.ofNat 32 k).slt 0#32) = 0#1
  rw [h]; rfl

/-- The start rows of the sorting gather at place `e`: the word of `perm d e`. -/
theorem sortRows_apply (d : (⟨Cert.KernelIdeal.S850000, .i32⟩ : BufTy).Contents (Elt Ideal)) (e : Fin E) :
    Cert.KStage.sortRows (F := Ideal) d (ix2 e ⟨0, Nat.one_pos⟩) = BitVec.ofNat 32 (perm d e).val := by
  unfold Cert.KStage.sortRows
  rw [broadcastInDim_apply _ _ _ _ (ix1 e) (by intro a; obtain rfl : a = 0 := Subsingleton.elim _ _; simp)]
  show Scalar.select (IntOp.cmpi .slt
      ((Host.sort2 ⟨1, ![E]⟩ 0 Cert.KernelIdeal.comparator_i32_i32_d0 d (iotaInDim ⟨1, ![E]⟩ 32 0)).2 (ix1 e)) 0#32)
    (IntOp.addi ((Host.sort2 ⟨1, ![E]⟩ 0 Cert.KernelIdeal.comparator_i32_i32_d0 d (iotaInDim ⟨1, ![E]⟩ 32 0)).2 (ix1 e)) 850000#32)
    ((Host.sort2 ⟨1, ![E]⟩ 0 Cert.KernelIdeal.comparator_i32_i32_d0 d (iotaInDim ⟨1, ![E]⟩ 32 0)).2 (ix1 e)) = _
  rw [sort2_iota_apply d e, ofNat_not_slt_zero _ (perm d e).isLt, select_zero]

/-- A number below the arc count, clamped into the arc range, is itself. -/
theorem clamp_of_lt (k : Nat) (hk : k < 850000) : min ((k : Int)).toNat (850000 - 1) = k := by
  rw [Int.toNat_natCast]; omega

/-- An integer arc array in sorted order, at place `e`: the array at arc `perm d e`. -/
theorem sortedI_apply (x d : (⟨Cert.KernelIdeal.S850000, .i32⟩ : BufTy).Contents (Elt Ideal)) (e : Fin E) :
    Cert.KStage.sortedI (F := Ideal) x d (ix1 e) = x (ix1 (perm d e)) := by
  unfold Cert.KStage.sortedI
  have h := gather1_apply (N := E) (M := E) (by decide) Cert.KernelIdeal.Facts₀.gather_S850000_S850000x1_S850000_n_0_n_n_0_1_1_wf x (Cert.KStage.sortRows (F := Ideal) d) e
  refine h.trans (congrArg x (congrArg (fun k : Fin E => ix1 k) (Fin.ext ?_)))
  show min (Cert.KStage.sortRows (F := Ideal) d (ix2 e ⟨0, Nat.one_pos⟩)).toInt.toNat (E - 1) = (perm d e).val
  rw [sortRows_apply, ofNat_toInt_of_lt _ (perm d e).isLt]
  exact clamp_of_lt _ (perm d e).isLt

/-! ## Re-indexing a filtered sum by a bijection -/

/-- The sum over the places `e` whose arc `π e` satisfies `p` of `f (π e)` is the sum over the arcs satisfying `p`
    of `f`: the same terms in another order. -/
theorem sum_filter_comp_bij {ι M : Type} [Fintype ι] [AddCommMonoid M] (π : ι → ι) (hπ : Function.Bijective π)
    (p : ι → Prop) [DecidablePred p] (f : ι → M) :
    ∑ e ∈ Finset.univ.filter (fun e => p (π e)), f (π e) = ∑ e ∈ Finset.univ.filter p, f e := by
  rw [Finset.sum_filter, Finset.sum_filter]
  exact (Equiv.ofBijective π hπ).sum_comp (fun e => if p e then f e else 0)

/-! ## A propagation read at a row and a column -/

/-- The row a row word names: read signed and clamped into the node range. -/
def rowOf (w : BitVec 32) : Fin 50000 := ⟨min w.toInt.toNat (50000 - 1), by omega⟩

/-- The sum, over the arcs whose target word read signed is `v`, of the arc's weight times the entry of `h` in the row
    its row word names and column `c`. -/
def arcSum {C : Nat} (h : (⟨2, ![50000, C]⟩ : Shape).Idx → EReal) (r d : IVec ⟨1, ![E]⟩ 32)
    (n : (⟨1, ![E]⟩ : Shape).Idx → EReal) (v : Fin 50000) (c : Fin C) : EReal :=
  ∑ e ∈ Finset.univ.filter (fun e : Fin E => (d (ix1 e)).toInt = (v.val : Int)), n (ix1 e) * h (ix2 (rowOf (r (ix1 e))) c)

/-- A one-column matrix made of a flat array, read at row `e`. -/
theorem bcol_apply {α : Type} (hb : (⟨1, ![E]⟩ : Shape).BroadcastsInDim ⟨2, ![E, 1]⟩ ![0]) (x : (⟨1, ![E]⟩ : Shape).Idx → α)
    (e : Fin E) (z : Fin 1) : broadcastInDim ⟨2, ![E, 1]⟩ ![0] hb x (ix2 e z) = x (ix1 e) := by
  refine broadcastInDim_apply _ _ _ _ (ix1 e) ?_
  intro a; obtain rfl : a = 0 := Subsingleton.elim _ _; simp

/-- A one-column matrix repeated along `C` columns, read at `(e, c)`. -/
theorem bwide_apply {α : Type} {C : Nat} (hb : (⟨2, ![E, 1]⟩ : Shape).BroadcastsInDim ⟨2, ![E, C]⟩ ![0, 1])
    (x : (⟨2, ![E, 1]⟩ : Shape).Idx → α) (e : Fin E) (c : Fin C) :
    broadcastInDim ⟨2, ![E, C]⟩ ![0, 1] hb x (ix2 e c) = x (ix2 e ⟨0, Nat.one_pos⟩) := by
  refine broadcastInDim_apply _ _ _ _ (ix2 e ⟨0, Nat.one_pos⟩) ?_
  intro a
  match a with
  | ⟨0, _⟩ => simp; rfl
  | ⟨1, _⟩ => simp

/-- THE PROPAGATION READ AT `(v, c)`: the accumulating scatter, by the target words `d`, of the rows of `h` gathered by
    the row words `r` and scaled by the weights `n`, is the operand's entry plus the sum over the arcs landing on `v`. -/
theorem propC_apply {C : Nat}
    (wfS : ScatterDims.WF ⟨2, ![50000, C]⟩ ⟨2, ![E, 1]⟩ ⟨2, ![E, C]⟩ [1] [0] [0] 1)
    (wfG : GatherDims.WF ⟨2, ![50000, C]⟩ ⟨2, ![E, 1]⟩ ⟨2, ![E, C]⟩ [1] [0] [] [0] [] 1 ![1, C])
    (hb1 : (⟨1, ![E]⟩ : Shape).BroadcastsInDim ⟨2, ![E, 1]⟩ ![0])
    (hb2 : (⟨2, ![E, 1]⟩ : Shape).BroadcastsInDim ⟨2, ![E, C]⟩ ![0, 1])
    (x h : (⟨2, ![50000, C]⟩ : Shape).Idx → EReal) (r d : IVec ⟨1, ![E]⟩ 32) (n : (⟨1, ![E]⟩ : Shape).Idx → EReal)
    (v : Fin 50000) (c : Fin C) :
    Ideal.hostScatterAdd (scat2Dims 50000 C E wfS) x (broadcastInDim ⟨2, ![E, 1]⟩ ![0] hb1 d)
        (fun j => broadcastInDim ⟨2, ![E, C]⟩ ![0, 1] hb2 (broadcastInDim ⟨2, ![E, 1]⟩ ![0] hb1 n) j
          * Host.gather (gath2Dims 50000 C E wfG) h (broadcastInDim ⟨2, ![E, 1]⟩ ![0] hb1 r) j) (ix2 v c)
      = x (ix2 v c) + arcSum h r d n v c := by
  rw [scatterAdd2_apply]
  unfold arcSum
  refine congrArg (fun t => x (ix2 v c) + t) ?_
  refine Finset.sum_congr (Finset.filter_congr fun e _ => ?_) fun e _ => ?_
  · rw [bcol_apply]
  · rw [bwide_apply, bcol_apply, gather2_apply (by decide : 0 < 50000)]
    refine congrArg (fun k => n (ix1 e) * h (ix2 k c)) (Fin.ext ?_)
    show min _ _ = min _ _
    rw [bcol_apply]

/-- A float arc array in sorted order, at place `e`: the array at arc `perm d e`. -/
theorem sortedF_apply (x : (⟨Cert.KernelIdeal.S850000, .f32⟩ : BufTy).Contents (Elt Ideal))
    (d : (⟨Cert.KernelIdeal.S850000, .i32⟩ : BufTy).Contents (Elt Ideal)) (e : Fin E) :
    Cert.KStage.sortedF (F := Ideal) x d (ix1 e) = x (ix1 (perm d e)) := by
  unfold Cert.KStage.sortedF
  have h := gather1_apply (N := E) (M := E) (by decide) Cert.KernelIdeal.Facts₀.gather_S850000_S850000x1_S850000_n_0_n_n_0_1_1_wf x (Cert.KStage.sortRows (F := Ideal) d) e
  refine h.trans (congrArg x (congrArg (fun k : Fin E => ix1 k) (Fin.ext ?_)))
  show min (Cert.KStage.sortRows (F := Ideal) d (ix2 e ⟨0, Nat.one_pos⟩)).toInt.toNat (E - 1) = (perm d e).val
  rw [sortRows_apply, ofNat_toInt_of_lt _ (perm d e).isLt]
  exact clamp_of_lt _ (perm d e).isLt

/-! ## The sum over the sorted arcs is the sum over the arcs -/

/-- Arc arrays read through a bijection `π` of the arcs give the same sum per target row: the terms of the sum are
    the same, met in another order. -/
theorem arcSum_perm {C : Nat} (h : (⟨2, ![50000, C]⟩ : Shape).Idx → EReal) (π : Fin E → Fin E) (hπ : Function.Bijective π)
    (r r' d d' : IVec ⟨1, ![E]⟩ 32) (n n' : (⟨1, ![E]⟩ : Shape).Idx → EReal)
    (hr : ∀ e, r' (ix1 e) = r (ix1 (π e))) (hd : ∀ e, d' (ix1 e) = d (ix1 (π e))) (hn : ∀ e, n' (ix1 e) = n (ix1 (π e)))
    (v : Fin 50000) (c : Fin C) : arcSum h r' d' n' v c = arcSum h r d n v c := by
  unfold arcSum
  rw [← sum_filter_comp_bij π hπ (fun e => (d (ix1 e)).toInt = (v.val : Int))
    (fun e => n (ix1 e) * h (ix2 (rowOf (r (ix1 e))) c))]
  refine Finset.sum_congr (Finset.filter_congr fun e _ => ?_) fun e _ => ?_
  · rw [hd]
  · rw [hr, hn]

/-! ## The wrapped source words -/

/-- A source word wrapped once by the node count when negative. -/
def wrapW (s : IVec ⟨1, ![E]⟩ 32) : IVec ⟨1, ![E]⟩ 32 :=
  fun j => Scalar.select (IntOp.cmpi .slt (s j) 0#32) (IntOp.addi (s j) 50000#32) (s j)

/-! ## The two programs' operations, named alike -/

/-- On exact values the host's accumulating scatter is the exact sum. -/
theorem scatterAdd_ideal {s si u : Shape} {w : Nat} {φ : FTy} (dd : ScatterDims s si u) (x : FVec Ideal s φ) (idx : IVec si w)
    (upd : FVec Ideal u φ) : Host.scatterAdd (F := Ideal) dd x idx upd = Ideal.hostScatterAdd dd x idx upd := rfl
/-- The unsorted program's scatter dimension numbers are the row scatter's. -/
theorem refScat128_eq : Cert.ReferenceIdeal.scatter_S50000x128_S850000x1_S850000x128_1_0_0_1
    = scat2Dims 50000 128 E Cert.ReferenceIdeal.Facts₀.scatter_S50000x128_S850000x1_S850000x128_1_0_0_1_wf := rfl
/-- The unsorted program's gather dimension numbers are the row gather's. -/
theorem refGath128_eq : Cert.ReferenceIdeal.gather_S50000x128_S850000x1_S850000x128_1_0_n_n_0_1_1128
    = gath2Dims 50000 128 E Cert.ReferenceIdeal.Facts₀.gather_S50000x128_S850000x1_S850000x128_1_0_n_n_0_1_1128_wf := rfl
/-- On exact values the product of two arrays is the entrywise product. -/
theorem mulf_ideal {s : Shape} {φ : FTy} (A B : FVec Ideal s φ) : mulf A B = fun j => A j * B j := rfl
/-- The unsorted program's wrapped source words, as a one-column matrix. -/
theorem refWrapRow_eq (s : (⟨Cert.ReferenceIdeal.S850000, .i32⟩ : BufTy).Contents (Elt Ideal)) :
    Cert.Stage.wrapRow (F := Ideal) s
      = broadcastInDim ⟨2, ![E, 1]⟩ ![0] Cert.ReferenceIdeal.Facts₀.bcast_S850000_S850000x1_0 (wrapW s) := rfl

/-- The all-zero operand of the unsorted program's scatter, read at an entry. -/
theorem refZero128_apply (v : Fin 50000) (c : Fin 128) :
    broadcastInDim Cert.ReferenceIdeal.S50000x128 ![] Cert.ReferenceIdeal.Facts₀.bcast_S_S50000x128
      (constant (F := Ideal) Cert.ReferenceIdeal.S_ .f32 0x00000000#32) (ix2 v c) = Ideal.ofBits .f32 0x00000000#32 := rfl

/-- The propagation along the arcs as given, at `(v, c)`. -/
theorem prop128_apply (h : (⟨Cert.ReferenceIdeal.S50000x128, .f32⟩ : BufTy).Contents (Elt Ideal))
    (s d : (⟨Cert.ReferenceIdeal.S850000, .i32⟩ : BufTy).Contents (Elt Ideal))
    (n : (⟨Cert.ReferenceIdeal.S850000, .f32⟩ : BufTy).Contents (Elt Ideal)) (v : Fin 50000) (c : Fin 128) :
    Cert.Stage.prop128 (F := Ideal) h s d n (ix2 v c) = Ideal.ofBits .f32 0x00000000#32 + arcSum h (wrapW s) d n v c := by
  unfold Cert.Stage.prop128
  rw [scatterAdd_ideal, refScat128_eq, refGath128_eq, refWrapRow_eq, mulf_ideal, propC_apply, refZero128_apply]

/-- The sorted program's scatter dimension numbers are the row scatter's. -/
theorem kerScat128_eq : Cert.KernelIdeal.scatter_S50000x128_S850000x1_S850000x128_1_0_0_1
    = scat2Dims 50000 128 E Cert.KernelIdeal.Facts₀.scatter_S50000x128_S850000x1_S850000x128_1_0_0_1_wf := rfl
/-- The sorted program's gather dimension numbers are the row gather's. -/
theorem kerGath128_eq : Cert.KernelIdeal.gather_S50000x128_S850000x1_S850000x128_1_0_n_n_0_1_1128
    = gath2Dims 50000 128 E Cert.KernelIdeal.Facts₀.gather_S50000x128_S850000x1_S850000x128_1_0_n_n_0_1_1128_wf := rfl
/-- The sorted program's wrapped source words, as a one-column matrix. -/
theorem kerWrapRow_eq (s : (⟨Cert.KernelIdeal.S850000, .i32⟩ : BufTy).Contents (Elt Ideal)) :
    Cert.KStage.wrapRow (F := Ideal) s
      = broadcastInDim ⟨2, ![E, 1]⟩ ![0] Cert.KernelIdeal.Facts₀.bcast_S850000_S850000x1_0 (wrapW s) := rfl
/-- Widening a float array is the identity on exact values. -/
theorem extf_ideal {s : Shape} (x : FVec Ideal s .bf16) (hlt : FTy.bits .bf16 < FTy.bits .f32) :
    (extf (F := Ideal) .f32 x hlt : FVec Ideal s .f32) = x := rfl
/-- The all-zero operand of the sorted program's scatter, read at an entry. -/
theorem kerZero128_apply (v : Fin 50000) (c : Fin 128) :
    broadcastInDim Cert.KernelIdeal.S50000x128 ![] Cert.KernelIdeal.Facts₀.bcast_S_S50000x128
      (constant (F := Ideal) Cert.KernelIdeal.S_ .f32 0x00000000#32) (ix2 v c) = Ideal.ofBits .f32 0x00000000#32 := rfl

/-- The propagation along the sorted arcs, at `(v, c)`. -/
theorem propSorted128_apply (h : (⟨Cert.ReferenceIdeal.S50000x128, .f32⟩ : BufTy).Contents (Elt Ideal))
    (s d : (⟨Cert.ReferenceIdeal.S850000, .i32⟩ : BufTy).Contents (Elt Ideal))
    (n : (⟨Cert.ReferenceIdeal.S850000, .f32⟩ : BufTy).Contents (Elt Ideal)) (v : Fin 50000) (c : Fin 128) :
    Cert.KStage.propSorted128 (F := Ideal) h s d n (ix2 v c)
      = Ideal.ofBits .f32 0x00000000#32 + arcSum h (wrapW (Cert.KStage.sortedI (F := Ideal) s d))
          (Cert.KStage.sortedI (F := Ideal) d d) (Cert.KStage.sortedF (F := Ideal) n d) v c := by
  unfold Cert.KStage.propSorted128
  rw [scatterAdd_ideal, kerScat128_eq, kerGath128_eq, kerWrapRow_eq, extf_ideal, mulf_ideal, propC_apply, kerZero128_apply]

/-- PROPAGATING ALONG THE SORTED ARCS IS PROPAGATING ALONG THE ARCS (128 columns). -/
theorem propSorted128_eq (h : (⟨Cert.ReferenceIdeal.S50000x128, .f32⟩ : BufTy).Contents (Elt Ideal))
    (s d : (⟨Cert.ReferenceIdeal.S850000, .i32⟩ : BufTy).Contents (Elt Ideal))
    (n : (⟨Cert.ReferenceIdeal.S850000, .f32⟩ : BufTy).Contents (Elt Ideal)) :
    Cert.KStage.propSorted128 (F := Ideal) h s d n = Cert.Stage.prop128 (F := Ideal) h s d n := by
  funext j
  obtain ⟨v, c, rfl⟩ : ∃ (v : Fin 50000) (c : Fin 128), j = ix2 v c := ⟨j 0, j 1, eq_ix2 j⟩
  rw [propSorted128_apply, prop128_apply]
  refine congrArg (fun t => Ideal.ofBits .f32 0x00000000#32 + t) ?_
  refine arcSum_perm h (perm d) (perm_bijective d) (wrapW s) _ d _ n _ (fun e => ?_)
    (fun e => sortedI_apply d d e) (fun e => sortedF_apply n d e) v c
  show Scalar.select _ _ _ = Scalar.select _ _ _
  rw [sortedI_apply]

/-! ## The same with 64 columns -/

/-- The unsorted program's scatter dimension numbers are the row scatter's. -/
theorem refScat64_eq : Cert.ReferenceIdeal.scatter_S50000x64_S850000x1_S850000x64_1_0_0_1
    = scat2Dims 50000 64 E Cert.ReferenceIdeal.Facts₀.scatter_S50000x64_S850000x1_S850000x64_1_0_0_1_wf := rfl
/-- The unsorted program's gather dimension numbers are the row gather's. -/
theorem refGath64_eq : Cert.ReferenceIdeal.gather_S50000x64_S850000x1_S850000x64_1_0_n_n_0_1_164
    = gath2Dims 50000 64 E Cert.ReferenceIdeal.Facts₀.gather_S50000x64_S850000x1_S850000x64_1_0_n_n_0_1_164_wf := rfl

/-- The all-zero operand of the unsorted program's scatter, read at an entry. -/
theorem refZero64_apply (v : Fin 50000) (c : Fin 64) :
    broadcastInDim Cert.ReferenceIdeal.S50000x64 ![] Cert.ReferenceIdeal.Facts₀.bcast_S_S50000x64
      (constant (F := Ideal) Cert.ReferenceIdeal.S_ .f32 0x00000000#32) (ix2 v c) = Ideal.ofBits .f32 0x00000000#32 := rfl

/-- The propagation along the arcs as given, at `(v, c)`. -/
theorem prop64_apply (h : (⟨Cert.ReferenceIdeal.S50000x64, .f32⟩ : BufTy).Contents (Elt Ideal))
    (s d : (⟨Cert.ReferenceIdeal.S850000, .i32⟩ : BufTy).Contents (Elt Ideal))
    (n : (⟨Cert.ReferenceIdeal.S850000, .f32⟩ : BufTy).Contents (Elt Ideal)) (v : Fin 50000) (c : Fin 64) :
    Cert.Stage.prop64 (F := Ideal) h s d n (ix2 v c) = Ideal.ofBits .f32 0x00000000#32 + arcSum h (wrapW s) d n v c := by
  unfold Cert.Stage.prop64
  rw [scatterAdd_ideal, refScat64_eq, refGath64_eq, refWrapRow_eq, mulf_ideal, propC_apply, refZero64_apply]

/-- The sorted program's scatter dimension numbers are the row scatter's. -/
theorem kerScat64_eq : Cert.KernelIdeal.scatter_S50000x64_S850000x1_S850000x64_1_0_0_1
    = scat2Dims 50000 64 E Cert.KernelIdeal.Facts₀.scatter_S50000x64_S850000x1_S850000x64_1_0_0_1_wf := rfl
/-- The sorted program's gather dimension numbers are the row gather's. -/
theorem kerGath64_eq : Cert.KernelIdeal.gather_S50000x64_S850000x1_S850000x64_1_0_n_n_0_1_164
    = gath2Dims 50000 64 E Cert.KernelIdeal.Facts₀.gather_S50000x64_S850000x1_S850000x64_1_0_n_n_0_1_164_wf := rfl
/-- The all-zero operand of the sorted program's scatter, read at an entry. -/
theorem kerZero64_apply (v : Fin 50000) (c : Fin 64) :
    broadcastInDim Cert.KernelIdeal.S50000x64 ![] Cert.KernelIdeal.Facts₀.bcast_S_S50000x64
      (constant (F := Ideal) Cert.KernelIdeal.S_ .f32 0x00000000#32) (ix2 v c) = Ideal.ofBits .f32 0x00000000#32 := rfl

/-- The propagation along the sorted arcs, at `(v, c)`. -/
theorem propSorted64_apply (h : (⟨Cert.ReferenceIdeal.S50000x64, .f32⟩ : BufTy).Contents (Elt Ideal))
    (s d : (⟨Cert.ReferenceIdeal.S850000, .i32⟩ : BufTy).Contents (Elt Ideal))
    (n : (⟨Cert.ReferenceIdeal.S850000, .f32⟩ : BufTy).Contents (Elt Ideal)) (v : Fin 50000) (c : Fin 64) :
    Cert.KStage.propSorted64 (F := Ideal) h s d n (ix2 v c)
      = Ideal.ofBits .f32 0x00000000#32 + arcSum h (wrapW (Cert.KStage.sortedI (F := Ideal) s d))
          (Cert.KStage.sortedI (F := Ideal) d d) (Cert.KStage.sortedF (F := Ideal) n d) v c := by
  unfold Cert.KStage.propSorted64
  rw [scatterAdd_ideal, kerScat64_eq, kerGath64_eq, kerWrapRow_eq, extf_ideal, mulf_ideal, propC_apply, kerZero64_apply]

/-- PROPAGATING ALONG THE SORTED ARCS IS PROPAGATING ALONG THE ARCS (64 columns). -/
theorem propSorted64_eq (h : (⟨Cert.ReferenceIdeal.S50000x64, .f32⟩ : BufTy).Contents (Elt Ideal))
    (s d : (⟨Cert.ReferenceIdeal.S850000, .i32⟩ : BufTy).Contents (Elt Ideal))
    (n : (⟨Cert.ReferenceIdeal.S850000, .f32⟩ : BufTy).Contents (Elt Ideal)) :
    Cert.KStage.propSorted64 (F := Ideal) h s d n = Cert.Stage.prop64 (F := Ideal) h s d n := by
  funext j
  obtain ⟨v, c, rfl⟩ : ∃ (v : Fin 50000) (c : Fin 64), j = ix2 v c := ⟨j 0, j 1, eq_ix2 j⟩
  rw [propSorted64_apply, prop64_apply]
  refine congrArg (fun t => Ideal.ofBits .f32 0x00000000#32 + t) ?_
  refine arcSum_perm h (perm d) (perm_bijective d) (wrapW s) _ d _ n _ (fun e => ?_)
    (fun e => sortedI_apply d d e) (fun e => sortedF_apply n d e) v c
  show Scalar.select _ _ _ = Scalar.select _ _ _
  rw [sortedI_apply]

end Cert.SegPerm
end
-- ==== Proof.RegionLib.lean ====
import proofs.«156776_j29454885716514_2_alg».proof.Proof.Gen.KernelIdeal.Frame
import proofs.«156776_j29454885716514_2_alg».proof.Proof.Stages
import Idealize.ShloMosaic.Lib.Pipeline.Value
import Idealize.ShloMosaic.Lib.ValueIdx
import Idealize.ShloMosaic.Lib.KernelVsHost
import Idealize.ShloMosaic.Lib.StackMember

noncomputable section

namespace Cert.KernelIdeal.RegionValue

open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-- A rows-by-columns product on the host, read at an entry, is the sum over the contracted coordinate. -/
theorem hostDot_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) :=
  StackMember.dotGeneral_plain_apply prec A B a b

/-- The same product on the matrix unit into a zero accumulator. -/
theorem unitDot_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  rw [matmul_zero_eq_dotGeneral]
  exact hostDot_apply w prec A B a b

end Cert.KernelIdeal.RegionValue

end
-- ==== Proof.Region0.lean ====
/-
  The first region: 25 grid points, point t taking rows 2000·t … 2000·t + 1999 of the node features and the whole
  128 by 128 weight, and writing the tile's product into the same rows of the result. Over the extended reals the
  narrowing of each operand is the identity and the matrix unit's product into a zero accumulator is the plain sum of
  products, so each tile is the matching rows of the one whole-array product; the 25 tiles cover the 50000 rows.
-/
import proofs.«156776_j29454885716514_2_alg».proof.Proof.RegionLib

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-- The first region's block: a 2000-row tile of the features times the whole weight, entry by entry. -/
theorem tile_product_apply (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  simp only [shapeCast_self]
  exact unitDot_apply (φ₁ := .bf16) (φ₂ := .bf16) dot_S2000x128_S128x128_S2000x128_1_0_0_1_n_n.wf none
    (truncf .bf16 x bitsLt_bf16_f32) (truncf .bf16 w bitsLt_bf16_f32) p q

/-- The whole-array product, entry by entry. -/
theorem lin0_apply (X : (⟨Cert.ReferenceIdeal.S50000x128, .f32⟩ : BufTy).Contents (Elt Ideal))
    (W : (⟨Cert.ReferenceIdeal.S128x128, .f32⟩ : BufTy).Contents (Elt Ideal)) (r : Fin 50000) (q : Fin 128) :
    Cert.Stage.lin0 (F := Ideal) X W (ix2 r q) = ∑ k : Fin 128, X (ix2 r k) * W (ix2 k q) :=
  hostDot_apply (φ₁ := .f32) (φ₂ := .f32) Cert.ReferenceIdeal.dot_S50000x128_S128x128_S50000x128_1_0_0_1_n_n.wf none X W r q

variable (V : (c : Dev nD) → (b : Ref sig .tc) → Buf (Elt Ideal) ((c : Thread nD τ).loc b))

/-- Where each window's block sits at grid point t: the feature and result tiles at row block t, the weight at the origin. -/
theorem block_positions0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A tile's product is the whole product's rows at the tile: stated over any tile x whose row p is row T·2000 + p of X. -/
theorem tile_product_eq_rows (x : Vec Ideal S2000x128 .f32) (w : Vec Ideal S128x128 .f32)
    (X : (⟨Cert.ReferenceIdeal.S50000x128, .f32⟩ : BufTy).Contents (Elt Ideal))
    (W : (⟨Cert.ReferenceIdeal.S128x128, .f32⟩ : BufTy).Contents (Elt Ideal))
    (p : Fin 2000) (q : Fin 128) (r : Fin 50000)
    (hx : ∀ k : Fin 128, x (ix2 p k) = X (ix2 r k)) (hw : ∀ k : Fin 128, w (ix2 k q) = W (ix2 k q)) :
    k0_pay1 (F := Ideal) x w (ix2 p q) = Cert.Stage.lin0 (F := Ideal) X W (ix2 r q) := by
  rw [tile_product_apply, lin0_apply]
  exact Finset.sum_congr rfl fun k _ => by rw [hx k, hw k]

/-- The feature tile at point t holds rows t·2000 … t·2000 + 1999 of the feature array. -/
theorem features_tile_apply (c : Dev nD) (t : Fin cfg0.N) (p : Fin 2000) (k : Fin 128) (r : Fin 50000)
    (hr : r.val = t.val * 2000 + p.val) :
    (iblk0 V c 0 t : Vec Ideal S2000x128 .f32) (ix2 p k)
      = (V c (Pipeline.arrRef spec0 0) : S50000x128.Idx → EReal) (ix2 r k) := by
  obtain ⟨e0, e1, -, -, -, -⟩ := block_positions0 t
  unfold iblk0
  rw [View.read_apply]
  refine congrArg (V c (Pipeline.arrRef spec0 0) : S50000x128.Idx → EReal) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight block at every point is the whole weight. -/
theorem weight_block_apply (c : Dev nD) (t : Fin cfg0.N) (k q : Fin 128) :
    (iblk0 V c 1 t : Vec Ideal S128x128 .f32) (ix2 k q)
      = (V c (Pipeline.arrRef spec0 1) : S128x128.Idx → EReal) (ix2 k q) := by
  obtain ⟨-, -, e2, e3, -, -⟩ := block_positions0 t
  unfold iblk0
  rw [View.read_apply]
  refine congrArg (V c (Pipeline.arrRef spec0 1) : S128x128.Idx → EReal) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the whole-array product. -/
theorem flushed0_eq (c : Dev nD) (t : Fin cfg0.N) :
    (dat0 (F := Ideal) V c).flushed 2 t = ((cfg0.win 2).blk t).view.read (Elt Ideal)
      (Cert.Stage.lin0 (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  funext j
  have hj0 : (j 0).val < 2000 := (j 0).isLt
  have hj1 : (j 1).val < 128 := (j 1).isLt
  have ht : t.val < 25 := t.isLt
  obtain ⟨-, -, -, -, e4, e5⟩ := block_positions0 t
  rw [View.read_apply]
  have hemb : ((cfg0.win 2).blk t).view.emb j
      = (ix2 (⟨t.val * 2000 + (j 0).val, by omega⟩ : Fin 50000) (⟨(j 1).val, hj1⟩ : Fin 128) : S50000x128.Idx) :=
    funext fun a => Fin.ext (by
      match a with
      | ⟨0, _⟩ => show win0_2.index t (0 : Fin 2) * 2000 + 1 * (j 0).val = t.val * 2000 + (j 0).val; rw [e4]; omega
      | ⟨1, _⟩ => show win0_2.index t (1 : Fin 2) * 128 + 1 * (j 1).val = (j 1).val; rw [e5]; omega)
  have hinj : (cfg0.win 2).xinj (grid0.coords t) j
      = (ix2 (⟨(j 0).val, hj0⟩ : Fin 2000) (⟨(j 1).val, hj1⟩ : Fin 128) : S2000x128.Idx) :=
    funext fun a => Fin.ext (by
      match a with
      | ⟨0, _⟩ => rfl
      | ⟨1, _⟩ => rfl)
  show k0_pay1 (iblk0 V c 0 t) (iblk0 V c 1 t) ((cfg0.win 2).xinj (grid0.coords t) j) = _
  rw [hinj]
  refine Eq.trans ?_ (congrArg (Cert.Stage.lin0 (F := Ideal) (V c (Pipeline.arrRef spec0 0)) (V c (Pipeline.arrRef spec0 1))) hemb).symm
  exact tile_product_eq_rows (iblk0 V c 0 t) (iblk0 V c 1 t) (V c (Pipeline.arrRef spec0 0)) (V c (Pipeline.arrRef spec0 1))
    ⟨(j 0).val, hj0⟩ ⟨(j 1).val, hj1⟩ ⟨t.val * 2000 + (j 0).val, by omega⟩
    (fun k => features_tile_apply V c t ⟨(j 0).val, hj0⟩ k ⟨t.val * 2000 + (j 0).val, by omega⟩ rfl)
    (fun k => weight_block_apply V c t k ⟨(j 1).val, hj1⟩)

/-- An index of the result array lies in point t's block iff each coordinate is in the block's range on its axis. -/
theorem mem_result_block0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_call0_v173).slice (win0_2.rect t)).set ↔ _
  rw [View.set_slice_whole, Rect.mem_set_unit]
  exact Iff.rfl

/-- After its 25 points the first region's result array is the features times the weight: row r is written by
    point r / 2000, and every point writes its rows of that one product. -/
theorem region0 (c : Dev nD) : (Gen.dat0 (F := Ideal) V c).arrAt 2 cfg0.N
    = Cert.Stage.lin0 (F := Ideal) (V c (Pipeline.arrRef spec0 0)) (V c (Pipeline.arrRef spec0 1)) :=
  (dat0 V c).arrAt_eq_of_cover 2
    (Cert.Stage.lin0 (F := Ideal) (V c (Pipeline.arrRef spec0 0)) (V c (Pipeline.arrRef spec0 1)))
    (fun t _ => flushed0_eq V c t) fun i => by
      have hi0 : (i 0).val < 50000 := (i 0).isLt
      have hi1 : (i 1).val < 128 := (i 1).isLt
      have hN : cfg0.N = 25 := N_0
      have hlt : (i 0).val / 2000 < cfg0.N := by rw [hN]; omega
      obtain ⟨-, -, -, -, e4, e5⟩ := block_positions0 ⟨(i 0).val / 2000, hlt⟩
      refine ⟨⟨(i 0).val / 2000, hlt⟩, flush0_2 _, ?_⟩
      rw [mem_result_block0]
      intro a
      match a with
      | ⟨0, _⟩ =>
        show win0_2.index ⟨(i 0).val / 2000, hlt⟩ (0 : Fin 2) * 2000 ≤ (i 0).val
          ∧ (i 0).val < win0_2.index ⟨(i 0).val / 2000, hlt⟩ (0 : Fin 2) * 2000 + 2000
        rw [e4]; show (i 0).val / 2000 * 2000 ≤ (i 0).val ∧ (i 0).val < (i 0).val / 2000 * 2000 + 2000; omega
      | ⟨1, _⟩ =>
        show win0_2.index ⟨(i 0).val / 2000, hlt⟩ (1 : Fin 2) * 128 ≤ (i 1).val
          ∧ (i 1).val < win0_2.index ⟨(i 0).val / 2000, hlt⟩ (1 : Fin 2) * 128 + 128
        rw [e5]; omega

end Cert.KernelIdeal.RegionValue

end
-- ==== Proof.RegionLibDense.lean ====
/-
  What the second and third regions share. Each takes three propagated node arrays, adds one bias row to each, clips
  at zero, and multiplies the three results by the three 128-row thirds of a 384-row weight, adding the products from
  left to right. The host program lays the three clipped arrays side by side (384 columns) and multiplies once. The two
  agree because a sum over 384 columns is the sum of its three runs of 128: only associativity of addition is used, so
  the infinities of the extended reals need no care.
-/
import proofs.«156776_j29454885716514_2_alg».proof.Proof.RegionLib
import Idealize.ShloMosaic.Lib.ValueLayout

noncomputable section

namespace Cert.KernelIdeal.RegionValue

open Cert.KernelIdeal Cert.KernelIdeal.Gen
open Idealize.ShloMosaic Idealize.ShloMosaic.TcCoe Idealize.SL.Sem Idealize.ShloMosaic.ValueIdx

/-- A sum over 384 columns is the sum of its three runs of 128 columns, added left to right. -/
theorem sum_three_runs {M : Type*} [AddCommMonoid M] (f : Fin 384 → M) :
    ∑ k : Fin 384, f k
      = (∑ k : Fin 128, f ⟨k.val, Nat.lt_of_lt_of_le k.isLt (by decide)⟩
          + ∑ k : Fin 128, f ⟨128 + k.val, by have := k.isLt; omega⟩)
        + ∑ k : Fin 128, f ⟨256 + k.val, by have := k.isLt; omega⟩ := by
  have h1 := Fin.sum_univ_add (a := 256) (b := 128) f
  have h2 := Fin.sum_univ_add (a := 128) (b := 128) (fun i : Fin (128 + 128) => f (Fin.castAdd 128 i))
  rw [h1, h2]
  rfl

/-- A 2000-row tile plus the bias row, clipped at zero. -/
def tileAct (x : FVec Ideal S2000x128 .f32) (b : FVec Ideal S1x128 .f32) : FVec Ideal S2000x128 .f32 :=
  maximumf (addf x (broadcastTo S2000x128 b broadcasts_S1x128_S2000x128))
    (broadcast S2000x128 (Scalar.ofBits .f32 0x00000000#32))

/-- Entry (p, k) of it: the tile's entry plus the bias row's entry k, or zero if that is negative. -/
theorem tileAct_apply (x : FVec Ideal S2000x128 .f32) (b : FVec Ideal S1x128 .f32) (p : Fin 2000) (k : Fin 128) :
    tileAct x b (ix2 p k) = max (x (ix2 p k) + b (ix2 (0 : Fin 1) k)) (Ideal.ofBits .f32 0x00000000#32) := by
  unfold tileAct
  rw [maximumf_apply, addf_apply, broadcastTo_1b_ab_apply, broadcast_apply]
  rfl

/-- Three 50000 by 128 arrays side by side, read in the first, second and third run of 128 columns. -/
theorem sideBySide_apply {α : Type} (x1 x2 x3 : Cert.ReferenceIdeal.S50000x128.Idx → α)
    (h : Shape.Concatenates [Cert.ReferenceIdeal.S50000x128, Cert.ReferenceIdeal.S50000x128, Cert.ReferenceIdeal.S50000x128]
      Cert.ReferenceIdeal.S50000x384 1) (r : Fin 50000) (k : Fin 128) :
    concatenate Cert.ReferenceIdeal.S50000x384 1
        [⟨Cert.ReferenceIdeal.S50000x128, x1⟩, ⟨Cert.ReferenceIdeal.S50000x128, x2⟩, ⟨Cert.ReferenceIdeal.S50000x128, x3⟩] h
        (ix2 r (⟨k.val, Nat.lt_of_lt_of_le k.isLt (by decide)⟩ : Fin 384)) = x1 (ix2 r k)
    ∧ concatenate Cert.ReferenceIdeal.S50000x384 1
        [⟨Cert.ReferenceIdeal.S50000x128, x1⟩, ⟨Cert.ReferenceIdeal.S50000x128, x2⟩, ⟨Cert.ReferenceIdeal.S50000x128, x3⟩] h
        (ix2 r (⟨128 + k.val, by have := k.isLt; omega⟩ : Fin 384)) = x2 (ix2 r k)
    ∧ concatenate Cert.ReferenceIdeal.S50000x384 1
        [⟨Cert.ReferenceIdeal.S50000x128, x1⟩, ⟨Cert.ReferenceIdeal.S50000x128, x2⟩, ⟨Cert.ReferenceIdeal.S50000x128, x3⟩] h
        (ix2 r (⟨256 + k.val, by have := k.isLt; omega⟩ : Fin 384)) = x3 (ix2 r k) := by
  refine ⟨?_, ?_, ?_⟩
  · refine concatenate_apply_piece (t := Cert.ReferenceIdeal.S50000x384) (1 : Fin 2)
      [⟨Cert.ReferenceIdeal.S50000x128, x1⟩, ⟨Cert.ReferenceIdeal.S50000x128, x2⟩, ⟨Cert.ReferenceIdeal.S50000x128, x3⟩] h _ 0 (show (0 : ℕ) < 3 by decide) Cert.ReferenceIdeal.S50000x128 x1 rfl rfl 0 rfl (ix2 r k)
      (fun b hb => ?_) ?_
    · match b with
      | ⟨0, _⟩ => rfl
      | ⟨1, _⟩ => exact absurd rfl hb
    · show 0 + k.val = k.val; omega
  · refine concatenate_apply_piece (t := Cert.ReferenceIdeal.S50000x384) (1 : Fin 2)
      [⟨Cert.ReferenceIdeal.S50000x128, x1⟩, ⟨Cert.ReferenceIdeal.S50000x128, x2⟩, ⟨Cert.ReferenceIdeal.S50000x128, x3⟩] h _ 1 (show (1 : ℕ) < 3 by decide) Cert.ReferenceIdeal.S50000x128 x2 rfl rfl 128 rfl (ix2 r k)
      (fun b hb => ?_) ?_
    · match b with
      | ⟨0, _⟩ => rfl
      | ⟨1, _⟩ => exact absurd rfl hb
    · rfl
  · refine concatenate_apply_piece (t := Cert.ReferenceIdeal.S50000x384) (1 : Fin 2)
      [⟨Cert.ReferenceIdeal.S50000x128, x1⟩, ⟨Cert.ReferenceIdeal.S50000x128, x2⟩, ⟨Cert.ReferenceIdeal.S50000x128, x3⟩] h _ 2 (show (2 : ℕ) < 3 by decide) Cert.ReferenceIdeal.S50000x128 x3 rfl rfl 256 rfl (ix2 r k)
      (fun b hb => ?_) ?_
    · match b with
      | ⟨0, _⟩ => rfl
      | ⟨1, _⟩ => exact absurd rfl hb
    · rfl

/-- The host's 384 clipped columns read run by run: entry (r, k) of run i is array i's entry plus the bias row's,
    clipped at zero. -/
theorem act128_apply (p1 p2 p3 : Cert.ReferenceIdeal.S50000x128.Idx → EReal)
    (b : Cert.ReferenceIdeal.S1x128.Idx → EReal) (r : Fin 50000) (k : Fin 128) :
    Cert.Stage.act128 (F := Ideal) p1 p2 p3 b (ix2 r (⟨k.val, Nat.lt_of_lt_of_le k.isLt (by decide)⟩ : Fin 384))
        = max (p1 (ix2 r k) + b (ix2 (0 : Fin 1) k)) (Ideal.ofBits .f32 0x00000000#32)
    ∧ Cert.Stage.act128 (F := Ideal) p1 p2 p3 b (ix2 r (⟨128 + k.val, by have := k.isLt; omega⟩ : Fin 384))
        = max (p2 (ix2 r k) + b (ix2 (0 : Fin 1) k)) (Ideal.ofBits .f32 0x00000000#32)
    ∧ Cert.Stage.act128 (F := Ideal) p1 p2 p3 b (ix2 r (⟨256 + k.val, by have := k.isLt; omega⟩ : Fin 384))
        = max (p3 (ix2 r k) + b (ix2 (0 : Fin 1) k)) (Ideal.ofBits .f32 0x00000000#32) := by
  unfold Cert.Stage.act128
  obtain ⟨c1, c2, c3⟩ := sideBySide_apply
    (addf (F := Ideal) (φ := .f32) p1 (broadcastInDim Cert.ReferenceIdeal.S50000x128 ![0, 1] Cert.ReferenceIdeal.Gen.bcast_S1x128_S50000x128_0_1 b))
    (addf (F := Ideal) (φ := .f32) p2 (broadcastInDim Cert.ReferenceIdeal.S50000x128 ![0, 1] Cert.ReferenceIdeal.Gen.bcast_S1x128_S50000x128_0_1 b))
    (addf (F := Ideal) (φ := .f32) p3 (broadcastInDim Cert.ReferenceIdeal.S50000x128 ![0, 1] Cert.ReferenceIdeal.Gen.bcast_S1x128_S50000x128_0_1 b))
    Cert.ReferenceIdeal.Gen.concatenates_S50000x128_S50000x128_S50000x128_S50000x384_d1 r k
  have hb : broadcastInDim Cert.ReferenceIdeal.S50000x128 ![0, 1] Cert.ReferenceIdeal.Gen.bcast_S1x128_S50000x128_0_1 b (ix2 r k)
      = b (ix2 (0 : Fin 1) k) :=
    broadcastInDim_oneRow_apply Cert.ReferenceIdeal.Gen.bcast_S1x128_S50000x128_0_1 b r k
  refine ⟨?_, ?_, ?_⟩
  · rw [maximumf_apply, c1, addf_apply, hb]; rfl
  · rw [maximumf_apply, c2, addf_apply, hb]; rfl
  · rw [maximumf_apply, c3, addf_apply, hb]; rfl

/-- The host's dense layer read at an entry: the product over all 384 clipped columns is the three runs' products
    added left to right, run i pairing array i with rows 128·i … 128·i + 127 of the weight. -/
theorem dense_apply {n : Nat}
    (w : DotDims.WF ⟨2, ![50000, 384]⟩ ⟨2, ![384, n]⟩ ⟨2, ![50000, n]⟩ [1] [0] [0] [1] [] [])
    (p1 p2 p3 : Cert.ReferenceIdeal.S50000x128.Idx → EReal) (b : Cert.ReferenceIdeal.S1x128.Idx → EReal)
    (wt : FVec Ideal ⟨2, ![384, n]⟩ .f32) (r : Fin 50000) (q : Fin n) :
    Host.dotGeneral (φ₁ := .f32) (⟨[1], [0], [0], [1], [], [], w⟩ : DotDims _ _ _) none (Cert.Stage.act128 (F := Ideal) p1 p2 p3 b) wt (ix2 r q)
      = (∑ k : Fin 128, max (p1 (ix2 r k) + b (ix2 (0 : Fin 1) k)) (Ideal.ofBits .f32 0x00000000#32)
            * wt (ix2 (⟨k.val, Nat.lt_of_lt_of_le k.isLt (by decide)⟩ : Fin 384) q)
          + ∑ k : Fin 128, max (p2 (ix2 r k) + b (ix2 (0 : Fin 1) k)) (Ideal.ofBits .f32 0x00000000#32)
            * wt (ix2 (⟨128 + k.val, by have := k.isLt; omega⟩ : Fin 384) q))
        + ∑ k : Fin 128, max (p3 (ix2 r k) + b (ix2 (0 : Fin 1) k)) (Ideal.ofBits .f32 0x00000000#32)
            * wt (ix2 (⟨256 + k.val, by have := k.isLt; omega⟩ : Fin 384) q) := by
  refine (hostDot_apply (φ₁ := .f32) (φ₂ := .f32) w none (Cert.Stage.act128 (F := Ideal) p1 p2 p3 b) wt r q).trans ?_
  rw [sum_three_runs]
  refine congrArg₂ (· + ·) (congrArg₂ (· + ·) (Finset.sum_congr rfl fun k _ => ?_) (Finset.sum_congr rfl fun k _ => ?_))
    (Finset.sum_congr rfl fun k _ => ?_)
  · rw [(act128_apply p1 p2 p3 b r k).1]
  · rw [(act128_apply p1 p2 p3 b r k).2.1]
  · rw [(act128_apply p1 p2 p3 b r k).2.2]

/-- A 128-row slice of a 384-row weight starting at row o, read at (k, q), is the weight at (o + k, q). -/
theorem weight_slice_apply {n o : Nat} (W : Vec Ideal ⟨2, ![384, n]⟩ .f32)
    (inb : ∀ a, (![o, 0] : Fin 2 → Nat) a + (⟨2, ![128, n]⟩ : Shape).size a ≤ (⟨2, ![384, n]⟩ : Shape).size a)
    (k : Fin 128) (q : Fin n) (k' : Fin 384) (hk : k'.val = o + k.val) :
    View.ld W (Rect.unit (s := ⟨2, ![384, n]⟩) ![o, 0] (⟨2, ![128, n]⟩ : Shape).size inb) (ix2 k q) = W (ix2 k' q) := by
  show W _ = W _
  refine congrArg W (funext fun a => Fin.ext ?_)
  match a with
  | ⟨0, _⟩ => show o + 1 * k.val = k'.val; omega
  | ⟨1, _⟩ => show 0 + 1 * q.val = q.val; omega

end Cert.KernelIdeal.RegionValue

end
-- ==== Proof.Region1.lean ====
/-
  The second region: 25 grid points, point t taking rows 2000·t … 2000·t + 1999 of three propagated node arrays, the
  bias row and the whole 384 by 128 weight (read as its three 128-row thirds), and writing the tile of the dense
  layer into the same rows of the result. Each tile is the matching rows of the host's one dense layer of the whole
  arrays; the 25 tiles cover the 50000 rows.
-/
import proofs.«156776_j29454885716514_2_alg».proof.Proof.RegionLibDense

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-- The region's tile, entry by entry: the three clipped tiles times the three weight thirds, added left to right. -/
theorem k1_pay1_apply (b : Vec Ideal S1x128 .f32) (x1 x2 x3 : Vec Ideal S2000x128 .f32) (w1 w2 w3 : Vec Ideal S128x128 .f32)
    (p : Fin 2000) (q : Fin 128) :
    k1_pay1 (F := Ideal) b x1 x2 x3 w1 w2 w3 (ix2 p q)
      = (∑ k : Fin 128, tileAct x1 b (ix2 p k) * w1 (ix2 k q) + ∑ k : Fin 128, tileAct x2 b (ix2 p k) * w2 (ix2 k q))
        + ∑ k : Fin 128, tileAct x3 b (ix2 p k) * w3 (ix2 k q) := by
  have e : k1_pay1 (F := Ideal) b x1 x2 x3 w1 w2 w3
      = truncf .bf16 (addf (addf
          (matmul dot_S2000x128_S128x128_S2000x128_1_0_0_1_n_n none (truncf .bf16 (tileAct x1 b) bitsLt_bf16_f32)
            (truncf .bf16 w1 bitsLt_bf16_f32) (constant S2000x128 .f32 0x00000000#32))
          (matmul dot_S2000x128_S128x128_S2000x128_1_0_0_1_n_n none (truncf .bf16 (tileAct x2 b) bitsLt_bf16_f32)
            (truncf .bf16 w2 bitsLt_bf16_f32) (constant S2000x128 .f32 0x00000000#32)))
          (matmul dot_S2000x128_S128x128_S2000x128_1_0_0_1_n_n none (truncf .bf16 (tileAct x3 b) bitsLt_bf16_f32)
            (truncf .bf16 w3 bitsLt_bf16_f32) (constant S2000x128 .f32 0x00000000#32))) bitsLt_bf16_f32 := by
    unfold k1_pay1 tileAct
    simp only [shapeCast_self]
  rw [e, truncf_apply, addf_apply, addf_apply]
  exact congrArg₂ (· + ·) (congrArg₂ (· + ·)
    (unitDot_apply (φ₁ := .bf16) (φ₂ := .bf16) dot_S2000x128_S128x128_S2000x128_1_0_0_1_n_n.wf none
      (truncf .bf16 (tileAct x1 b) bitsLt_bf16_f32) (truncf .bf16 w1 bitsLt_bf16_f32) p q)
    (unitDot_apply (φ₁ := .bf16) (φ₂ := .bf16) dot_S2000x128_S128x128_S2000x128_1_0_0_1_n_n.wf none
      (truncf .bf16 (tileAct x2 b) bitsLt_bf16_f32) (truncf .bf16 w2 bitsLt_bf16_f32) p q))
    (unitDot_apply (φ₁ := .bf16) (φ₂ := .bf16) dot_S2000x128_S128x128_S2000x128_1_0_0_1_n_n.wf none
      (truncf .bf16 (tileAct x3 b) bitsLt_bf16_f32) (truncf .bf16 w3 bitsLt_bf16_f32) p q)

/-- A tile's result is the host layer's rows at the tile: stated over any tiles whose row p is row r of the three
    arrays, any bias row equal to the host's, and any weight thirds that are the host weight's three runs of rows. -/
theorem tile1_eq_rows (b : Vec Ideal S1x128 .f32) (x1 x2 x3 : Vec Ideal S2000x128 .f32) (w1 w2 w3 : Vec Ideal S128x128 .f32)
    (P1 P2 P3 : (⟨Cert.ReferenceIdeal.S50000x128, .f32⟩ : BufTy).Contents (Elt Ideal))
    (B : (⟨Cert.ReferenceIdeal.S1x128, .f32⟩ : BufTy).Contents (Elt Ideal))
    (WT : (⟨Cert.ReferenceIdeal.S384x128, .f32⟩ : BufTy).Contents (Elt Ideal))
    (p : Fin 2000) (q : Fin 128) (r : Fin 50000)
    (h1 : ∀ k : Fin 128, x1 (ix2 p k) = P1 (ix2 r k)) (h2 : ∀ k : Fin 128, x2 (ix2 p k) = P2 (ix2 r k))
    (h3 : ∀ k : Fin 128, x3 (ix2 p k) = P3 (ix2 r k)) (hb : ∀ k : Fin 128, b (ix2 (0 : Fin 1) k) = B (ix2 (0 : Fin 1) k))
    (hw1 : ∀ k : Fin 128, w1 (ix2 k q) = WT (ix2 (⟨k.val, Nat.lt_of_lt_of_le k.isLt (by decide)⟩ : Fin 384) q))
    (hw2 : ∀ k : Fin 128, w2 (ix2 k q) = WT (ix2 (⟨128 + k.val, by have := k.isLt; omega⟩ : Fin 384) q))
    (hw3 : ∀ k : Fin 128, w3 (ix2 k q) = WT (ix2 (⟨256 + k.val, by have := k.isLt; omega⟩ : Fin 384) q)) :
    k1_pay1 (F := Ideal) b x1 x2 x3 w1 w2 w3 (ix2 p q) = Cert.Stage.layer1 (F := Ideal) P1 P2 P3 B WT (ix2 r q) := by
  rw [k1_pay1_apply]
  refine Eq.trans ?_ (dense_apply Cert.ReferenceIdeal.dot_S50000x384_S384x128_S50000x128_1_0_0_1_n_n.wf P1 P2 P3 B WT r q).symm
  refine congrArg₂ (· + ·) (congrArg₂ (· + ·) (Finset.sum_congr rfl fun k _ => ?_) (Finset.sum_congr rfl fun k _ => ?_))
    (Finset.sum_congr rfl fun k _ => ?_)
  · rw [tileAct_apply, h1 k, hb k, hw1 k]
  · rw [tileAct_apply, h2 k, hb k, hw2 k]
  · rw [tileAct_apply, h3 k, hb k, hw3 k]

variable (V : (c : Dev nD) → (b : Ref sig .tc) → Buf (Elt Ideal) ((c : Thread nD τ).loc b))

/-- Where each window's block sits at grid point t: the three arrays' tiles and the result tile at row block t, the
    bias row and the weight at the origin. -/
theorem block_positions1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The tile of array 1 at point t holds rows t·2000 … t·2000 + 1999 of that array. -/
theorem array0_tile1_apply (c : Dev nD) (t : Fin cfg1.N) (p : Fin 2000) (k : Fin 128) (r : Fin 50000)
    (hr : r.val = t.val * 2000 + p.val) :
    (iblk1 V c 0 t : Vec Ideal S2000x128 .f32) (ix2 p k)
      = (V c (Pipeline.arrRef spec1 0) : S50000x128.Idx → EReal) (ix2 r k) := by
  have e := block_positions1 t
  unfold iblk1
  rw [View.read_apply]
  refine congrArg (V c (Pipeline.arrRef spec1 0) : S50000x128.Idx → EReal) ?_
  funext a
  apply Fin.ext
  match a with
  | ⟨0, _⟩ => show win1_0.index t (0 : Fin 2) * 2000 + 1 * p.val = r.val; rw [e.1, hr]; omega
  | ⟨1, _⟩ => show win1_0.index t (1 : Fin 2) * 128 + 1 * k.val = k.val; rw [e.2.1]; omega

/-- The tile of array 2 at point t holds rows t·2000 … t·2000 + 1999 of that array. -/
theorem array1_tile1_apply (c : Dev nD) (t : Fin cfg1.N) (p : Fin 2000) (k : Fin 128) (r : Fin 50000)
    (hr : r.val = t.val * 2000 + p.val) :
    (iblk1 V c 1 t : Vec Ideal S2000x128 .f32) (ix2 p k)
      = (V c (Pipeline.arrRef spec1 1) : S50000x128.Idx → EReal) (ix2 r k) := by
  have e := block_positions1 t
  unfold iblk1
  rw [View.read_apply]
  refine congrArg (V c (Pipeline.arrRef spec1 1) : S50000x128.Idx → EReal) ?_
  funext a
  apply Fin.ext
  match a with
  | ⟨0, _⟩ => show win1_1.index t (0 : Fin 2) * 2000 + 1 * p.val = r.val; rw [e.2.2.1, hr]; omega
  | ⟨1, _⟩ => show win1_1.index t (1 : Fin 2) * 128 + 1 * k.val = k.val; rw [e.2.2.2.1]; omega

/-- The tile of array 3 at point t holds rows t·2000 … t·2000 + 1999 of that array. -/
theorem array2_tile1_apply (c : Dev nD) (t : Fin cfg1.N) (p : Fin 2000) (k : Fin 128) (r : Fin 50000)
    (hr : r.val = t.val * 2000 + p.val) :
    (iblk1 V c 2 t : Vec Ideal S2000x128 .f32) (ix2 p k)
      = (V c (Pipeline.arrRef spec1 2) : S50000x128.Idx → EReal) (ix2 r k) := by
  have e := block_positions1 t
  unfold iblk1
  rw [View.read_apply]
  refine congrArg (V c (Pipeline.arrRef spec1 2) : S50000x128.Idx → EReal) ?_
  funext a
  apply Fin.ext
  match a with
  | ⟨0, _⟩ => show win1_2.index t (0 : Fin 2) * 2000 + 1 * p.val = r.val; rw [e.2.2.2.2.1, hr]; omega
  | ⟨1, _⟩ => show win1_2.index t (1 : Fin 2) * 128 + 1 * k.val = k.val; rw [e.2.2.2.2.2.1]; omega

/-- The bias block at every point is the whole bias row. -/
theorem bias_block1_apply (c : Dev nD) (t : Fin cfg1.N) (k : Fin 128) :
    (iblk1 V c 3 t : Vec Ideal S1x128 .f32) (ix2 (0 : Fin 1) k)
      = (V c (Pipeline.arrRef spec1 3) : S1x128.Idx → EReal) (ix2 (0 : Fin 1) k) := by
  have e := block_positions1 t
  unfold iblk1
  rw [View.read_apply]
  refine congrArg (V c (Pipeline.arrRef spec1 3) : S1x128.Idx → EReal) ?_
  funext a
  apply Fin.ext
  match a with
  | ⟨0, _⟩ => show win1_3.index t (0 : Fin 2) * 1 + 1 * 0 = 0; rw [e.2.2.2.2.2.2.1]
  | ⟨1, _⟩ => show win1_3.index t (1 : Fin 2) * 128 + 1 * k.val = k.val; rw [e.2.2.2.2.2.2.2.1]; omega

/-- The weight block at every point is the whole weight. -/
theorem weight_block1_apply (c : Dev nD) (t : Fin cfg1.N) (k : Fin 384) (q : Fin 128) :
    (iblk1 V c 4 t : Vec Ideal S384x128 .f32) (ix2 k q)
      = (V c (Pipeline.arrRef spec1 4) : S384x128.Idx → EReal) (ix2 k q) := by
  have e := block_positions1 t
  unfold iblk1
  rw [View.read_apply]
  refine congrArg (V c (Pipeline.arrRef spec1 4) : S384x128.Idx → EReal) ?_
  funext a
  apply Fin.ext
  match a with
  | ⟨0, _⟩ => show win1_4.index t (0 : Fin 2) * 384 + 1 * k.val = k.val; rw [e.2.2.2.2.2.2.2.2.1]; omega
  | ⟨1, _⟩ => show win1_4.index t (1 : Fin 2) * 128 + 1 * q.val = q.val; rw [e.2.2.2.2.2.2.2.2.2.1]; omega

/-- What point t writes back is block t of the host layer of the whole arrays. -/
theorem flushed1_eq (c : Dev nD) (t : Fin cfg1.N) :
    (dat1 (F := Ideal) V c).flushed 5 t = ((cfg1.win 5).blk t).view.read (Elt Ideal)
      (Cert.Stage.layer1 (F := Ideal) (V c (Pipeline.arrRef spec1 0)) (V c (Pipeline.arrRef spec1 1))
        (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S1x128) zero_offsets]
  funext j
  have hj0 : (j 0).val < 2000 := (j 0).isLt
  have hj1 : (j 1).val < 128 := (j 1).isLt
  have ht : t.val < 25 := t.isLt
  have e := block_positions1 t
  rw [View.read_apply]
  have hemb : ((cfg1.win 5).blk t).view.emb j
      = (ix2 (⟨t.val * 2000 + (j 0).val, by omega⟩ : Fin 50000) (⟨(j 1).val, hj1⟩ : Fin 128) : S50000x128.Idx) :=
    funext fun a => Fin.ext (by
      match a with
      | ⟨0, _⟩ => show win1_5.index t (0 : Fin 2) * 2000 + 1 * (j 0).val = t.val * 2000 + (j 0).val; rw [e.2.2.2.2.2.2.2.2.2.2.1]; omega
      | ⟨1, _⟩ => show win1_5.index t (1 : Fin 2) * 128 + 1 * (j 1).val = (j 1).val; rw [e.2.2.2.2.2.2.2.2.2.2.2]; omega)
  have hinj : (cfg1.win 5).xinj (grid1.coords t) j
      = (ix2 (⟨(j 0).val, hj0⟩ : Fin 2000) (⟨(j 1).val, hj1⟩ : Fin 128) : S2000x128.Idx) :=
    funext fun a => Fin.ext (by
      match a with
      | ⟨0, _⟩ => rfl
      | ⟨1, _⟩ => rfl)
  show k1_pay1 (iblk1 V c 3 t) (iblk1 V c 0 t) (iblk1 V c 1 t) (iblk1 V c 2 t)
    (View.ld (iblk1 V c 4 t) r1_2) (View.ld (iblk1 V c 4 t) r1_3) (View.ld (iblk1 V c 4 t) r1_4)
    ((cfg1.win 5).xinj (grid1.coords t) j) = _
  rw [hinj]
  refine Eq.trans ?_ (congrArg (Cert.Stage.layer1 (F := Ideal) (V c (Pipeline.arrRef spec1 0)) (V c (Pipeline.arrRef spec1 1))
        (V c (Pipeline.arrRef spec1 2)) (V c (Pipeline.arrRef spec1 3)) (V c (Pipeline.arrRef spec1 4))) hemb).symm
  exact tile1_eq_rows (iblk1 V c 3 t) (iblk1 V c 0 t) (iblk1 V c 1 t) (iblk1 V c 2 t)
    (View.ld (iblk1 V c 4 t) r1_2) (View.ld (iblk1 V c 4 t) r1_3) (View.ld (iblk1 V c 4 t) r1_4)
    (V c (Pipeline.arrRef spec1 0)) (V c (Pipeline.arrRef spec1 1)) (V c (Pipeline.arrRef spec1 2))
    (V c (Pipeline.arrRef spec1 3)) (V c (Pipeline.arrRef spec1 4))
    ⟨(j 0).val, hj0⟩ ⟨(j 1).val, hj1⟩ ⟨t.val * 2000 + (j 0).val, by omega⟩
    (fun k => array0_tile1_apply V c t ⟨(j 0).val, hj0⟩ k ⟨t.val * 2000 + (j 0).val, by omega⟩ rfl)
    (fun k => array1_tile1_apply V c t ⟨(j 0).val, hj0⟩ k ⟨t.val * 2000 + (j 0).val, by omega⟩ rfl)
    (fun k => array2_tile1_apply V c t ⟨(j 0).val, hj0⟩ k ⟨t.val * 2000 + (j 0).val, by omega⟩ rfl)
    (fun k => bias_block1_apply V c t k)
    (fun k => (weight_slice_apply (n := 128) (o := 0) (iblk1 V c 4 t) inb_S384x128_S128x128_0_0 k ⟨(j 1).val, hj1⟩
      ⟨k.val, Nat.lt_of_lt_of_le k.isLt (by decide)⟩ (by show k.val = 0 + k.val; omega)).trans
      (weight_block1_apply V c t _ _))
    (fun k => (weight_slice_apply (n := 128) (o := 128) (iblk1 V c 4 t) inb_S384x128_S128x128_128_0 k ⟨(j 1).val, hj1⟩
      ⟨128 + k.val, by have := k.isLt; omega⟩ rfl).trans (weight_block1_apply V c t _ _))
    (fun k => (weight_slice_apply (n := 128) (o := 256) (iblk1 V c 4 t) inb_S384x128_S128x128_256_0 k ⟨(j 1).val, hj1⟩
      ⟨256 + k.val, by have := k.isLt; omega⟩ rfl).trans (weight_block1_apply V c t _ _))

/-- An index of the result array lies in point t's block iff each coordinate is in the block's range on its axis. -/
theorem mem_result_block1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_call0_v217).slice (win1_5.rect t)).set ↔ _
  rw [View.set_slice_whole, Rect.mem_set_unit]
  exact Iff.rfl

/-- After its 25 points the region's result array is the host layer of the whole arrays: row r is written by point
    r / 2000, and every point writes its rows of that one layer. -/
theorem region1 (c : Dev nD) : (Gen.dat1 (F := Ideal) V c).arrAt 5 cfg1.N
    = Cert.Stage.layer1 (F := Ideal) (V c (Pipeline.arrRef spec1 0)) (V c (Pipeline.arrRef spec1 1))
        (V c (Pipeline.arrRef spec1 2)) (V c (Pipeline.arrRef spec1 3)) (V c (Pipeline.arrRef spec1 4)) :=
  (dat1 V c).arrAt_eq_of_cover 5
    (Cert.Stage.layer1 (F := Ideal) (V c (Pipeline.arrRef spec1 0)) (V c (Pipeline.arrRef spec1 1))
        (V c (Pipeline.arrRef spec1 2)) (V c (Pipeline.arrRef spec1 3)) (V c (Pipeline.arrRef spec1 4)))
    (fun t _ => flushed1_eq V c t) fun i => by
      have hi0 : (i 0).val < 50000 := (i 0).isLt
      have hi1 : (i 1).val < 128 := (i 1).isLt
      have hN : cfg1.N = 25 := N_1
      have hlt : (i 0).val / 2000 < cfg1.N := by rw [hN]; omega
      have e := block_positions1 ⟨(i 0).val / 2000, hlt⟩
      refine ⟨⟨(i 0).val / 2000, hlt⟩, flush1_5 _, ?_⟩
      rw [mem_result_block1]
      intro a
      match a with
      | ⟨0, _⟩ =>
        show win1_5.index ⟨(i 0).val / 2000, hlt⟩ (0 : Fin 2) * 2000 ≤ (i 0).val
          ∧ (i 0).val < win1_5.index ⟨(i 0).val / 2000, hlt⟩ (0 : Fin 2) * 2000 + 2000
        rw [e.2.2.2.2.2.2.2.2.2.2.1]
        show (i 0).val / 2000 * 2000 ≤ (i 0).val ∧ (i 0).val < (i 0).val / 2000 * 2000 + 2000; omega
      | ⟨1, _⟩ =>
        show win1_5.index ⟨(i 0).val / 2000, hlt⟩ (1 : Fin 2) * 128 ≤ (i 1).val
          ∧ (i 1).val < win1_5.index ⟨(i 0).val / 2000, hlt⟩ (1 : Fin 2) * 128 + 128
        rw [e.2.2.2.2.2.2.2.2.2.2.2]; omega

end Cert.KernelIdeal.RegionValue

end
-- ==== Proof.Region2.lean ====
/-
  The third region: as the second, with a 384 by 64 weight. 25 grid points, point t taking rows 2000·t … 2000·t + 1999
  of three propagated node arrays, the bias row and the whole weight (read as its three 128-row thirds), and writing
  the tile of the dense layer into the same rows of the 64-column result. Each tile is the matching rows of the
  host's one dense layer of the whole arrays; the 25 tiles cover the 50000 rows.
-/
import proofs.«156776_j29454885716514_2_alg».proof.Proof.RegionLibDense

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-- The region's tile, entry by entry: the three clipped tiles times the three weight thirds, added left to right. -/
theorem k2_pay1_apply (b : Vec Ideal S1x128 .f32) (x1 x2 x3 : Vec Ideal S2000x128 .f32) (w1 w2 w3 : Vec Ideal S128x64 .f32)
    (p : Fin 2000) (q : Fin 64) :
    k2_pay1 (F := Ideal) b x1 x2 x3 w1 w2 w3 (ix2 p q)
      = (∑ k : Fin 128, tileAct x1 b (ix2 p k) * w1 (ix2 k q) + ∑ k : Fin 128, tileAct x2 b (ix2 p k) * w2 (ix2 k q))
        + ∑ k : Fin 128, tileAct x3 b (ix2 p k) * w3 (ix2 k q) := by
  have e : k2_pay1 (F := Ideal) b x1 x2 x3 w1 w2 w3
      = truncf .bf16 (addf (addf
          (matmul dot_S2000x128_S128x64_S2000x64_1_0_0_1_n_n none (truncf .bf16 (tileAct x1 b) bitsLt_bf16_f32)
            (truncf .bf16 w1 bitsLt_bf16_f32) (constant S2000x64 .f32 0x00000000#32))
          (matmul dot_S2000x128_S128x64_S2000x64_1_0_0_1_n_n none (truncf .bf16 (tileAct x2 b) bitsLt_bf16_f32)
            (truncf .bf16 w2 bitsLt_bf16_f32) (constant S2000x64 .f32 0x00000000#32)))
          (matmul dot_S2000x128_S128x64_S2000x64_1_0_0_1_n_n none (truncf .bf16 (tileAct x3 b) bitsLt_bf16_f32)
            (truncf .bf16 w3 bitsLt_bf16_f32) (constant S2000x64 .f32 0x00000000#32))) bitsLt_bf16_f32 := by
    unfold k2_pay1 tileAct
    simp only [shapeCast_self]
  rw [e, truncf_apply, addf_apply, addf_apply]
  exact congrArg₂ (· + ·) (congrArg₂ (· + ·)
    (unitDot_apply (φ₁ := .bf16) (φ₂ := .bf16) dot_S2000x128_S128x64_S2000x64_1_0_0_1_n_n.wf none
      (truncf .bf16 (tileAct x1 b) bitsLt_bf16_f32) (truncf .bf16 w1 bitsLt_bf16_f32) p q)
    (unitDot_apply (φ₁ := .bf16) (φ₂ := .bf16) dot_S2000x128_S128x64_S2000x64_1_0_0_1_n_n.wf none
      (truncf .bf16 (tileAct x2 b) bitsLt_bf16_f32) (truncf .bf16 w2 bitsLt_bf16_f32) p q))
    (unitDot_apply (φ₁ := .bf16) (φ₂ := .bf16) dot_S2000x128_S128x64_S2000x64_1_0_0_1_n_n.wf none
      (truncf .bf16 (tileAct x3 b) bitsLt_bf16_f32) (truncf .bf16 w3 bitsLt_bf16_f32) p q)

/-- A tile's result is the host layer's rows at the tile: stated over any tiles whose row p is row r of the three
    arrays, any bias row equal to the host's, and any weight thirds that are the host weight's three runs of rows. -/
theorem tile2_eq_rows (b : Vec Ideal S1x128 .f32) (x1 x2 x3 : Vec Ideal S2000x128 .f32) (w1 w2 w3 : Vec Ideal S128x64 .f32)
    (P1 P2 P3 : (⟨Cert.ReferenceIdeal.S50000x128, .f32⟩ : BufTy).Contents (Elt Ideal))
    (B : (⟨Cert.ReferenceIdeal.S1x128, .f32⟩ : BufTy).Contents (Elt Ideal))
    (WT : (⟨Cert.ReferenceIdeal.S384x64, .f32⟩ : BufTy).Contents (Elt Ideal))
    (p : Fin 2000) (q : Fin 64) (r : Fin 50000)
    (h1 : ∀ k : Fin 128, x1 (ix2 p k) = P1 (ix2 r k)) (h2 : ∀ k : Fin 128, x2 (ix2 p k) = P2 (ix2 r k))
    (h3 : ∀ k : Fin 128, x3 (ix2 p k) = P3 (ix2 r k)) (hb : ∀ k : Fin 128, b (ix2 (0 : Fin 1) k) = B (ix2 (0 : Fin 1) k))
    (hw1 : ∀ k : Fin 128, w1 (ix2 k q) = WT (ix2 (⟨k.val, Nat.lt_of_lt_of_le k.isLt (by decide)⟩ : Fin 384) q))
    (hw2 : ∀ k : Fin 128, w2 (ix2 k q) = WT (ix2 (⟨128 + k.val, by have := k.isLt; omega⟩ : Fin 384) q))
    (hw3 : ∀ k : Fin 128, w3 (ix2 k q) = WT (ix2 (⟨256 + k.val, by have := k.isLt; omega⟩ : Fin 384) q)) :
    k2_pay1 (F := Ideal) b x1 x2 x3 w1 w2 w3 (ix2 p q) = Cert.Stage.layer2 (F := Ideal) P1 P2 P3 B WT (ix2 r q) := by
  rw [k2_pay1_apply]
  refine Eq.trans ?_ (dense_apply Cert.ReferenceIdeal.dot_S50000x384_S384x64_S50000x64_1_0_0_1_n_n.wf P1 P2 P3 B WT r q).symm
  refine congrArg₂ (· + ·) (congrArg₂ (· + ·) (Finset.sum_congr rfl fun k _ => ?_) (Finset.sum_congr rfl fun k _ => ?_))
    (Finset.sum_congr rfl fun k _ => ?_)
  · rw [tileAct_apply, h1 k, hb k, hw1 k]
  · rw [tileAct_apply, h2 k, hb k, hw2 k]
  · rw [tileAct_apply, h3 k, hb k, hw3 k]

variable (V : (c : Dev nD) → (b : Ref sig .tc) → Buf (Elt Ideal) ((c : Thread nD τ).loc b))

/-- Where each window's block sits at grid point t: the three arrays' tiles and the result tile at row block t, the
    bias row and the weight at the origin. -/
theorem block_positions2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The tile of array 1 at point t holds rows t·2000 … t·2000 + 1999 of that array. -/
theorem array0_tile2_apply (c : Dev nD) (t : Fin cfg2.N) (p : Fin 2000) (k : Fin 128) (r : Fin 50000)
    (hr : r.val = t.val * 2000 + p.val) :
    (iblk2 V c 0 t : Vec Ideal S2000x128 .f32) (ix2 p k)
      = (V c (Pipeline.arrRef spec2 0) : S50000x128.Idx → EReal) (ix2 r k) := by
  have e := block_positions2 t
  unfold iblk2
  rw [View.read_apply]
  refine congrArg (V c (Pipeline.arrRef spec2 0) : S50000x128.Idx → EReal) ?_
  funext a
  apply Fin.ext
  match a with
  | ⟨0, _⟩ => show win2_0.index t (0 : Fin 2) * 2000 + 1 * p.val = r.val; rw [e.1, hr]; omega
  | ⟨1, _⟩ => show win2_0.index t (1 : Fin 2) * 128 + 1 * k.val = k.val; rw [e.2.1]; omega

/-- The tile of array 2 at point t holds rows t·2000 … t·2000 + 1999 of that array. -/
theorem array1_tile2_apply (c : Dev nD) (t : Fin cfg2.N) (p : Fin 2000) (k : Fin 128) (r : Fin 50000)
    (hr : r.val = t.val * 2000 + p.val) :
    (iblk2 V c 1 t : Vec Ideal S2000x128 .f32) (ix2 p k)
      = (V c (Pipeline.arrRef spec2 1) : S50000x128.Idx → EReal) (ix2 r k) := by
  have e := block_positions2 t
  unfold iblk2
  rw [View.read_apply]
  refine congrArg (V c (Pipeline.arrRef spec2 1) : S50000x128.Idx → EReal) ?_
  funext a
  apply Fin.ext
  match a with
  | ⟨0, _⟩ => show win2_1.index t (0 : Fin 2) * 2000 + 1 * p.val = r.val; rw [e.2.2.1, hr]; omega
  | ⟨1, _⟩ => show win2_1.index t (1 : Fin 2) * 128 + 1 * k.val = k.val; rw [e.2.2.2.1]; omega

/-- The tile of array 3 at point t holds rows t·2000 … t·2000 + 1999 of that array. -/
theorem array2_tile2_apply (c : Dev nD) (t : Fin cfg2.N) (p : Fin 2000) (k : Fin 128) (r : Fin 50000)
    (hr : r.val = t.val * 2000 + p.val) :
    (iblk2 V c 2 t : Vec Ideal S2000x128 .f32) (ix2 p k)
      = (V c (Pipeline.arrRef spec2 2) : S50000x128.Idx → EReal) (ix2 r k) := by
  have e := block_positions2 t
  unfold iblk2
  rw [View.read_apply]
  refine congrArg (V c (Pipeline.arrRef spec2 2) : S50000x128.Idx → EReal) ?_
  funext a
  apply Fin.ext
  match a with
  | ⟨0, _⟩ => show win2_2.index t (0 : Fin 2) * 2000 + 1 * p.val = r.val; rw [e.2.2.2.2.1, hr]; omega
  | ⟨1, _⟩ => show win2_2.index t (1 : Fin 2) * 128 + 1 * k.val = k.val; rw [e.2.2.2.2.2.1]; omega

/-- The bias block at every point is the whole bias row. -/
theorem bias_block2_apply (c : Dev nD) (t : Fin cfg2.N) (k : Fin 128) :
    (iblk2 V c 3 t : Vec Ideal S1x128 .f32) (ix2 (0 : Fin 1) k)
      = (V c (Pipeline.arrRef spec2 3) : S1x128.Idx → EReal) (ix2 (0 : Fin 1) k) := by
  have e := block_positions2 t
  unfold iblk2
  rw [View.read_apply]
  refine congrArg (V c (Pipeline.arrRef spec2 3) : S1x128.Idx → EReal) ?_
  funext a
  apply Fin.ext
  match a with
  | ⟨0, _⟩ => show win2_3.index t (0 : Fin 2) * 1 + 1 * 0 = 0; rw [e.2.2.2.2.2.2.1]
  | ⟨1, _⟩ => show win2_3.index t (1 : Fin 2) * 128 + 1 * k.val = k.val; rw [e.2.2.2.2.2.2.2.1]; omega

/-- The weight block at every point is the whole weight. -/
theorem weight_block2_apply (c : Dev nD) (t : Fin cfg2.N) (k : Fin 384) (q : Fin 64) :
    (iblk2 V c 4 t : Vec Ideal S384x64 .f32) (ix2 k q)
      = (V c (Pipeline.arrRef spec2 4) : S384x64.Idx → EReal) (ix2 k q) := by
  have e := block_positions2 t
  unfold iblk2
  rw [View.read_apply]
  refine congrArg (V c (Pipeline.arrRef spec2 4) : S384x64.Idx → EReal) ?_
  funext a
  apply Fin.ext
  match a with
  | ⟨0, _⟩ => show win2_4.index t (0 : Fin 2) * 384 + 1 * k.val = k.val; rw [e.2.2.2.2.2.2.2.2.1]; omega
  | ⟨1, _⟩ => show win2_4.index t (1 : Fin 2) * 64 + 1 * q.val = q.val; rw [e.2.2.2.2.2.2.2.2.2.1]; omega

set_option maxHeartbeats 1000000 in
/-- What point t writes back is block t of the host layer of the whole arrays. -/
theorem flushed2_eq (c : Dev nD) (t : Fin cfg2.N) :
    (dat2 (F := Ideal) V c).flushed 5 t = ((cfg2.win 5).blk t).view.read (Elt Ideal)
      (Cert.Stage.layer2 (F := Ideal) (V c (Pipeline.arrRef spec2 0)) (V c (Pipeline.arrRef spec2 1))
        (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S1x128) zero_offsets]
  funext j
  have hj0 : (j 0).val < 2000 := (j 0).isLt
  have hj1 : (j 1).val < 64 := (j 1).isLt
  have ht : t.val < 25 := t.isLt
  have e := block_positions2 t
  rw [View.read_apply]
  have hemb : ((cfg2.win 5).blk t).view.emb j
      = (ix2 (⟨t.val * 2000 + (j 0).val, by omega⟩ : Fin 50000) (⟨(j 1).val, hj1⟩ : Fin 64) : S50000x64.Idx) :=
    funext fun a => Fin.ext (by
      match a with
      | ⟨0, _⟩ => show win2_5.index t (0 : Fin 2) * 2000 + 1 * (j 0).val = t.val * 2000 + (j 0).val; rw [e.2.2.2.2.2.2.2.2.2.2.1]; omega
      | ⟨1, _⟩ => show win2_5.index t (1 : Fin 2) * 64 + 1 * (j 1).val = (j 1).val; rw [e.2.2.2.2.2.2.2.2.2.2.2]; omega)
  have hinj : (cfg2.win 5).xinj (grid2.coords t) j
      = (ix2 (⟨(j 0).val, hj0⟩ : Fin 2000) (⟨(j 1).val, hj1⟩ : Fin 64) : S2000x64.Idx) :=
    funext fun a => Fin.ext (by
      match a with
      | ⟨0, _⟩ => rfl
      | ⟨1, _⟩ => rfl)
  show k2_pay1 (iblk2 V c 3 t) (iblk2 V c 0 t) (iblk2 V c 1 t) (iblk2 V c 2 t)
    (View.ld (iblk2 V c 4 t) r2_2) (View.ld (iblk2 V c 4 t) r2_3) (View.ld (iblk2 V c 4 t) r2_4)
    ((cfg2.win 5).xinj (grid2.coords t) j) = _
  rw [hinj]
  refine Eq.trans ?_ (congrArg (Cert.Stage.layer2 (F := Ideal) (V c (Pipeline.arrRef spec2 0)) (V c (Pipeline.arrRef spec2 1))
        (V c (Pipeline.arrRef spec2 2)) (V c (Pipeline.arrRef spec2 3)) (V c (Pipeline.arrRef spec2 4))) hemb).symm
  exact tile2_eq_rows (iblk2 V c 3 t) (iblk2 V c 0 t) (iblk2 V c 1 t) (iblk2 V c 2 t)
    (View.ld (iblk2 V c 4 t) r2_2) (View.ld (iblk2 V c 4 t) r2_3) (View.ld (iblk2 V c 4 t) r2_4)
    (V c (Pipeline.arrRef spec2 0)) (V c (Pipeline.arrRef spec2 1)) (V c (Pipeline.arrRef spec2 2))
    (V c (Pipeline.arrRef spec2 3)) (V c (Pipeline.arrRef spec2 4))
    ⟨(j 0).val, hj0⟩ ⟨(j 1).val, hj1⟩ ⟨t.val * 2000 + (j 0).val, by omega⟩
    (fun k => array0_tile2_apply V c t ⟨(j 0).val, hj0⟩ k ⟨t.val * 2000 + (j 0).val, by omega⟩ rfl)
    (fun k => array1_tile2_apply V c t ⟨(j 0).val, hj0⟩ k ⟨t.val * 2000 + (j 0).val, by omega⟩ rfl)
    (fun k => array2_tile2_apply V c t ⟨(j 0).val, hj0⟩ k ⟨t.val * 2000 + (j 0).val, by omega⟩ rfl)
    (fun k => bias_block2_apply V c t k)
    (fun k => (weight_slice_apply (n := 64) (o := 0) (iblk2 V c 4 t) inb_S384x64_S128x64_0_0 k ⟨(j 1).val, hj1⟩
      ⟨k.val, Nat.lt_of_lt_of_le k.isLt (by decide)⟩ (by show k.val = 0 + k.val; omega)).trans
      (weight_block2_apply V c t _ _))
    (fun k => (weight_slice_apply (n := 64) (o := 128) (iblk2 V c 4 t) inb_S384x64_S128x64_128_0 k ⟨(j 1).val, hj1⟩
      ⟨128 + k.val, by have := k.isLt; omega⟩ rfl).trans (weight_block2_apply V c t _ _))
    (fun k => (weight_slice_apply (n := 64) (o := 256) (iblk2 V c 4 t) inb_S384x64_S128x64_256_0 k ⟨(j 1).val, hj1⟩
      ⟨256 + k.val, by have := k.isLt; omega⟩ rfl).trans (weight_block2_apply V c t _ _))

/-- An index of the result array lies in point t's block iff each coordinate is in the block's range on its axis. -/
theorem mem_result_block2 (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_call0_v261).slice (win2_5.rect t)).set ↔ _
  rw [View.set_slice_whole, Rect.mem_set_unit]
  exact Iff.rfl

/-- After its 25 points the region's result array is the host layer of the whole arrays: row r is written by point
    r / 2000, and every point writes its rows of that one layer. -/
theorem region2 (c : Dev nD) : (Gen.dat2 (F := Ideal) V c).arrAt 5 cfg2.N
    = Cert.Stage.layer2 (F := Ideal) (V c (Pipeline.arrRef spec2 0)) (V c (Pipeline.arrRef spec2 1))
        (V c (Pipeline.arrRef spec2 2)) (V c (Pipeline.arrRef spec2 3)) (V c (Pipeline.arrRef spec2 4)) :=
  (dat2 V c).arrAt_eq_of_cover 5
    (Cert.Stage.layer2 (F := Ideal) (V c (Pipeline.arrRef spec2 0)) (V c (Pipeline.arrRef spec2 1))
        (V c (Pipeline.arrRef spec2 2)) (V c (Pipeline.arrRef spec2 3)) (V c (Pipeline.arrRef spec2 4)))
    (fun t _ => flushed2_eq V c t) fun i => by
      have hi0 : (i 0).val < 50000 := (i 0).isLt
      have hi1 : (i 1).val < 64 := (i 1).isLt
      have hN : cfg2.N = 25 := N_2
      have hlt : (i 0).val / 2000 < cfg2.N := by rw [hN]; omega
      have e := block_positions2 ⟨(i 0).val / 2000, hlt⟩
      refine ⟨⟨(i 0).val / 2000, hlt⟩, flush2_5 _, ?_⟩
      rw [mem_result_block2]
      intro a
      match a with
      | ⟨0, _⟩ =>
        show win2_5.index ⟨(i 0).val / 2000, hlt⟩ (0 : Fin 2) * 2000 ≤ (i 0).val
          ∧ (i 0).val < win2_5.index ⟨(i 0).val / 2000, hlt⟩ (0 : Fin 2) * 2000 + 2000
        rw [e.2.2.2.2.2.2.2.2.2.2.1]
        show (i 0).val / 2000 * 2000 ≤ (i 0).val ∧ (i 0).val < (i 0).val / 2000 * 2000 + 2000; omega
      | ⟨1, _⟩ =>
        show win2_5.index ⟨(i 0).val / 2000, hlt⟩ (1 : Fin 2) * 64 ≤ (i 1).val
          ∧ (i 1).val < win2_5.index ⟨(i 0).val / 2000, hlt⟩ (1 : Fin 2) * 64 + 64
        rw [e.2.2.2.2.2.2.2.2.2.2.2]; omega

end Cert.KernelIdeal.RegionValue

end
-- ==== Proof.Region3LibConcat.lean ====
/-
  A side-by-side arrangement of three equally wide two-dimensional arrays, read at an index: column `q` of the
  wide array lies in the first, second or third third, and the entry is the corresponding piece's entry at the
  column counted from the start of that third.
-/
import Idealize.ShloMosaic.Lib.Pipeline.Value
import Idealize.ShloMosaic.Lib.ValueIdx

noncomputable section

namespace Cert.KernelIdeal.RegionValue

open Idealize.ShloMosaic Idealize.ShloMosaic.ValueIdx

variable {α : Type} {R C W : Nat}

/-- A column in the first third reads the first piece. -/
theorem concat3_apply_first (x0 x1 x2 : (⟨2, ![R, C]⟩ : Shape).Idx → α)
    (h : Shape.Concatenates [(⟨2, ![R, C]⟩ : Shape), ⟨2, ![R, C]⟩, ⟨2, ![R, C]⟩] ⟨2, ![R, W]⟩ 1)
    (p : Fin R) (q : Fin C) (k : Fin W) (hk : k.val = q.val) :
    concatenate ⟨2, ![R, W]⟩ 1 [⟨⟨2, ![R, C]⟩, x0⟩, ⟨⟨2, ![R, C]⟩, x1⟩, ⟨⟨2, ![R, C]⟩, x2⟩] h (ix2 p k) = x0 (ix2 p q) := by
  refine concatenate_apply_piece (t := ⟨2, ![R, W]⟩) (1 : Fin 2) [⟨⟨2, ![R, C]⟩, x0⟩, ⟨⟨2, ![R, C]⟩, x1⟩, ⟨⟨2, ![R, C]⟩, x2⟩] h (ix2 p k) 0 (by show 0 < 3; omega) ⟨2, ![R, C]⟩ x0 rfl rfl 0 rfl (ix2 p q) ?_ ?_
  · intro b hb
    match b, hb with
    | ⟨0, _⟩, _ => rfl
    | ⟨1, _⟩, hb => exact absurd rfl hb
  · show 0 + q.val = k.val
    omega

/-- A column in the second third reads the second piece. -/
theorem concat3_apply_second (x0 x1 x2 : (⟨2, ![R, C]⟩ : Shape).Idx → α)
    (h : Shape.Concatenates [(⟨2, ![R, C]⟩ : Shape), ⟨2, ![R, C]⟩, ⟨2, ![R, C]⟩] ⟨2, ![R, W]⟩ 1)
    (p : Fin R) (q : Fin C) (k : Fin W) (hk : k.val = C + q.val) :
    concatenate ⟨2, ![R, W]⟩ 1 [⟨⟨2, ![R, C]⟩, x0⟩, ⟨⟨2, ![R, C]⟩, x1⟩, ⟨⟨2, ![R, C]⟩, x2⟩] h (ix2 p k) = x1 (ix2 p q) := by
  refine concatenate_apply_piece (t := ⟨2, ![R, W]⟩) (1 : Fin 2) [⟨⟨2, ![R, C]⟩, x0⟩, ⟨⟨2, ![R, C]⟩, x1⟩, ⟨⟨2, ![R, C]⟩, x2⟩] h (ix2 p k) 1 (by show 1 < 3; omega) ⟨2, ![R, C]⟩ x1 rfl rfl C (by simp) (ix2 p q) ?_ ?_
  · intro b hb
    match b, hb with
    | ⟨0, _⟩, _ => rfl
    | ⟨1, _⟩, hb => exact absurd rfl hb
  · show C + q.val = k.val
    omega

/-- A column in the last third reads the third piece. -/
theorem concat3_apply_third (x0 x1 x2 : (⟨2, ![R, C]⟩ : Shape).Idx → α)
    (h : Shape.Concatenates [(⟨2, ![R, C]⟩ : Shape), ⟨2, ![R, C]⟩, ⟨2, ![R, C]⟩] ⟨2, ![R, W]⟩ 1)
    (p : Fin R) (q : Fin C) (k : Fin W) (hk : k.val = C + C + q.val) :
    concatenate ⟨2, ![R, W]⟩ 1 [⟨⟨2, ![R, C]⟩, x0⟩, ⟨⟨2, ![R, C]⟩, x1⟩, ⟨⟨2, ![R, C]⟩, x2⟩] h (ix2 p k) = x2 (ix2 p q) := by
  refine concatenate_apply_piece (t := ⟨2, ![R, W]⟩) (1 : Fin 2) [⟨⟨2, ![R, C]⟩, x0⟩, ⟨⟨2, ![R, C]⟩, x1⟩, ⟨⟨2, ![R, C]⟩, x2⟩] h (ix2 p k) 2 (by show 2 < 3; omega) ⟨2, ![R, C]⟩ x2 rfl rfl (C + C) (by simp) (ix2 p q) ?_ ?_
  · intro b hb
    match b, hb with
    | ⟨0, _⟩, _ => rfl
    | ⟨1, _⟩, hb => exact absurd rfl hb
  · show C + C + q.val = k.val
    omega

end Cert.KernelIdeal.RegionValue

end
-- ==== Proof.Region3LibAct.lean ====
/-
  The last dense layer's activations. Each propagated 64-column array has the bias row added to every row and is
  clipped at zero; the three results are laid side by side into 192 columns. Both programs compute, at row `r` and
  column `64 i + q`, the value `max (x_i[r, q] + b[0, q]) 0`: the tiled program on a block of 2000 rows, the
  whole-array program on all 50000 rows. This module reads both at an index, and reads each input block of the
  tiled program as rows `2000 t … 2000 t + 1999` of its array.
-/
import proofs.«156776_j29454885716514_2_alg».proof.Proof.Gen.KernelIdeal.Frame
import proofs.«156776_j29454885716514_2_alg».proof.Proof.Stages
import proofs.«156776_j29454885716514_2_alg».proof.Proof.Region3LibConcat
import Idealize.ShloMosaic.Lib.Pipeline.Value
import Idealize.ShloMosaic.Lib.ValueIdx
import Idealize.ShloMosaic.Lib.ValueLayout
import Idealize.ShloMosaic.Lib.IdealHost
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-- One propagated entry plus the bias entry of its column, clipped at zero. -/
def relu (x b : EReal) : EReal := max (x + b) (Ideal.ofBits .f32 0x00000000#32)

theorem pay2_apply (v0 : Vec Ideal S1x64 .f32) (v1 : Vec Ideal S2000x64 .f32) (p : Fin 2000) (q : Fin 64) :
    k3_pay2 v0 v1 (ix2 p q) = relu (v1 (ix2 p q)) (v0 (ix2 (0 : Fin 1) q)) := by
  unfold k3_pay2
  show max ((shapeCast S2000x64 v1 shapeCasts_S2000x64_S2000x64) (ix2 p q) + (broadcastTo S2000x64 v0 broadcasts_S1x64_S2000x64) (ix2 p q)) _ = _
  rw [shapeCast_self, broadcastTo_1b_ab_apply]
  rfl

theorem pay3_apply (v0 : Vec Ideal S1x64 .f32) (v1 : Vec Ideal S2000x64 .f32) (p : Fin 2000) (q : Fin 64) :
    k3_pay3 v0 v1 (ix2 p q) = relu (v1 (ix2 p q)) (v0 (ix2 (0 : Fin 1) q)) := by
  unfold k3_pay3
  show max ((shapeCast S2000x64 v1 shapeCasts_S2000x64_S2000x64) (ix2 p q) + (broadcastTo S2000x64 v0 broadcasts_S1x64_S2000x64) (ix2 p q)) _ = _
  rw [shapeCast_self, broadcastTo_1b_ab_apply]
  rfl

theorem pay4_apply (v0 : Vec Ideal S1x64 .f32) (v1 : Vec Ideal S2000x64 .f32) (p : Fin 2000) (q : Fin 64) :
    k3_pay4 v0 v1 (ix2 p q) = relu (v1 (ix2 p q)) (v0 (ix2 (0 : Fin 1) q)) := by
  unfold k3_pay4
  show max ((shapeCast S2000x64 v1 shapeCasts_S2000x64_S2000x64) (ix2 p q) + (broadcastTo S2000x64 v0 broadcasts_S1x64_S2000x64) (ix2 p q)) _ = _
  rw [shapeCast_self, broadcastTo_1b_ab_apply]
  rfl

/-- The three clipped arrays side by side, read at a column of each third. -/
theorem pay5_apply_first (v0 : Vec Ideal S1x64 .f32) (v1 v7 v13 : Vec Ideal S2000x64 .f32) (p : Fin 2000) (q : Fin 64) (k : Fin 192)
    (hk : k.val = q.val) : k3_pay5 v0 v1 v7 v13 (ix2 p k) = relu (v1 (ix2 p q)) (v0 (ix2 (0 : Fin 1) q)) := by
  unfold k3_pay5
  exact (concat3_apply_first _ _ _ _ p q k hk).trans (pay2_apply v0 v1 p q)

theorem pay5_apply_second (v0 : Vec Ideal S1x64 .f32) (v1 v7 v13 : Vec Ideal S2000x64 .f32) (p : Fin 2000) (q : Fin 64) (k : Fin 192)
    (hk : k.val = 64 + q.val) : k3_pay5 v0 v1 v7 v13 (ix2 p k) = relu (v7 (ix2 p q)) (v0 (ix2 (0 : Fin 1) q)) := by
  unfold k3_pay5
  exact (concat3_apply_second _ _ _ _ p q k hk).trans (pay3_apply v0 v7 p q)

theorem pay5_apply_third (v0 : Vec Ideal S1x64 .f32) (v1 v7 v13 : Vec Ideal S2000x64 .f32) (p : Fin 2000) (q : Fin 64) (k : Fin 192)
    (hk : k.val = 64 + 64 + q.val) : k3_pay5 v0 v1 v7 v13 (ix2 p k) = relu (v13 (ix2 p q)) (v0 (ix2 (0 : Fin 1) q)) := by
  unfold k3_pay5
  exact (concat3_apply_third _ _ _ _ p q k hk).trans (pay4_apply v0 v13 p q)

/-- The host's bias row over 50000 rows, read at an index. -/
theorem biasRow_apply (b : (⟨2, ![1, 64]⟩ : Shape).Idx → EReal) (r : Fin 50000) (q : Fin 64) :
    broadcastInDim Cert.ReferenceIdeal.S50000x64 ![0, 1] Cert.ReferenceIdeal.Gen.bcast_S1x64_S50000x64_0_1 b (ix2 r q) = b (ix2 (0 : Fin 1) q) := by
  refine broadcastInDim_apply _ _ b (ix2 r q) (ix2 (0 : Fin 1) q) fun ax => ?_
  match ax with
  | ⟨0, _⟩ => rfl
  | ⟨1, _⟩ => rfl

theorem act64_apply_first (p1 p2 p3 : (⟨2, ![50000, 64]⟩ : Shape).Idx → EReal) (b : (⟨2, ![1, 64]⟩ : Shape).Idx → EReal)
    (r : Fin 50000) (q : Fin 64) (k : Fin 192) (hk : k.val = q.val) :
    Cert.Stage.act64 (F := Ideal) p1 p2 p3 b (ix2 r k) = relu (p1 (ix2 r q)) (b (ix2 (0 : Fin 1) q)) := by
  unfold Cert.Stage.act64
  show max (concatenate _ _ _ _ (ix2 r k)) _ = _
  rw [concat3_apply_first _ _ _ _ r q k hk]
  show max (p1 (ix2 r q) + broadcastInDim _ _ _ b (ix2 r q)) _ = _
  rw [biasRow_apply]
  rfl

theorem act64_apply_second (p1 p2 p3 : (⟨2, ![50000, 64]⟩ : Shape).Idx → EReal) (b : (⟨2, ![1, 64]⟩ : Shape).Idx → EReal)
    (r : Fin 50000) (q : Fin 64) (k : Fin 192) (hk : k.val = 64 + q.val) :
    Cert.Stage.act64 (F := Ideal) p1 p2 p3 b (ix2 r k) = relu (p2 (ix2 r q)) (b (ix2 (0 : Fin 1) q)) := by
  unfold Cert.Stage.act64
  show max (concatenate _ _ _ _ (ix2 r k)) _ = _
  rw [concat3_apply_second _ _ _ _ r q k hk]
  show max (p2 (ix2 r q) + broadcastInDim _ _ _ b (ix2 r q)) _ = _
  rw [biasRow_apply]
  rfl

theorem act64_apply_third (p1 p2 p3 : (⟨2, ![50000, 64]⟩ : Shape).Idx → EReal) (b : (⟨2, ![1, 64]⟩ : Shape).Idx → EReal)
    (r : Fin 50000) (q : Fin 64) (k : Fin 192) (hk : k.val = 64 + 64 + q.val) :
    Cert.Stage.act64 (F := Ideal) p1 p2 p3 b (ix2 r k) = relu (p3 (ix2 r q)) (b (ix2 (0 : Fin 1) q)) := by
  unfold Cert.Stage.act64
  show max (concatenate _ _ _ _ (ix2 r k)) _ = _
  rw [concat3_apply_third _ _ _ _ r q k hk]
  show max (p3 (ix2 r q) + broadcastInDim _ _ _ b (ix2 r q)) _ = _
  rw [biasRow_apply]
  rfl

theorem hz : (![0, 0] : Fin 2 → Nat) = fun _ => 0 := funext fun a => by fin_cases a <;> rfl

/-- The printed block index maps over the 25 grid points: the row-tiled windows sit at block row `t`, the parameter
    windows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- A row-tiled input block at point `t` holds rows `2000 t … 2000 t + 1999` of its array. -/
theorem iblk3_0_apply (c : Dev nD) (t : Fin cfg3.N) (p : Fin 2000) (q : Fin 64) (r : Fin 50000) (hr : r.val = t.val * 2000 + p.val) :
    (iblk3 V c 0 t : Vec Ideal S2000x64 .f32) (ix2 p q) = (V c (Pipeline.arrRef spec3 0) : S50000x64.Idx → EReal) (ix2 r q) := by
  obtain ⟨e0, e1, -⟩ := idx_facts3 t
  unfold iblk3
  rw [View.read_apply]
  refine congrArg (V c (Pipeline.arrRef spec3 0) : S50000x64.Idx → EReal) ?_
  funext a
  apply Fin.ext
  match a with
  | ⟨0, _⟩ => show win3_0.index t (0 : Fin 2) * 2000 + 1 * p.val = r.val; omega
  | ⟨1, _⟩ => show win3_0.index t (1 : Fin 2) * 64 + 1 * q.val = q.val; omega

theorem iblk3_1_apply (c : Dev nD) (t : Fin cfg3.N) (p : Fin 2000) (q : Fin 64) (r : Fin 50000) (hr : r.val = t.val * 2000 + p.val) :
    (iblk3 V c 1 t : Vec Ideal S2000x64 .f32) (ix2 p q) = (V c (Pipeline.arrRef spec3 1) : S50000x64.Idx → EReal) (ix2 r q) := by
  obtain ⟨-, -, e0, e1, -⟩ := idx_facts3 t
  unfold iblk3
  rw [View.read_apply]
  refine congrArg (V c (Pipeline.arrRef spec3 1) : S50000x64.Idx → EReal) ?_
  funext a
  apply Fin.ext
  match a with
  | ⟨0, _⟩ => show win3_1.index t (0 : Fin 2) * 2000 + 1 * p.val = r.val; omega
  | ⟨1, _⟩ => show win3_1.index t (1 : Fin 2) * 64 + 1 * q.val = q.val; omega

theorem iblk3_2_apply (c : Dev nD) (t : Fin cfg3.N) (p : Fin 2000) (q : Fin 64) (r : Fin 50000) (hr : r.val = t.val * 2000 + p.val) :
    (iblk3 V c 2 t : Vec Ideal S2000x64 .f32) (ix2 p q) = (V c (Pipeline.arrRef spec3 2) : S50000x64.Idx → EReal) (ix2 r q) := by
  obtain ⟨-, -, -, -, e0, e1, -⟩ := idx_facts3 t
  unfold iblk3
  rw [View.read_apply]
  refine congrArg (V c (Pipeline.arrRef spec3 2) : S50000x64.Idx → EReal) ?_
  funext a
  apply Fin.ext
  match a with
  | ⟨0, _⟩ => show win3_2.index t (0 : Fin 2) * 2000 + 1 * p.val = r.val; omega
  | ⟨1, _⟩ => show win3_2.index t (1 : Fin 2) * 64 + 1 * q.val = q.val; omega

/-- The bias row's block at every point is the whole row. -/
theorem iblk3_3_apply (c : Dev nD) (t : Fin cfg3.N) (q : Fin 64) :
    (iblk3 V c 3 t : Vec Ideal S1x64 .f32) (ix2 (0 : Fin 1) q) = (V c (Pipeline.arrRef spec3 3) : S1x64.Idx → EReal) (ix2 (0 : Fin 1) q) := by
  obtain ⟨-, -, -, -, -, -, e0, e1, -⟩ := idx_facts3 t
  unfold iblk3
  rw [View.read_apply]
  refine congrArg (V c (Pipeline.arrRef spec3 3) : S1x64.Idx → EReal) ?_
  funext a
  apply Fin.ext
  match a with
  | ⟨0, _⟩ => show win3_3.index t (0 : Fin 2) * 1 + 1 * 0 = 0; omega
  | ⟨1, _⟩ => show win3_3.index t (1 : Fin 2) * 64 + 1 * q.val = q.val; omega

end Cert.KernelIdeal.RegionValue

end
-- ==== Proof.Region3LibX.lean ====
/-
  The 192-column output of the last tiled region: point `t` of the 25 writes rows `2000 t … 2000 t + 1999`, and what
  it writes is those rows of the side-by-side clipped activations of the whole arrays; the 25 row blocks cover
  the array.
-/
import proofs.«156776_j29454885716514_2_alg».proof.Proof.Gen.KernelIdeal.Frame
import proofs.«156776_j29454885716514_2_alg».proof.Proof.Stages
import proofs.«156776_j29454885716514_2_alg».proof.Proof.Region3LibAct
import Idealize.ShloMosaic.Lib.Pipeline.Value
import Idealize.ShloMosaic.Lib.ValueIdx
import Idealize.ShloMosaic.Lib.ValueLayout
import Idealize.ShloMosaic.Lib.IdealHost
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))
/-- Where an entry of output block `t` sits in the 192-column array. -/
theorem blk6_emb (t : Fin cfg3.N) (p : Fin 2000) (k : Fin 192) (r : Fin 50000) (hr : r.val = t.val * 2000 + p.val) :
    ((cfg3.win 6).blk t).view.emb (ix2 p k) = (ix2 r k : S50000x192.Idx) := by
  obtain ⟨-, -, -, -, -, -, -, -, -, -, -, -, e0, e1, -⟩ := idx_facts3 t
  funext a
  apply Fin.ext
  match a with
  | ⟨0, _⟩ => show win3_6.index t (0 : Fin 2) * 2000 + 1 * p.val = r.val; omega
  | ⟨1, _⟩ => show win3_6.index t (1 : Fin 2) * 192 + 1 * k.val = k.val; omega

/-- What point `t` writes back into the 192-column output is block `t` of the clipped, biased arrays side by side. -/
theorem flushed6_eq (c : Dev nD) (t : Fin cfg3.N) :
    (dat3 (F := Ideal) V c).flushed 6 t = ((cfg3.win 6).blk t).view.read (Elt Ideal)
      (Cert.Stage.act64 (F := Ideal) (V c (Pipeline.arrRef spec3 0)) (V c (Pipeline.arrRef spec3 1)) (V c (Pipeline.arrRef spec3 2)) (V c (Pipeline.arrRef spec3 3))) := by
  show (cfg3.win 6).cut (grid3.coords t) ((dat3 V c).after 6 t) = _
  rw [after3_6]
  unfold out3_6
  rw [View.canon_unit_zero hz]
  simp only [View.ld_unit_zero (S := S2000x64) hz, View.ld_unit_zero (S := S1x64) hz]
  funext j
  obtain ⟨p, k, rfl⟩ : ∃ (p : Fin 2000) (k : Fin 192), j = ix2 p k := ⟨j 0, j 1, eq_ix2 j⟩
  have ht : t.val < 25 := t.isLt
  have hp : p.val < 2000 := p.isLt
  have hk : k.val < 192 := k.isLt
  have hrow : t.val * 2000 + p.val < 50000 := by omega
  rw [View.read_apply, blk6_emb t p k ⟨t.val * 2000 + p.val, hrow⟩ rfl]
  show k3_pay5 (iblk3 V c 3 t) (iblk3 V c 0 t) (iblk3 V c 1 t) (iblk3 V c 2 t) (ix2 p k) = _
  by_cases h1 : k.val < 64
  · rw [pay5_apply_first _ _ _ _ p ⟨k.val, h1⟩ k rfl, act64_apply_first _ _ _ _ _ ⟨k.val, h1⟩ k rfl,
      iblk3_0_apply V c t p _ ⟨t.val * 2000 + p.val, hrow⟩ rfl, iblk3_3_apply V c t]
    rfl
  · by_cases h2 : k.val < 128
    · rw [pay5_apply_second _ _ _ _ p ⟨k.val - 64, by omega⟩ k (by show k.val = 64 + (k.val - 64); omega),
        act64_apply_second _ _ _ _ _ ⟨k.val - 64, by omega⟩ k (by show k.val = 64 + (k.val - 64); omega),
        iblk3_1_apply V c t p _ ⟨t.val * 2000 + p.val, hrow⟩ rfl, iblk3_3_apply V c t]
      rfl
    · rw [pay5_apply_third _ _ _ _ p ⟨k.val - 128, by omega⟩ k (by show k.val = 64 + 64 + (k.val - 128); omega),
        act64_apply_third _ _ _ _ _ ⟨k.val - 128, by omega⟩ k (by show k.val = 64 + 64 + (k.val - 128); omega),
        iblk3_2_apply V c t p _ ⟨t.val * 2000 + p.val, hrow⟩ rfl, iblk3_3_apply V c t]
      rfl

/-- An index of the 192-column array lies in point `t`'s block iff its row and column lie in the block's ranges. -/
theorem mem_blk6 (t : Fin cfg3.N) (i : S50000x192.Idx) :
    i ∈ ((cfg3.win 6).blk t).view.set ↔ ∀ a : Fin 2, win3_6.index t a * S2000x192.size a ≤ (i a).val ∧ (i a).val < win3_6.index t a * S2000x192.size a + S2000x192.size a := by
  show i ∈ ((View.whole main_v0_0).slice (win3_6.rect t)).set ↔ _
  rw [View.set_slice_whole, Rect.mem_set_unit]
  exact Iff.rfl

/-- Row `r` of the output is written by point `r / 2000`. -/
theorem cover6 (i : S50000x192.Idx) : ∃ t : Fin cfg3.N, (cfg3.win 6).flush t = true ∧ i ∈ ((cfg3.win 6).blk t).view.set := by
  have hi0 : (i 0).val < 50000 := (i 0).isLt
  have hi1 : (i 1).val < 192 := (i 1).isLt
  have hN : cfg3.N = 25 := N_3
  refine ⟨⟨(i 0).val / 2000, by rw [hN]; omega⟩, flush3_6 _, ?_⟩
  rw [mem_blk6]
  obtain ⟨-, -, -, -, -, -, -, -, -, -, -, -, e0, e1, -⟩ := idx_facts3 ⟨(i 0).val / 2000, by rw [hN]; omega⟩
  intro a
  match a with
  | ⟨0, _⟩ => show win3_6.index _ (0 : Fin 2) * 2000 ≤ (i 0).val ∧ (i 0).val < win3_6.index _ (0 : Fin 2) * 2000 + 2000; rw [e0]; show (i 0).val / 2000 * 2000 ≤ (i 0).val ∧ (i 0).val < (i 0).val / 2000 * 2000 + 2000; omega
  | ⟨1, _⟩ => show win3_6.index _ (1 : Fin 2) * 192 ≤ (i 1).val ∧ (i 1).val < win3_6.index _ (1 : Fin 2) * 192 + 192; rw [e1]; omega

end Cert.KernelIdeal.RegionValue

end
-- ==== Proof.Region3LibLogits.lean ====
/-
  The class scores. The tiled program multiplies each of the three clipped 64-column activations of a block of
  2000 rows by its own 64 rows of the 192 by 4 class weight and adds the three products left to right, then the
  class bias; the whole-array program multiplies the 192-column side-by-side activations by the whole weight in one
  contraction, then adds the class bias. A sum over 192 columns is the sum over its three thirds, so the two are
  the same extended real at every row and class.
-/
import proofs.«156776_j29454885716514_2_alg».proof.Proof.Region3LibAct
import Idealize.ShloMosaic.PureOps.Ideal.Laws

noncomputable section

open Idealize.ShloMosaic Idealize.ShloMosaic.TcCoe Idealize.SL.Sem Idealize.ShloMosaic.ValueIdx

namespace Cert.KernelIdeal.RegionValue

open Cert.KernelIdeal Cert.KernelIdeal.Gen

/-- A sum over 192 columns is the sum over the first, the second and the third 64 of them, added left to right. -/
theorem sum_thirds (f : Fin 192 → EReal) :
    ∑ k : Fin 192, f k = (∑ j : Fin 64, f ⟨j.val, by have := j.isLt; omega⟩ + ∑ j : Fin 64, f ⟨64 + j.val, by have := j.isLt; omega⟩)
      + ∑ j : Fin 64, f ⟨64 + 64 + j.val, by have := j.isLt; omega⟩ := by
  have h1 := Fin.sum_univ_add (a := 64 + 64) (b := 64) (fun k : Fin (64 + 64 + 64) => f k)
  have h2 := Fin.sum_univ_add (a := 64) (b := 64) (fun k : Fin (64 + 64) => f (Fin.castAdd 64 k))
  rw [h2] at h1
  exact h1

/-! ## The tiled program's products -/

theorem matmul64_lhs0 (i : S2000x4.Idx) (q : dot_S2000x64_S64x4_S2000x4_1_0_0_1_n_n.contr.Idx) :
    (dot_S2000x64_S64x4_S2000x4_1_0_0_1_n_n.lhsIdx i q 0).val = (i 0).val := by
  unfold DotDims.lhsIdx
  rw [dif_neg (show ¬(0 : Fin S2000x64.rank) ∈ dot_S2000x64_S64x4_S2000x4_1_0_0_1_n_n.lhsBatch by decide), dif_pos (show (0 : Fin S2000x64.rank) ∈ dot_S2000x64_S64x4_S2000x4_1_0_0_1_n_n.lhsNonContracting by decide)]
  rfl

theorem matmul64_rhs1 (i : S2000x4.Idx) (q : dot_S2000x64_S64x4_S2000x4_1_0_0_1_n_n.contr.Idx) :
    (dot_S2000x64_S64x4_S2000x4_1_0_0_1_n_n.rhsIdx i q 1).val = (i 1).val := by
  unfold DotDims.rhsIdx
  rw [dif_neg (show ¬(1 : Fin S64x4.rank) ∈ dot_S2000x64_S64x4_S2000x4_1_0_0_1_n_n.rhsBatch by decide), dif_pos (show (1 : Fin S64x4.rank) ∈ dot_S2000x64_S64x4_S2000x4_1_0_0_1_n_n.rhsNonContracting by decide)]
  rfl

/-- A block's product into a zero accumulator, at row `p` and class `q`: the sum over the 64 contracted columns. -/
theorem matmul64_apply (l : FVec Ideal S2000x64 .bf16) (r : FVec Ideal S64x4 .bf16) (p : Fin 2000) (q : Fin 4) :
    matmul dot_S2000x64_S64x4_S2000x4_1_0_0_1_n_n none l r (constant (F := Ideal) S2000x4 .f32 0x00000000#32) (ix2 p q)
      = ∑ j : Fin 64, l (ix2 p j) * r (ix2 j q) := by
  simp only [matmul]
  rw [Ideal.matmul_constant_zero_apply, ← Equiv.sum_comp (contrEquiv1 dot_S2000x64_S64x4_S2000x4_1_0_0_1_n_n 64 rfl rfl).symm]
  refine Finset.sum_congr rfl fun k _ => ?_
  have hk := contrEquiv1_symm_val dot_S2000x64_S64x4_S2000x4_1_0_0_1_n_n 64 rfl rfl k
  have el : dot_S2000x64_S64x4_S2000x4_1_0_0_1_n_n.lhsIdx (ix2 p q) ((contrEquiv1 dot_S2000x64_S64x4_S2000x4_1_0_0_1_n_n 64 rfl rfl).symm k) = ix2 p k := funext fun a => Fin.ext (by
    match a with
    | ⟨0, _⟩ => exact matmul64_lhs0 _ _
    | ⟨1, _⟩ => exact (dot_S2000x64_S64x4_S2000x4_1_0_0_1_n_n.lhsIdx_val_of_single rfl _ _).trans hk)
  have er : dot_S2000x64_S64x4_S2000x4_1_0_0_1_n_n.rhsIdx (ix2 p q) ((contrEquiv1 dot_S2000x64_S64x4_S2000x4_1_0_0_1_n_n 64 rfl rfl).symm k) = ix2 k q := funext fun a => Fin.ext (by
    match a with
    | ⟨0, _⟩ => exact (dot_S2000x64_S64x4_S2000x4_1_0_0_1_n_n.rhsIdx_val_of_single rfl _ _).trans hk
    | ⟨1, _⟩ => exact matmul64_rhs1 _ _)
  rw [el, er]

/-- The first two thirds' products, added. -/
theorem pay8_apply (b : Vec Ideal S1x64 .f32) (x0 x1 : Vec Ideal S2000x64 .f32) (w0 w1 : Vec Ideal S64x4 .f32) (p : Fin 2000) (q : Fin 4) :
    k3_pay8 b x0 x1 w0 w1 (ix2 p q)
      = ∑ j : Fin 64, relu (x0 (ix2 p j)) (b (ix2 (0 : Fin 1) j)) * w0 (ix2 j q)
        + ∑ j : Fin 64, relu (x1 (ix2 p j)) (b (ix2 (0 : Fin 1) j)) * w1 (ix2 j q) := by
  unfold k3_pay8
  rw [addf_apply, matmul64_apply, matmul64_apply]
  simp only [truncf_apply, shapeCast_self, pay2_apply, pay3_apply]

/-- The tiled program's class scores at row `p` of the block and class `k`. -/
theorem scores_apply (b : Vec Ideal S1x64 .f32) (x0 x1 x2 : Vec Ideal S2000x64 .f32) (w0 w1 w2 : Vec Ideal S64x4 .f32) (bc : Vec Ideal S1x4 .f32)
    (p : Fin 2000) (k : Fin 4) :
    addf (addf (k3_pay8 b x0 x1 w0 w1) (matmul dot_S2000x64_S64x4_S2000x4_1_0_0_1_n_n none (k3_pay7 b x2) (k3_pay6 w2) (constant (F := Ideal) S2000x4 .f32 0x00000000#32)))
        (broadcastTo S2000x4 (shapeCast S1x4 bc shapeCasts_S1x4_S1x4) broadcasts_S1x4_S2000x4) (ix2 p k)
      = ((∑ j : Fin 64, relu (x0 (ix2 p j)) (b (ix2 (0 : Fin 1) j)) * w0 (ix2 j k)
          + ∑ j : Fin 64, relu (x1 (ix2 p j)) (b (ix2 (0 : Fin 1) j)) * w1 (ix2 j k))
          + ∑ j : Fin 64, relu (x2 (ix2 p j)) (b (ix2 (0 : Fin 1) j)) * w2 (ix2 j k))
        + bc (ix2 (0 : Fin 1) k) := by
  rw [addf_apply, addf_apply, pay8_apply, matmul64_apply, shapeCast_self, broadcastTo_1b_ab_apply]
  unfold k3_pay7 k3_pay6
  simp only [truncf_apply, shapeCast_self, pay4_apply]

/-! ## The whole-array program's product -/

theorem dot192_lhs0 (i : Cert.ReferenceIdeal.S50000x4.Idx) (q : Cert.ReferenceIdeal.dot_S50000x192_S192x4_S50000x4_1_0_0_1_n_n.contr.Idx) :
    (Cert.ReferenceIdeal.dot_S50000x192_S192x4_S50000x4_1_0_0_1_n_n.lhsIdx i q 0).val = (i 0).val := by
  unfold DotDims.lhsIdx
  rw [dif_neg (show ¬(0 : Fin Cert.ReferenceIdeal.S50000x192.rank) ∈ Cert.ReferenceIdeal.dot_S50000x192_S192x4_S50000x4_1_0_0_1_n_n.lhsBatch by decide), dif_pos (show (0 : Fin Cert.ReferenceIdeal.S50000x192.rank) ∈ Cert.ReferenceIdeal.dot_S50000x192_S192x4_S50000x4_1_0_0_1_n_n.lhsNonContracting by decide)]
  rfl

theorem dot192_rhs1 (i : Cert.ReferenceIdeal.S50000x4.Idx) (q : Cert.ReferenceIdeal.dot_S50000x192_S192x4_S50000x4_1_0_0_1_n_n.contr.Idx) :
    (Cert.ReferenceIdeal.dot_S50000x192_S192x4_S50000x4_1_0_0_1_n_n.rhsIdx i q 1).val = (i 1).val := by
  unfold DotDims.rhsIdx
  rw [dif_neg (show ¬(1 : Fin Cert.ReferenceIdeal.S192x4.rank) ∈ Cert.ReferenceIdeal.dot_S50000x192_S192x4_S50000x4_1_0_0_1_n_n.rhsBatch by decide), dif_pos (show (1 : Fin Cert.ReferenceIdeal.S192x4.rank) ∈ Cert.ReferenceIdeal.dot_S50000x192_S192x4_S50000x4_1_0_0_1_n_n.rhsNonContracting by decide)]
  rfl

/-- The whole-array product at row `r` and class `q`: the sum over the 192 contracted columns. -/
theorem dot192_apply (a : FVec Ideal Cert.ReferenceIdeal.S50000x192 .f32) (w : FVec Ideal Cert.ReferenceIdeal.S192x4 .f32) (r : Fin 50000) (q : Fin 4) :
    Host.dotGeneral Cert.ReferenceIdeal.dot_S50000x192_S192x4_S50000x4_1_0_0_1_n_n none a w (ix2 r q) = ∑ k : Fin 192, a (ix2 r k) * w (ix2 k q) := by
  simp only [Host.dotGeneral]
  rw [Ideal.dotGeneral_apply, ← Equiv.sum_comp (contrEquiv1 Cert.ReferenceIdeal.dot_S50000x192_S192x4_S50000x4_1_0_0_1_n_n 192 rfl rfl).symm]
  refine Finset.sum_congr rfl fun k _ => ?_
  have hk := contrEquiv1_symm_val Cert.ReferenceIdeal.dot_S50000x192_S192x4_S50000x4_1_0_0_1_n_n 192 rfl rfl k
  have el : Cert.ReferenceIdeal.dot_S50000x192_S192x4_S50000x4_1_0_0_1_n_n.lhsIdx (ix2 r q) ((contrEquiv1 Cert.ReferenceIdeal.dot_S50000x192_S192x4_S50000x4_1_0_0_1_n_n 192 rfl rfl).symm k) = ix2 r k := funext fun a => Fin.ext (by
    match a with
    | ⟨0, _⟩ => exact dot192_lhs0 _ _
    | ⟨1, _⟩ => exact (Cert.ReferenceIdeal.dot_S50000x192_S192x4_S50000x4_1_0_0_1_n_n.lhsIdx_val_of_single rfl _ _).trans hk)
  have er : Cert.ReferenceIdeal.dot_S50000x192_S192x4_S50000x4_1_0_0_1_n_n.rhsIdx (ix2 r q) ((contrEquiv1 Cert.ReferenceIdeal.dot_S50000x192_S192x4_S50000x4_1_0_0_1_n_n 192 rfl rfl).symm k) = ix2 k q := funext fun a => Fin.ext (by
    match a with
    | ⟨0, _⟩ => exact (Cert.ReferenceIdeal.dot_S50000x192_S192x4_S50000x4_1_0_0_1_n_n.rhsIdx_val_of_single rfl _ _).trans hk
    | ⟨1, _⟩ => exact dot192_rhs1 _ _)
  rw [el, er]

/-- The class bias row over 50000 rows, read at an index. -/
theorem classBias_apply (bc : (⟨2, ![1, 4]⟩ : Shape).Idx → EReal) (r : Fin 50000) (q : Fin 4) :
    broadcastInDim Cert.ReferenceIdeal.S50000x4 ![0, 1] Cert.ReferenceIdeal.Gen.bcast_S1x4_S50000x4_0_1 bc (ix2 r q) = bc (ix2 (0 : Fin 1) q) := by
  refine broadcastInDim_apply _ _ bc (ix2 r q) (ix2 (0 : Fin 1) q) fun ax => ?_
  match ax with
  | ⟨0, _⟩ => rfl
  | ⟨1, _⟩ => rfl

/-- The whole-array class scores of the side-by-side clipped activations at row `r` and class `k`: the three
    thirds' sums added left to right, plus the class bias. -/
theorem logits_apply (p1 p2 p3 : (⟨2, ![50000, 64]⟩ : Shape).Idx → EReal) (b : (⟨2, ![1, 64]⟩ : Shape).Idx → EReal)
    (w : (⟨2, ![192, 4]⟩ : Shape).Idx → EReal) (bc : (⟨2, ![1, 4]⟩ : Shape).Idx → EReal) (r : Fin 50000) (k : Fin 4) :
    Cert.Stage.logits (F := Ideal) (Cert.Stage.act64 (F := Ideal) p1 p2 p3 b) w bc (ix2 r k)
      = ((∑ j : Fin 64, relu (p1 (ix2 r j)) (b (ix2 (0 : Fin 1) j)) * w (ix2 (⟨j.val, by have := j.isLt; omega⟩ : Fin 192) k)
          + ∑ j : Fin 64, relu (p2 (ix2 r j)) (b (ix2 (0 : Fin 1) j)) * w (ix2 (⟨64 + j.val, by have := j.isLt; omega⟩ : Fin 192) k))
          + ∑ j : Fin 64, relu (p3 (ix2 r j)) (b (ix2 (0 : Fin 1) j)) * w (ix2 (⟨64 + 64 + j.val, by have := j.isLt; omega⟩ : Fin 192) k))
        + bc (ix2 (0 : Fin 1) k) := by
  unfold Cert.Stage.logits
  rw [addf_apply, dot192_apply, classBias_apply, sum_thirds]
  refine congrArg (· + bc (ix2 (0 : Fin 1) k)) ?_
  refine congrArg₂ (· + ·) (congrArg₂ (· + ·) (Finset.sum_congr rfl fun j _ => ?_) (Finset.sum_congr rfl fun j _ => ?_)) (Finset.sum_congr rfl fun j _ => ?_)
  · rw [act64_apply_first p1 p2 p3 b r j _ rfl]
  · rw [act64_apply_second p1 p2 p3 b r j _ rfl]
  · rw [act64_apply_third p1 p2 p3 b r j _ rfl]

end Cert.KernelIdeal.RegionValue

end
-- ==== Proof.Region3LibSoftmax.lean ====
/-
  The logarithm of the softmax along a row of four scores. With `M` the largest of the four (never below −∞), the
  result at column `q` is `(z q − M) − log (∑ k, exp (z k − M))`. The tiled program takes the maximum and the sum by
  lane reductions over a block of 2000 rows, the whole-array program by reductions over all 50000 rows; both are
  read here, row by row, as the same function of the row's four scores.
-/
import proofs.«156776_j29454885716514_2_alg».proof.Proof.Gen.KernelIdeal.Frame
import proofs.«156776_j29454885716514_2_alg».proof.Proof.Stages
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem Idealize.ShloMosaic.ValueIdx

namespace Cert.KernelIdeal.RegionValue

open Cert.KernelIdeal Cert.KernelIdeal.Gen

/-- The largest of a row of four scores, taken from −∞. -/
def rowMax (f : Fin 4 → EReal) : EReal :=
  max (Ideal.ofBits .f32 0xFF800000#32) ((Finset.univ : Finset (Fin 4)).fold max (Ideal.ofBits .f32 0xFF800000#32) f)

/-- The logarithm of the softmax of a row of four scores, at column `q`. -/
def logSoftmaxRow (f : Fin 4 → EReal) (q : Fin 4) : EReal :=
  (f q - rowMax f) - Ideal.log (∑ k : Fin 4, Ideal.exp (f k - rowMax f))

/-! ## The tiled program's side: a block of 2000 rows -/

/-- The index of row `p` with the lane coordinate `k` put back. -/
theorem lift2000 (p : Fin 2000) (k : Fin 4) : reduces_S2000x4_S2000.lift (ix1 p) k = (ix2 p k : S2000x4.Idx) :=
  funext fun a => Fin.ext (by
    match a with
    | ⟨0, _⟩ => rfl
    | ⟨1, _⟩ => rfl)

/-- A lane maximum from −∞ over a block, at row `p`: the fold of `max` over the row's four entries. -/
theorem laneMax_apply (v : FVec Ideal S2000x4 .f32) (p : Fin 2000) :
    multiReduction .maximumf [1] S2000 v 0xFF800000#32 reduces_S2000x4_S2000 (.inl rfl) rfl (ix1 p)
      = (Finset.univ : Finset (Fin 4)).fold max (Ideal.ofBits .f32 0xFF800000#32) (fun k => v (ix2 p k)) := by
  refine (Ideal.multiReduction_maximumf_single v 0xFF800000#32 reduces_S2000x4_S2000 (.inl rfl) rfl (ix1 p)).trans ?_
  refine congrArg (fun g : Fin 4 → EReal => (Finset.univ : Finset (Fin 4)).fold max (Ideal.ofBits .f32 0xFF800000#32) g) ?_
  funext k
  exact congrArg v (lift2000 p k)

/-- A lane sum over a block, at row `p`: the sum of the row's four entries. -/
theorem laneSum_apply (v : FVec Ideal S2000x4 .f32) (p : Fin 2000) :
    multiReduction .add [1] S2000 v 0x00000000#32 reduces_S2000x4_S2000 (.inl rfl) rfl (ix1 p) = ∑ k : Fin 4, v (ix2 p k) := by
  refine (Ideal.multiReduction_add_single v 0x00000000#32 reduces_S2000x4_S2000 (.inl rfl) rfl (ix1 p)).trans ?_
  exact Finset.sum_congr rfl fun k _ => congrArg v (lift2000 p k)

/-- A vector of 2000 recast as a column reads the vector's entry. -/
theorem column_apply {α : Type} (x : S2000.Idx → α) (p : Fin 2000) :
    shapeCast S2000x1 x shapeCasts_S2000_S2000x1 (ix2 p (0 : Fin 1)) = x (ix1 p) :=
  shapeCast_apply x shapeCasts_S2000_S2000x1 _ _ (by
    rw [Shape.rowMajor_val_two, Shape.rowMajor_val_one]
    show p.val = p.val * 1 + 0
    omega)

/-- A column spread over four lanes reads the column's entry of the row. -/
theorem spread_apply {α : Type} (x : S2000x1.Idx → α) (p : Fin 2000) (q : Fin 4) :
    broadcastTo S2000x4 x broadcasts_S2000x1_S2000x4 (ix2 p q) = x (ix2 p (0 : Fin 1)) :=
  broadcastTo_apply x broadcasts_S2000x1_S2000x4 (ix2 p q) (ix2 p (0 : Fin 1)) fun ax => by
    match ax with
    | ⟨0, _⟩ => rfl
    | ⟨1, _⟩ => rfl

/-- The tail of the tiled body after the scores `z` are formed: maximum, shift, exponentials, sum, logarithm. -/
def softmaxTail (v41 : FVec Ideal S2000x4 .f32) : FVec Ideal S2000x4 .f32 :=
  have v42 : FVec Ideal S2000 .f32 := multiReduction .maximumf [1] S2000 v41 0xFF800000#32 reduces_S2000x4_S2000 (.inl rfl) rfl
  have cst_21 : Ideal .f32 := Scalar.ofBits .f32 0xFF800000#32
  have v43 : FVec Ideal S2000 .f32 := broadcast S2000 cst_21
  have v44 : FVec Ideal S2000 .f32 := maximumf v43 v42
  have v45 : FVec Ideal S2000x1 .f32 := shapeCast S2000x1 v44 shapeCasts_S2000_S2000x1
  have v46 : FVec Ideal S2000x4 .f32 := broadcastTo S2000x4 v45 broadcasts_S2000x1_S2000x4
  have v47 : FVec Ideal S2000x4 .f32 := subf v41 v46
  have v48 : FVec Ideal S2000x4 .f32 := exp v47
  have v49 : FVec Ideal S2000 .f32 := multiReduction .add [1] S2000 v48 0x00000000#32 reduces_S2000x4_S2000 (.inl rfl) rfl
  have v50 : FVec Ideal S2000x1 .f32 := shapeCast S2000x1 v49 shapeCasts_S2000_S2000x1
  have v51 : FVec Ideal S2000x1 .f32 := log v50
  have v52 : FVec Ideal S2000x4 .f32 := broadcastTo S2000x4 v51 broadcasts_S2000x1_S2000x4
  have v53 : FVec Ideal S2000x4 .f32 := subf v47 v52
  v53

/-- The shifted scores of the block at `(p, q)`. -/
theorem tail_shift_apply (v41 : FVec Ideal S2000x4 .f32) (p : Fin 2000) (q : Fin 4) :
    subf v41 (broadcastTo S2000x4 (shapeCast S2000x1 (maximumf (broadcast S2000 (Scalar.ofBits .f32 0xFF800000#32 : Ideal .f32))
      (multiReduction .maximumf [1] S2000 v41 0xFF800000#32 reduces_S2000x4_S2000 (.inl rfl) rfl)) shapeCasts_S2000_S2000x1)
        broadcasts_S2000x1_S2000x4) (ix2 p q) = v41 (ix2 p q) - rowMax (fun k => v41 (ix2 p k)) := by
  rw [subf_apply, spread_apply, column_apply, maximumf_apply, laneMax_apply]
  rfl

/-- The tail at `(p, q)` is the logarithm of the softmax of row `p` of the scores. -/
theorem softmaxTail_apply (v41 : FVec Ideal S2000x4 .f32) (p : Fin 2000) (q : Fin 4) :
    softmaxTail v41 (ix2 p q) = logSoftmaxRow (fun k => v41 (ix2 p k)) q := by
  unfold softmaxTail logSoftmaxRow
  dsimp only
  rw [subf_apply, tail_shift_apply, spread_apply]
  show _ - Ideal.log (shapeCast S2000x1 _ shapeCasts_S2000_S2000x1 (ix2 p (0 : Fin 1))) = _
  rw [column_apply, laneSum_apply]
  refine congrArg (fun s => (v41 (ix2 p q) - rowMax fun k => v41 (ix2 p k)) - Ideal.log s) ?_
  refine Finset.sum_congr rfl fun k _ => ?_
  show Ideal.exp (subf v41 _ (ix2 p k)) = _
  rw [tail_shift_apply]

/-! ## The whole-array program's side: 50000 rows -/

theorem reduces50000 : Cert.ReferenceIdeal.S50000x4.Reduces [(1 : Fin 2)] Cert.ReferenceIdeal.S50000 := by decide

/-- The index of row `r` with the column `k` put back. -/
theorem lift50000 (r : Fin 50000) (k : Fin 4) : reduces50000.lift (ix1 r) k = (ix2 r k : Cert.ReferenceIdeal.S50000x4.Idx) :=
  funext fun a => Fin.ext (by
    match a with
    | ⟨0, _⟩ => rfl
    | ⟨1, _⟩ => rfl)

/-- The whole-array maximum along a row from −∞, at row `r`: the fold of `max` over the row's four entries. -/
theorem hostMax_apply (z : Cert.ReferenceIdeal.S50000x4.Idx → EReal) (r : Fin 50000) :
    Host.reduce (FloatOps.maximumf (F := Ideal) (φ := .f32)) z (constant (F := Ideal) Cert.ReferenceIdeal.S_ .f32 0xFF800000#32)
        Cert.ReferenceIdeal.Gen.reducesTo_S50000x4_S50000_d1 Cert.ReferenceIdeal.Gen.h_S_ (ix1 r)
      = (Finset.univ : Finset (Fin 4)).fold max (Ideal.ofBits .f32 0xFF800000#32) (fun k => z (ix2 r k)) := by
  refine (Host.reduce_eq_fold_single (FloatOps.maximumf (F := Ideal) (φ := .f32)) z _ Cert.ReferenceIdeal.Gen.reducesTo_S50000x4_S50000_d1
    reduces50000 Cert.ReferenceIdeal.Gen.h_S_ (ix1 r)).trans ?_
  show (Finset.univ : Finset (Fin 4)).fold max (Ideal.ofBits .f32 0xFF800000#32) (fun k => z (reduces50000.lift (ix1 r) k)) = _
  refine congrArg (fun g : Fin 4 → EReal => (Finset.univ : Finset (Fin 4)).fold max (Ideal.ofBits .f32 0xFF800000#32) g) ?_
  funext k
  exact congrArg z (lift50000 r k)

/-- The whole-array sum along a row from zero, at row `r`: the sum of the row's four entries. -/
theorem hostSum_apply (x : FVec Ideal Cert.ReferenceIdeal.S50000x4 .f32) (r : Fin 50000) :
    Host.reduceAdd x (constant (F := Ideal) Cert.ReferenceIdeal.S_ .f32 0x00000000#32)
        Cert.ReferenceIdeal.Gen.reducesTo_S50000x4_S50000_d1 Cert.ReferenceIdeal.Gen.h_S_ (ix1 r) = ∑ k : Fin 4, x (ix2 r k) := by
  rw [hostReduceAdd_apply]
  refine (Ideal.hostReduceAdd_single Cert.ReferenceIdeal.Gen.reducesTo_S50000x4_S50000_d1 reduces50000 x _ (ix1 r)).trans ?_
  show Ideal.ofBits .f32 0x00000000#32 + _ = _
  rw [Ideal.ofBits_zero_f32, zero_add]
  exact Finset.sum_congr rfl fun k _ => congrArg x (lift50000 r k)

/-- A vector of 50000 as a column reads the vector's entry. -/
theorem hostColumn_apply {α : Type} (x : Cert.ReferenceIdeal.S50000.Idx → α) (r : Fin 50000) :
    broadcastInDim Cert.ReferenceIdeal.S50000x1 ![0] Cert.ReferenceIdeal.Gen.bcast_S50000_S50000x1_0 x (ix2 r (0 : Fin 1)) = x (ix1 r) :=
  broadcastInDim_apply _ _ x (ix2 r (0 : Fin 1)) (ix1 r) fun ax => by
    match ax with
    | ⟨0, _⟩ => rfl

/-- A column spread over four columns reads the column's entry of the row. -/
theorem hostSpread_apply {α : Type} (x : Cert.ReferenceIdeal.S50000x1.Idx → α) (r : Fin 50000) (q : Fin 4) :
    broadcastInDim Cert.ReferenceIdeal.S50000x4 ![0, 1] Cert.ReferenceIdeal.Gen.bcast_S50000x1_S50000x4_0_1 x (ix2 r q) = x (ix2 r (0 : Fin 1)) :=
  broadcastInDim_apply _ _ x (ix2 r q) (ix2 r (0 : Fin 1)) fun ax => by
    match ax with
    | ⟨0, _⟩ => rfl
    | ⟨1, _⟩ => rfl

theorem hostLog_apply {s : Shape} (x : FVec Ideal s .f32) (i : s.Idx) : Host.log x i = Ideal.log (x i) := rfl

theorem hostExp_apply {s : Shape} (x : FVec Ideal s .f32) (i : s.Idx) : Host.exp x i = Ideal.exp (x i) := rfl

/-- The whole-array shifted scores at `(r, q)`. -/
theorem shifted_apply (z : Cert.ReferenceIdeal.S50000x4.Idx → EReal) (r : Fin 50000) (q : Fin 4) :
    Cert.Stage.shifted (F := Ideal) z (ix2 r q) = z (ix2 r q) - rowMax (fun k => z (ix2 r k)) := by
  unfold Cert.Stage.shifted
  rw [subf_apply, hostSpread_apply, hostColumn_apply, maximumf_apply, hostMax_apply, broadcastInDim_scalar_apply]
  rfl

/-- The whole-array logarithm of the softmax at `(r, q)` is that of row `r` of the scores. -/
theorem logSoftmax_apply (z : Cert.ReferenceIdeal.S50000x4.Idx → EReal) (r : Fin 50000) (q : Fin 4) :
    Cert.Stage.logSoftmax (F := Ideal) z (ix2 r q) = logSoftmaxRow (fun k => z (ix2 r k)) q := by
  unfold Cert.Stage.logSoftmax logSoftmaxRow
  rw [subf_apply, shifted_apply, hostSpread_apply, hostLog_apply, hostColumn_apply, hostSum_apply]
  refine congrArg (fun s => (z (ix2 r q) - rowMax fun k => z (ix2 r k)) - Ideal.log s) ?_
  refine Finset.sum_congr rfl fun k _ => ?_
  rw [hostExp_apply, shifted_apply]

end Cert.KernelIdeal.RegionValue

end
-- ==== Proof.Region3LibY.lean ====
/-
  The 4-column output of the last tiled region. At row `p` of block `t` the body forms the class scores of row
  `2000 t + p` from the three clipped activations and the three 64-row slices of the class weight, and takes the
  logarithm of the softmax of the four scores; the whole-array program does the same with one 192-column
  contraction. Point `t` therefore writes rows `2000 t … 2000 t + 1999` of the whole-array result, and the 25 row
  blocks cover the array.
-/
import proofs.«156776_j29454885716514_2_alg».proof.Proof.Region3LibLogits
import proofs.«156776_j29454885716514_2_alg».proof.Proof.Region3LibSoftmax

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- The class weight's block at every point is the whole weight. -/
theorem iblk3_4_apply (c : Dev nD) (t : Fin cfg3.N) (k : Fin 192) (q : Fin 4) :
    (iblk3 V c 4 t : Vec Ideal S192x4 .f32) (ix2 k q) = (V c (Pipeline.arrRef spec3 4) : S192x4.Idx → EReal) (ix2 k q) := by
  obtain ⟨-, -, -, -, -, -, -, -, e0, e1, -⟩ := idx_facts3 t
  unfold iblk3
  rw [View.read_apply]
  refine congrArg (V c (Pipeline.arrRef spec3 4) : S192x4.Idx → EReal) ?_
  funext a
  apply Fin.ext
  match a with
  | ⟨0, _⟩ => show win3_4.index t (0 : Fin 2) * 192 + 1 * k.val = k.val; omega
  | ⟨1, _⟩ => show win3_4.index t (1 : Fin 2) * 4 + 1 * q.val = q.val; omega

/-- The class bias row's block at every point is the whole row. -/
theorem iblk3_5_apply (c : Dev nD) (t : Fin cfg3.N) (q : Fin 4) :
    (iblk3 V c 5 t : Vec Ideal S1x4 .f32) (ix2 (0 : Fin 1) q) = (V c (Pipeline.arrRef spec3 5) : S1x4.Idx → EReal) (ix2 (0 : Fin 1) q) := by
  obtain ⟨-, -, -, -, -, -, -, -, -, -, e0, e1, -⟩ := idx_facts3 t
  unfold iblk3
  rw [View.read_apply]
  refine congrArg (V c (Pipeline.arrRef spec3 5) : S1x4.Idx → EReal) ?_
  funext a
  apply Fin.ext
  match a with
  | ⟨0, _⟩ => show win3_5.index t (0 : Fin 2) * 1 + 1 * 0 = 0; omega
  | ⟨1, _⟩ => show win3_5.index t (1 : Fin 2) * 4 + 1 * q.val = q.val; omega

/-- Sixty-four rows of the weight block starting at row `off`. -/
theorem weightRows_apply (x4 : Vec Ideal S192x4 .f32) (off : ℕ) (inb : ∀ a, (![off, 0] : Fin 2 → ℕ) a + S64x4.size a ≤ S192x4.size a)
    (j : Fin 64) (q : Fin 4) (k : Fin 192) (hk : k.val = off + j.val) :
    View.ld x4 (Rect.unit (s := S192x4) ![off, 0] S64x4.size inb) (ix2 j q) = x4 (ix2 k q) := by
  refine congrArg x4 (funext fun a => Fin.ext ?_)
  match a with
  | ⟨0, _⟩ => show off + 1 * j.val = k.val; omega
  | ⟨1, _⟩ => show 0 + 1 * q.val = q.val; omega

/-- Where an entry of output block `t` sits in the 4-column array. -/
theorem blk7_emb (t : Fin cfg3.N) (p : Fin 2000) (q : Fin 4) (r : Fin 50000) (hr : r.val = t.val * 2000 + p.val) :
    ((cfg3.win 7).blk t).view.emb (ix2 p q) = (ix2 r q : S50000x4.Idx) := by
  obtain ⟨-, -, -, -, -, -, -, -, -, -, -, -, -, -, e0, e1⟩ := idx_facts3 t
  funext a
  apply Fin.ext
  match a with
  | ⟨0, _⟩ => show win3_7.index t (0 : Fin 2) * 2000 + 1 * p.val = r.val; omega
  | ⟨1, _⟩ => show win3_7.index t (1 : Fin 2) * 4 + 1 * q.val = q.val; omega

/-- The body's last payload is the softmax tail of the class scores. -/
theorem pay1_eq (v29 : FVec Ideal S64x4 .bf16) (v32 : FVec Ideal S2000x64 .bf16) (v35 : FVec Ideal S2000x4 .f32) (v38 : Vec Ideal S1x4 .f32) :
    k3_pay1 v29 v32 v35 (constant (F := Ideal) S2000x4 .f32 0x00000000#32) v38
      = softmaxTail (addf (addf v35 (matmul dot_S2000x64_S64x4_S2000x4_1_0_0_1_n_n none v32 v29 (constant (F := Ideal) S2000x4 .f32 0x00000000#32)))
          (broadcastTo S2000x4 (shapeCast S1x4 v38 shapeCasts_S1x4_S1x4) broadcasts_S1x4_S2000x4)) := rfl

/-- At one row: if the blocks hold the arrays' entries of that row (and the parameter blocks the whole parameters),
    the body's last payload at `(p, q)` is the whole-array logarithm of the softmax of the class scores at `(r, q)`. -/
theorem point7_eq (b : Vec Ideal S1x64 .f32) (x0 x1 x2 : Vec Ideal S2000x64 .f32) (W : Vec Ideal S192x4 .f32) (bc : Vec Ideal S1x4 .f32)
    (A0 A1 A2 : S50000x64.Idx → EReal) (A3 : S1x64.Idx → EReal) (A4 : S192x4.Idx → EReal) (A5 : S1x4.Idx → EReal)
    (p : Fin 2000) (r : Fin 50000)
    (h0 : ∀ j : Fin 64, x0 (ix2 p j) = A0 (ix2 r j)) (h1 : ∀ j : Fin 64, x1 (ix2 p j) = A1 (ix2 r j))
    (h2 : ∀ j : Fin 64, x2 (ix2 p j) = A2 (ix2 r j)) (h3 : ∀ j : Fin 64, b (ix2 (0 : Fin 1) j) = A3 (ix2 (0 : Fin 1) j))
    (h4 : ∀ (k : Fin 192) (q : Fin 4), W (ix2 k q) = A4 (ix2 k q)) (h5 : ∀ q : Fin 4, bc (ix2 (0 : Fin 1) q) = A5 (ix2 (0 : Fin 1) q))
    (q : Fin 4) :
    k3_pay1 (k3_pay6 (View.ld W r3_5)) (k3_pay7 b x2) (k3_pay8 b x0 x1 (View.ld W r3_3) (View.ld W r3_4))
        (constant (F := Ideal) S2000x4 .f32 0x00000000#32) bc (ix2 p q)
      = Cert.Stage.logSoftmax (F := Ideal) (Cert.Stage.logits (F := Ideal) (Cert.Stage.act64 (F := Ideal) A0 A1 A2 A3) A4 A5) (ix2 r q) := by
  rw [pay1_eq, softmaxTail_apply, logSoftmax_apply]
  refine congrArg (fun f => logSoftmaxRow f q) (funext fun k => ?_)
  rw [scores_apply, logits_apply]
  refine congrArg₂ (· + ·) (congrArg₂ (· + ·) (congrArg₂ (· + ·) (Finset.sum_congr rfl fun j _ => ?_) (Finset.sum_congr rfl fun j _ => ?_))
    (Finset.sum_congr rfl fun j _ => ?_)) ?_
  · rw [h0 j, h3 j, weightRows_apply W 0 _ j k ⟨j.val, by have := j.isLt; omega⟩ (by show j.val = 0 + j.val; omega), h4]
  · rw [h1 j, h3 j, weightRows_apply W 64 _ j k ⟨64 + j.val, by have := j.isLt; omega⟩ (by show 64 + j.val = 64 + j.val; omega), h4]
  · rw [h2 j, h3 j, weightRows_apply W 128 _ j k ⟨64 + 64 + j.val, by have := j.isLt; omega⟩ (by show 64 + 64 + j.val = 128 + j.val; omega), h4]
  · rw [h5 k]

/-- What point `t` writes back into the 4-column output is block `t` of the row-wise logarithm of the softmax of the
    class scores of the whole arrays. -/
theorem flushed7_eq (c : Dev nD) (t : Fin cfg3.N) :
    (dat3 (F := Ideal) V c).flushed 7 t = ((cfg3.win 7).blk t).view.read (Elt Ideal)
      (Cert.Stage.logSoftmax (F := Ideal) (Cert.Stage.logits (F := Ideal) (Cert.Stage.act64 (F := Ideal) (V c (Pipeline.arrRef spec3 0)) (V c (Pipeline.arrRef spec3 1)) (V c (Pipeline.arrRef spec3 2)) (V c (Pipeline.arrRef spec3 3))) (V c (Pipeline.arrRef spec3 4)) (V c (Pipeline.arrRef spec3 5)))) := by
  show (cfg3.win 7).cut (grid3.coords t) ((dat3 V c).after 7 t) = _
  rw [after3_7]
  unfold out3_7
  rw [View.canon_unit_zero hz]
  simp only [View.ld_unit_zero (S := S2000x64) hz, View.ld_unit_zero (S := S1x64) hz, View.ld_unit_zero (S := S1x4) hz]
  funext j
  obtain ⟨p, q, rfl⟩ : ∃ (p : Fin 2000) (q : Fin 4), j = ix2 p q := ⟨j 0, j 1, eq_ix2 j⟩
  have ht : t.val < 25 := t.isLt
  have hp : p.val < 2000 := p.isLt
  have hrow : t.val * 2000 + p.val < 50000 := by omega
  rw [View.read_apply, blk7_emb t p q ⟨t.val * 2000 + p.val, hrow⟩ rfl]
  exact point7_eq (iblk3 V c 3 t) (iblk3 V c 0 t) (iblk3 V c 1 t) (iblk3 V c 2 t) (iblk3 V c 4 t) (iblk3 V c 5 t)
    (V c (Pipeline.arrRef spec3 0)) (V c (Pipeline.arrRef spec3 1)) (V c (Pipeline.arrRef spec3 2)) (V c (Pipeline.arrRef spec3 3))
    (V c (Pipeline.arrRef spec3 4)) (V c (Pipeline.arrRef spec3 5)) p ⟨t.val * 2000 + p.val, hrow⟩
    (fun j => iblk3_0_apply V c t p j ⟨t.val * 2000 + p.val, hrow⟩ rfl) (fun j => iblk3_1_apply V c t p j ⟨t.val * 2000 + p.val, hrow⟩ rfl)
    (fun j => iblk3_2_apply V c t p j ⟨t.val * 2000 + p.val, hrow⟩ rfl) (fun j => iblk3_3_apply V c t j)
    (fun k q => iblk3_4_apply V c t k q) (fun q => iblk3_5_apply V c t q) q

/-- An index of the 4-column array lies in point `t`'s block iff its row and column lie in the block's ranges. -/
theorem mem_blk7 (t : Fin cfg3.N) (i : S50000x4.Idx) :
    i ∈ ((cfg3.win 7).blk t).view.set ↔ ∀ a : Fin 2, win3_7.index t a * S2000x4.size a ≤ (i a).val ∧ (i a).val < win3_7.index t a * S2000x4.size a + S2000x4.size a := by
  show i ∈ ((View.whole main_v0_1).slice (win3_7.rect t)).set ↔ _
  rw [View.set_slice_whole, Rect.mem_set_unit]
  exact Iff.rfl

/-- Row `r` of the output is written by point `r / 2000`. -/
theorem cover7 (i : S50000x4.Idx) : ∃ t : Fin cfg3.N, (cfg3.win 7).flush t = true ∧ i ∈ ((cfg3.win 7).blk t).view.set := by
  have hi0 : (i 0).val < 50000 := (i 0).isLt
  have hi1 : (i 1).val < 4 := (i 1).isLt
  have hN : cfg3.N = 25 := N_3
  refine ⟨⟨(i 0).val / 2000, by rw [hN]; omega⟩, flush3_7 _, ?_⟩
  rw [mem_blk7]
  obtain ⟨-, -, -, -, -, -, -, -, -, -, -, -, -, -, e0, e1⟩ := idx_facts3 ⟨(i 0).val / 2000, by rw [hN]; omega⟩
  intro a
  match a with
  | ⟨0, _⟩ => show win3_7.index _ (0 : Fin 2) * 2000 ≤ (i 0).val ∧ (i 0).val < win3_7.index _ (0 : Fin 2) * 2000 + 2000; rw [e0]; show (i 0).val / 2000 * 2000 ≤ (i 0).val ∧ (i 0).val < (i 0).val / 2000 * 2000 + 2000; omega
  | ⟨1, _⟩ => show win3_7.index _ (1 : Fin 2) * 4 ≤ (i 1).val ∧ (i 1).val < win3_7.index _ (1 : Fin 2) * 4 + 4; rw [e1]; omega

end Cert.KernelIdeal.RegionValue

end
-- ==== Proof.Region3.lean ====
/-
  The last tiled region, as whole-array functions of its input arrays. After its 25 points the 192-column output
  holds the three propagated arrays, each plus the bias row and clipped at zero, side by side; the 4-column output
  holds the row-wise logarithm of the softmax of those activations times the class weight plus the class bias.
-/
import proofs.«156776_j29454885716514_2_alg».proof.Proof.Region3LibX
import proofs.«156776_j29454885716514_2_alg».proof.Proof.Region3LibY

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-- After the 25 points the 192-column output holds the three propagated arrays, each plus the bias row and clipped
    at zero, side by side. -/
theorem region3_x (c : Dev nD) : (Gen.dat3 (F := Ideal) V c).arrAt 6 cfg3.N = Cert.Stage.act64 (F := Ideal) (V c (Pipeline.arrRef spec3 0)) (V c (Pipeline.arrRef spec3 1)) (V c (Pipeline.arrRef spec3 2)) (V c (Pipeline.arrRef spec3 3)) :=
  (Gen.dat3 (F := Ideal) V c).arrAt_eq_of_cover 6 _ (fun t _ => flushed6_eq V c t) cover6

/-- After the 25 points the 4-column output holds the row-wise logarithm of the softmax of the class scores: the
    side-by-side clipped activations times the class weight, plus the class bias. -/
theorem region3_y (c : Dev nD) : (Gen.dat3 (F := Ideal) V c).arrAt 7 cfg3.N = Cert.Stage.logSoftmax (F := Ideal) (Cert.Stage.logits (F := Ideal) (Cert.Stage.act64 (F := Ideal) (V c (Pipeline.arrRef spec3 0)) (V c (Pipeline.arrRef spec3 1)) (V c (Pipeline.arrRef spec3 2)) (V c (Pipeline.arrRef spec3 3))) (V c (Pipeline.arrRef spec3 4)) (V c (Pipeline.arrRef spec3 5))) :=
  (Gen.dat3 (F := Ideal) V c).arrAt_eq_of_cover 7 _ (fun t _ => flushed7_eq V c t) cover7

end Cert.KernelIdeal.RegionValue

end
-- ==== Proof.KChain.lean ====
/-
  The kernel program's buffer contents at each boundary of its run — after each host stretch and after each region —
  down to its two results.

  At every boundary the three graphs' sorted arc arrays are the preparation's functions of the argument arrays, and the
  arguments are as launched; each region's output is its layer of the arrays it was given (the regions' value lemmas);
  each host stretch propagates that output along the sorted graphs, which is propagating along the unsorted ones (the
  re-indexing of the sums by the sorting permutation).  So the results are `Cert.Stage.outX` / `outY` of the arguments.
-/
import proofs.«156776_j29454885716514_2_alg».proof.Proof.KHost
import proofs.«156776_j29454885716514_2_alg».proof.Proof.KHostPre
import proofs.«156776_j29454885716514_2_alg».proof.Proof.KRun
import proofs.«156776_j29454885716514_2_alg».proof.Proof.SegPerm
import proofs.«156776_j29454885716514_2_alg».proof.Proof.Region0
import proofs.«156776_j29454885716514_2_alg».proof.Proof.Region1
import proofs.«156776_j29454885716514_2_alg».proof.Proof.Region2
import proofs.«156776_j29454885716514_2_alg».proof.Proof.Region3
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 1: after the first host stretch -/

theorem W1_wt : W1 m ρ c (Proc.devRef .tc main_call0_v172) = transpose S128x128 [1, 0] (m ((c : Thread nD τ).loc main_arg6)) transposes_S128x128_S128x128_1_0 :=
  HostValue.pre_wt (F := Ideal) (W0 m ρ c)
theorem W1_v51 : W1 m ρ c (Proc.devRef .tc main_call0_v51) = Cert.KStage.sortedI (F := Ideal) (Cert.Stage.srcOf (F := Ideal) (m ((c : Thread nD τ).loc main_arg1))) (Cert.Stage.dstOf (F := Ideal) (m ((c : Thread nD τ).loc main_arg1))) :=
  HostValue.pre_src1 (F := Ideal) (W0 m ρ c)
theorem W1_v58 : W1 m ρ c (Proc.devRef .tc main_call0_v58) = Cert.KStage.sortedI (F := Ideal) (Cert.Stage.dstOf (F := Ideal) (m ((c : Thread nD τ).loc main_arg1))) (Cert.Stage.dstOf (F := Ideal) (m ((c : Thread nD τ).loc main_arg1))) :=
  HostValue.pre_dst1 (F := Ideal) (W0 m ρ c)
theorem W1_v65 : W1 m ρ c (Proc.devRef .tc main_call0_v65) = Cert.KStage.sortedF (F := Ideal) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) (Cert.Stage.dstOf (F := Ideal) (m ((c : Thread nD τ).loc main_arg1))) :=
  HostValue.pre_norm1 (F := Ideal) (W0 m ρ c)
theorem W1_v104 : W1 m ρ c (Proc.devRef .tc main_call0_v104) = Cert.KStage.sortedI (F := Ideal) (Cert.Stage.srcOf (F := Ideal) (m ((c : Thread nD τ).loc main_arg2))) (Cert.Stage.dstOf (F := Ideal) (m ((c : Thread nD τ).loc main_arg2))) :=
  HostValue.pre_src2 (F := Ideal) (W0 m ρ c)
theorem W1_v111 : W1 m ρ c (Proc.devRef .tc main_call0_v111) = Cert.KStage.sortedI (F := Ideal) (Cert.Stage.dstOf (F := Ideal) (m ((c : Thread nD τ).loc main_arg2))) (Cert.Stage.dstOf (F := Ideal) (m ((c : Thread nD τ).loc main_arg2))) :=
  HostValue.pre_dst2 (F := Ideal) (W0 m ρ c)
theorem W1_v118 : W1 m ρ c (Proc.devRef .tc main_call0_v118) = Cert.KStage.sortedF (F := Ideal) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) (Cert.Stage.dstOf (F := Ideal) (m ((c : Thread nD τ).loc main_arg2))) :=
  HostValue.pre_norm2 (F := Ideal) (W0 m ρ c)
theorem W1_v157 : W1 m ρ c (Proc.devRef .tc main_call0_v157) = Cert.KStage.sortedI (F := Ideal) (Cert.Stage.srcOf (F := Ideal) (m ((c : Thread nD τ).loc main_arg3))) (Cert.Stage.dstOf (F := Ideal) (m ((c : Thread nD τ).loc main_arg3))) :=
  HostValue.pre_src3 (F := Ideal) (W0 m ρ c)
theorem W1_v164 : W1 m ρ c (Proc.devRef .tc main_call0_v164) = Cert.KStage.sortedI (F := Ideal) (Cert.Stage.dstOf (F := Ideal) (m ((c : Thread nD τ).loc main_arg3))) (Cert.Stage.dstOf (F := Ideal) (m ((c : Thread nD τ).loc main_arg3))) :=
  HostValue.pre_dst3 (F := Ideal) (W0 m ρ c)
theorem W1_v171 : W1 m ρ c (Proc.devRef .tc main_call0_v171) = Cert.KStage.sortedF (F := Ideal) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (Cert.Stage.dstOf (F := Ideal) (m ((c : Thread nD τ).loc main_arg3))) :=
  HostValue.pre_norm3 (F := Ideal) (W0 m ρ c)
theorem W1_arg0 : W1 m ρ c (Proc.devRef .tc main_arg0) = (m ((c : Thread nD τ).loc main_arg0)) :=
  HostValue.pre_keep_arg0 (F := Ideal) (W0 m ρ c)
theorem W1_arg7 : W1 m ρ c (Proc.devRef .tc main_arg7) = (m ((c : Thread nD τ).loc main_arg7)) :=
  HostValue.pre_keep_arg7 (F := Ideal) (W0 m ρ c)
theorem W1_arg8 : W1 m ρ c (Proc.devRef .tc main_arg8) = (m ((c : Thread nD τ).loc main_arg8)) :=
  HostValue.pre_keep_arg8 (F := Ideal) (W0 m ρ c)
theorem W1_arg9 : W1 m ρ c (Proc.devRef .tc main_arg9) = (m ((c : Thread nD τ).loc main_arg9)) :=
  HostValue.pre_keep_arg9 (F := Ideal) (W0 m ρ c)
theorem W1_arg10 : W1 m ρ c (Proc.devRef .tc main_arg10) = (m ((c : Thread nD τ).loc main_arg10)) :=
  HostValue.pre_keep_arg10 (F := Ideal) (W0 m ρ c)
theorem W1_arg11 : W1 m ρ c (Proc.devRef .tc main_arg11) = (m ((c : Thread nD τ).loc main_arg11)) :=
  HostValue.pre_keep_arg11 (F := Ideal) (W0 m ρ c)
theorem W1_arg12 : W1 m ρ c (Proc.devRef .tc main_arg12) = (m ((c : Thread nD τ).loc main_arg12)) :=
  HostValue.pre_keep_arg12 (F := Ideal) (W0 m ρ c)
theorem W1_arg13 : W1 m ρ c (Proc.devRef .tc main_arg13) = (m ((c : Thread nD τ).loc main_arg13)) :=
  HostValue.pre_keep_arg13 (F := Ideal) (W0 m ρ c)

/-! ## Boundary 2: after the first region -/

theorem W2_h : W2 m ρ c (Proc.devRef .tc main_call0_v173) = (Cert.Stage.hid0 (F := Ideal) (m ((c : Thread nD τ).loc main_arg0)) (m ((c : Thread nD τ).loc main_arg6))) :=
  (W2_arr m ρ c 2).trans ((RegionValue.region0 (V1 m ρ) c).trans (by
    show Cert.Stage.lin0 (F := Ideal) (W1 m ρ c (Proc.devRef .tc main_arg0)) (W1 m ρ c (Proc.devRef .tc main_call0_v172)) = _
    rw [W1_arg0 m ρ c, W1_wt m ρ c]; rfl))
theorem W2_v51 : W2 m ρ c (Proc.devRef .tc main_call0_v51) = Cert.KStage.sortedI (F := Ideal) (Cert.Stage.srcOf (F := Ideal) (m ((c : Thread nD τ).loc main_arg1))) (Cert.Stage.dstOf (F := Ideal) (m ((c : Thread nD τ).loc main_arg1))) :=
  (W2_of_ne m ρ c main_call0_v51 (by decide)).trans (W1_v51 m ρ c)
theorem W2_v58 : W2 m ρ c (Proc.devRef .tc main_call0_v58) = Cert.KStage.sortedI (F := Ideal) (Cert.Stage.dstOf (F := Ideal) (m ((c : Thread nD τ).loc main_arg1))) (Cert.Stage.dstOf (F := Ideal) (m ((c : Thread nD τ).loc main_arg1))) :=
  (W2_of_ne m ρ c main_call0_v58 (by decide)).trans (W1_v58 m ρ c)
theorem W2_v65 : W2 m ρ c (Proc.devRef .tc main_call0_v65) = Cert.KStage.sortedF (F := Ideal) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) (Cert.Stage.dstOf (F := Ideal) (m ((c : Thread nD τ).loc main_arg1))) :=
  (W2_of_ne m ρ c main_call0_v65 (by decide)).trans (W1_v65 m ρ c)
theorem W2_v104 : W2 m ρ c (Proc.devRef .tc main_call0_v104) = Cert.KStage.sortedI (F := Ideal) (Cert.Stage.srcOf (F := Ideal) (m ((c : Thread nD τ).loc main_arg2))) (Cert.Stage.dstOf (F := Ideal) (m ((c : Thread nD τ).loc main_arg2))) :=
  (W2_of_ne m ρ c main_call0_v104 (by decide)).trans (W1_v104 m ρ c)
theorem W2_v111 : W2 m ρ c (Proc.devRef .tc main_call0_v111) = Cert.KStage.sortedI (F := Ideal) (Cert.Stage.dstOf (F := Ideal) (m ((c : Thread nD τ).loc main_arg2))) (Cert.Stage.dstOf (F := Ideal) (m ((c : Thread nD τ).loc main_arg2))) :=
  (W2_of_ne m ρ c main_call0_v111 (by decide)).trans (W1_v111 m ρ c)
theorem W2_v118 : W2 m ρ c (Proc.devRef .tc main_call0_v118) = Cert.KStage.sortedF (F := Ideal) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) (Cert.Stage.dstOf (F := Ideal) (m ((c : Thread nD τ).loc main_arg2))) :=
  (W2_of_ne m ρ c main_call0_v118 (by decide)).trans (W1_v118 m ρ c)
theorem W2_v157 : W2 m ρ c (Proc.devRef .tc main_call0_v157) = Cert.KStage.sortedI (F := Ideal) (Cert.Stage.srcOf (F := Ideal) (m ((c : Thread nD τ).loc main_arg3))) (Cert.Stage.dstOf (F := Ideal) (m ((c : Thread nD τ).loc main_arg3))) :=
  (W2_of_ne m ρ c main_call0_v157 (by decide)).trans (W1_v157 m ρ c)
theorem W2_v164 : W2 m ρ c (Proc.devRef .tc main_call0_v164) = Cert.KStage.sortedI (F := Ideal) (Cert.Stage.dstOf (F := Ideal) (m ((c : Thread nD τ).loc main_arg3))) (Cert.Stage.dstOf (F := Ideal) (m ((c : Thread nD τ).loc main_arg3))) :=
  (W2_of_ne m ρ c main_call0_v164 (by decide)).trans (W1_v164 m ρ c)
theorem W2_v171 : W2 m ρ c (Proc.devRef .tc main_call0_v171) = Cert.KStage.sortedF (F := Ideal) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (Cert.Stage.dstOf (F := Ideal) (m ((c : Thread nD τ).loc main_arg3))) :=
  (W2_of_ne m ρ c main_call0_v171 (by decide)).trans (W1_v171 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W2_arg13 : W2 m ρ c (Proc.devRef .tc main_arg13) = (m ((c : Thread nD τ).loc main_arg13)) :=
  (W2_of_ne m ρ c main_arg13 (by decide)).trans (W1_arg13 m ρ c)

/-! ## Boundary 3: after the second host stretch -/

theorem W3_v187 : W3 m ρ c (Proc.devRef .tc main_call0_v187) = Cert.Stage.prop128 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) :=
  (HostValue.mid1_p1 (F := Ideal) (W2 m ρ c)).trans (by
    rw [W2_h m ρ c, W2_v51 m ρ c, W2_v58 m ρ c, W2_v65 m ρ c]
    exact (HostValue.propSorted128_eq_propK _ _ _ _).symm.trans (Cert.SegPerm.propSorted128_eq _ _ _ _))
theorem W3_v201 : W3 m ρ c (Proc.devRef .tc main_call0_v201) = Cert.Stage.prop128 (F := Ideal) (Cert.Stage.hid0 (F := Ideal) (m ((c : Thread nD τ).loc main_arg0)) (m ((c : Thread nD τ).loc main_arg6)))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) :=
  (HostValue.mid1_p2 (F := Ideal) (W2 m ρ c)).trans (by
    rw [W2_h m ρ c, W2_v104 m ρ c, W2_v111 m ρ c, W2_v118 m ρ c]
    exact (HostValue.propSorted128_eq_propK _ _ _ _).symm.trans (Cert.SegPerm.propSorted128_eq _ _ _ _))
theorem W3_v215 : W3 m ρ c (Proc.devRef .tc main_call0_v215) = Cert.Stage.prop128 (F := Ideal) (Cert.Stage.hid0 (F := Ideal) (m ((c : Thread nD τ).loc main_arg0)) (m ((c : Thread nD τ).loc main_arg6)))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) :=
  (HostValue.mid1_p3 (F := Ideal) (W2 m ρ c)).trans (by
    rw [W2_h m ρ c, W2_v157 m ρ c, W2_v164 m ρ c, W2_v171 m ρ c]
    exact (HostValue.propSorted128_eq_propK _ _ _ _).symm.trans (Cert.SegPerm.propSorted128_eq _ _ _ _))
theorem W3_wt : W3 m ρ c (Proc.devRef .tc main_call0_v216) = transpose S384x128 [1, 0] (m ((c : Thread nD τ).loc main_arg7)) transposes_S128x384_S384x128_1_0 :=
  (HostValue.mid1_wt (F := Ideal) (W2 m ρ c)).trans (by rw [W2_arg7 m ρ c])
theorem W3_v51 : W3 m ρ c (Proc.devRef .tc main_call0_v51) = Cert.KStage.sortedI (F := Ideal) (Cert.Stage.srcOf (F := Ideal) (m ((c : Thread nD τ).loc main_arg1))) (Cert.Stage.dstOf (F := Ideal) (m ((c : Thread nD τ).loc main_arg1))) :=
  (HostValue.mid1_keep_v51 (F := Ideal) (W2 m ρ c)).trans (W2_v51 m ρ c)
theorem W3_v58 : W3 m ρ c (Proc.devRef .tc main_call0_v58) = Cert.KStage.sortedI (F := Ideal) (Cert.Stage.dstOf (F := Ideal) (m ((c : Thread nD τ).loc main_arg1))) (Cert.Stage.dstOf (F := Ideal) (m ((c : Thread nD τ).loc main_arg1))) :=
  (HostValue.mid1_keep_v58 (F := Ideal) (W2 m ρ c)).trans (W2_v58 m ρ c)
theorem W3_v65 : W3 m ρ c (Proc.devRef .tc main_call0_v65) = Cert.KStage.sortedF (F := Ideal) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) (Cert.Stage.dstOf (F := Ideal) (m ((c : Thread nD τ).loc main_arg1))) :=
  (HostValue.mid1_keep_v65 (F := Ideal) (W2 m ρ c)).trans (W2_v65 m ρ c)
theorem W3_v104 : W3 m ρ c (Proc.devRef .tc main_call0_v104) = Cert.KStage.sortedI (F := Ideal) (Cert.Stage.srcOf (F := Ideal) (m ((c : Thread nD τ).loc main_arg2))) (Cert.Stage.dstOf (F := Ideal) (m ((c : Thread nD τ).loc main_arg2))) :=
  (HostValue.mid1_keep_v104 (F := Ideal) (W2 m ρ c)).trans (W2_v104 m ρ c)
theorem W3_v111 : W3 m ρ c (Proc.devRef .tc main_call0_v111) = Cert.KStage.sortedI (F := Ideal) (Cert.Stage.dstOf (F := Ideal) (m ((c : Thread nD τ).loc main_arg2))) (Cert.Stage.dstOf (F := Ideal) (m ((c : Thread nD τ).loc main_arg2))) :=
  (HostValue.mid1_keep_v111 (F := Ideal) (W2 m ρ c)).trans (W2_v111 m ρ c)
theorem W3_v118 : W3 m ρ c (Proc.devRef .tc main_call0_v118) = Cert.KStage.sortedF (F := Ideal) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) (Cert.Stage.dstOf (F := Ideal) (m ((c : Thread nD τ).loc main_arg2))) :=
  (HostValue.mid1_keep_v118 (F := Ideal) (W2 m ρ c)).trans (W2_v118 m ρ c)
theorem W3_v157 : W3 m ρ c (Proc.devRef .tc main_call0_v157) = Cert.KStage.sortedI (F := Ideal) (Cert.Stage.srcOf (F := Ideal) (m ((c : Thread nD τ).loc main_arg3))) (Cert.Stage.dstOf (F := Ideal) (m ((c : Thread nD τ).loc main_arg3))) :=
  (HostValue.mid1_keep_v157 (F := Ideal) (W2 m ρ c)).trans (W2_v157 m ρ c)
theorem W3_v164 : W3 m ρ c (Proc.devRef .tc main_call0_v164) = Cert.KStage.sortedI (F := Ideal) (Cert.Stage.dstOf (F := Ideal) (m ((c : Thread nD τ).loc main_arg3))) (Cert.Stage.dstOf (F := Ideal) (m ((c : Thread nD τ).loc main_arg3))) :=
  (HostValue.mid1_keep_v164 (F := Ideal) (W2 m ρ c)).trans (W2_v164 m ρ c)
theorem W3_v171 : W3 m ρ c (Proc.devRef .tc main_call0_v171) = Cert.KStage.sortedF (F := Ideal) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (Cert.Stage.dstOf (F := Ideal) (m ((c : Thread nD τ).loc main_arg3))) :=
  (HostValue.mid1_keep_v171 (F := Ideal) (W2 m ρ c)).trans (W2_v171 m ρ c)
theorem W3_arg8 : W3 m ρ c (Proc.devRef .tc main_arg8) = (m ((c : Thread nD τ).loc main_arg8)) :=
  (HostValue.mid1_keep_arg8 (F := Ideal) (W2 m ρ c)).trans (W2_arg8 m ρ c)
theorem W3_arg9 : W3 m ρ c (Proc.devRef .tc main_arg9) = (m ((c : Thread nD τ).loc main_arg9)) :=
  (HostValue.mid1_keep_arg9 (F := Ideal) (W2 m ρ c)).trans (W2_arg9 m ρ c)
theorem W3_arg10 : W3 m ρ c (Proc.devRef .tc main_arg10) = (m ((c : Thread nD τ).loc main_arg10)) :=
  (HostValue.mid1_keep_arg10 (F := Ideal) (W2 m ρ c)).trans (W2_arg10 m ρ c)
theorem W3_arg11 : W3 m ρ c (Proc.devRef .tc main_arg11) = (m ((c : Thread nD τ).loc main_arg11)) :=
  (HostValue.mid1_keep_arg11 (F := Ideal) (W2 m ρ c)).trans (W2_arg11 m ρ c)
theorem W3_arg12 : W3 m ρ c (Proc.devRef .tc main_arg12) = (m ((c : Thread nD τ).loc main_arg12)) :=
  (HostValue.mid1_keep_arg12 (F := Ideal) (W2 m ρ c)).trans (W2_arg12 m ρ c)
theorem W3_arg13 : W3 m ρ c (Proc.devRef .tc main_arg13) = (m ((c : Thread nD τ).loc main_arg13)) :=
  (HostValue.mid1_keep_arg13 (F := Ideal) (W2 m ρ c)).trans (W2_arg13 m ρ c)

/-! ## Boundary 4: after the second region -/

theorem W4_h : W4 m ρ c (Proc.devRef .tc main_call0_v217) = (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7))) :=
  (W4_arr m ρ c 5).trans ((RegionValue.region1 (V3 m ρ) c).trans (by
    show Cert.Stage.layer1 (F := Ideal) (W3 m ρ c (Proc.devRef .tc main_call0_v187)) (W3 m ρ c (Proc.devRef .tc main_call0_v201)) (W3 m ρ c (Proc.devRef .tc main_call0_v215)) (W3 m ρ c (Proc.devRef .tc main_arg9)) (W3 m ρ c (Proc.devRef .tc main_call0_v216)) = _
    rw [W3_v187 m ρ c, W3_v201 m ρ c, W3_v215 m ρ c, W3_arg9 m ρ c, W3_wt m ρ c]; rfl))
theorem W4_v51 : W4 m ρ c (Proc.devRef .tc main_call0_v51) = Cert.KStage.sortedI (F := Ideal) (Cert.Stage.srcOf (F := Ideal) (m ((c : Thread nD τ).loc main_arg1))) (Cert.Stage.dstOf (F := Ideal) (m ((c : Thread nD τ).loc main_arg1))) :=
  (W4_of_ne m ρ c main_call0_v51 (by decide)).trans (W3_v51 m ρ c)
theorem W4_v58 : W4 m ρ c (Proc.devRef .tc main_call0_v58) = Cert.KStage.sortedI (F := Ideal) (Cert.Stage.dstOf (F := Ideal) (m ((c : Thread nD τ).loc main_arg1))) (Cert.Stage.dstOf (F := Ideal) (m ((c : Thread nD τ).loc main_arg1))) :=
  (W4_of_ne m ρ c main_call0_v58 (by decide)).trans (W3_v58 m ρ c)
theorem W4_v65 : W4 m ρ c (Proc.devRef .tc main_call0_v65) = Cert.KStage.sortedF (F := Ideal) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) (Cert.Stage.dstOf (F := Ideal) (m ((c : Thread nD τ).loc main_arg1))) :=
  (W4_of_ne m ρ c main_call0_v65 (by decide)).trans (W3_v65 m ρ c)
theorem W4_v104 : W4 m ρ c (Proc.devRef .tc main_call0_v104) = Cert.KStage.sortedI (F := Ideal) (Cert.Stage.srcOf (F := Ideal) (m ((c : Thread nD τ).loc main_arg2))) (Cert.Stage.dstOf (F := Ideal) (m ((c : Thread nD τ).loc main_arg2))) :=
  (W4_of_ne m ρ c main_call0_v104 (by decide)).trans (W3_v104 m ρ c)
theorem W4_v111 : W4 m ρ c (Proc.devRef .tc main_call0_v111) = Cert.KStage.sortedI (F := Ideal) (Cert.Stage.dstOf (F := Ideal) (m ((c : Thread nD τ).loc main_arg2))) (Cert.Stage.dstOf (F := Ideal) (m ((c : Thread nD τ).loc main_arg2))) :=
  (W4_of_ne m ρ c main_call0_v111 (by decide)).trans (W3_v111 m ρ c)
theorem W4_v118 : W4 m ρ c (Proc.devRef .tc main_call0_v118) = Cert.KStage.sortedF (F := Ideal) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) (Cert.Stage.dstOf (F := Ideal) (m ((c : Thread nD τ).loc main_arg2))) :=
  (W4_of_ne m ρ c main_call0_v118 (by decide)).trans (W3_v118 m ρ c)
theorem W4_v157 : W4 m ρ c (Proc.devRef .tc main_call0_v157) = Cert.KStage.sortedI (F := Ideal) (Cert.Stage.srcOf (F := Ideal) (m ((c : Thread nD τ).loc main_arg3))) (Cert.Stage.dstOf (F := Ideal) (m ((c : Thread nD τ).loc main_arg3))) :=
  (W4_of_ne m ρ c main_call0_v157 (by decide)).trans (W3_v157 m ρ c)
theorem W4_v164 : W4 m ρ c (Proc.devRef .tc main_call0_v164) = Cert.KStage.sortedI (F := Ideal) (Cert.Stage.dstOf (F := Ideal) (m ((c : Thread nD τ).loc main_arg3))) (Cert.Stage.dstOf (F := Ideal) (m ((c : Thread nD τ).loc main_arg3))) :=
  (W4_of_ne m ρ c main_call0_v164 (by decide)).trans (W3_v164 m ρ c)
theorem W4_v171 : W4 m ρ c (Proc.devRef .tc main_call0_v171) = Cert.KStage.sortedF (F := Ideal) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (Cert.Stage.dstOf (F := Ideal) (m ((c : Thread nD τ).loc main_arg3))) :=
  (W4_of_ne m ρ c main_call0_v171 (by decide)).trans (W3_v171 m ρ c)
theorem W4_arg8 : W4 m ρ c (Proc.devRef .tc main_arg8) = (m ((c : Thread nD τ).loc main_arg8)) :=
  (W4_of_ne m ρ c main_arg8 (by decide)).trans (W3_arg8 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)
theorem W4_arg13 : W4 m ρ c (Proc.devRef .tc main_arg13) = (m ((c : Thread nD τ).loc main_arg13)) :=
  (W4_of_ne m ρ c main_arg13 (by decide)).trans (W3_arg13 m ρ c)

/-! ## Boundary 5: after the third host stretch -/

theorem W5_v231 : W5 m ρ c (Proc.devRef .tc main_call0_v231) = Cert.Stage.prop128 (F := Ideal) (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) :=
  (HostValue.mid2_p1 (F := Ideal) (W4 m ρ c)).trans (by
    rw [W4_h m ρ c, W4_v51 m ρ c, W4_v58 m ρ c, W4_v65 m ρ c]
    exact (HostValue.propSorted128_eq_propK _ _ _ _).symm.trans (Cert.SegPerm.propSorted128_eq _ _ _ _))
theorem W5_v245 : W5 m ρ c (Proc.devRef .tc main_call0_v245) = Cert.Stage.prop128 (F := Ideal) (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7)))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) :=
  (HostValue.mid2_p2 (F := Ideal) (W4 m ρ c)).trans (by
    rw [W4_h m ρ c, W4_v104 m ρ c, W4_v111 m ρ c, W4_v118 m ρ c]
    exact (HostValue.propSorted128_eq_propK _ _ _ _).symm.trans (Cert.SegPerm.propSorted128_eq _ _ _ _))
theorem W5_v259 : W5 m ρ c (Proc.devRef .tc main_call0_v259) = Cert.Stage.prop128 (F := Ideal) (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7)))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) :=
  (HostValue.mid2_p3 (F := Ideal) (W4 m ρ c)).trans (by
    rw [W4_h m ρ c, W4_v157 m ρ c, W4_v164 m ρ c, W4_v171 m ρ c]
    exact (HostValue.propSorted128_eq_propK _ _ _ _).symm.trans (Cert.SegPerm.propSorted128_eq _ _ _ _))
theorem W5_wt : W5 m ρ c (Proc.devRef .tc main_call0_v260) = transpose S384x64 [1, 0] (m ((c : Thread nD τ).loc main_arg8)) transposes_S64x384_S384x64_1_0 :=
  (HostValue.mid2_wt (F := Ideal) (W4 m ρ c)).trans (by rw [W4_arg8 m ρ c])
theorem W5_v51 : W5 m ρ c (Proc.devRef .tc main_call0_v51) = Cert.KStage.sortedI (F := Ideal) (Cert.Stage.srcOf (F := Ideal) (m ((c : Thread nD τ).loc main_arg1))) (Cert.Stage.dstOf (F := Ideal) (m ((c : Thread nD τ).loc main_arg1))) :=
  (HostValue.mid2_keep_v51 (F := Ideal) (W4 m ρ c)).trans (W4_v51 m ρ c)
theorem W5_v58 : W5 m ρ c (Proc.devRef .tc main_call0_v58) = Cert.KStage.sortedI (F := Ideal) (Cert.Stage.dstOf (F := Ideal) (m ((c : Thread nD τ).loc main_arg1))) (Cert.Stage.dstOf (F := Ideal) (m ((c : Thread nD τ).loc main_arg1))) :=
  (HostValue.mid2_keep_v58 (F := Ideal) (W4 m ρ c)).trans (W4_v58 m ρ c)
theorem W5_v65 : W5 m ρ c (Proc.devRef .tc main_call0_v65) = Cert.KStage.sortedF (F := Ideal) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) (Cert.Stage.dstOf (F := Ideal) (m ((c : Thread nD τ).loc main_arg1))) :=
  (HostValue.mid2_keep_v65 (F := Ideal) (W4 m ρ c)).trans (W4_v65 m ρ c)
theorem W5_v104 : W5 m ρ c (Proc.devRef .tc main_call0_v104) = Cert.KStage.sortedI (F := Ideal) (Cert.Stage.srcOf (F := Ideal) (m ((c : Thread nD τ).loc main_arg2))) (Cert.Stage.dstOf (F := Ideal) (m ((c : Thread nD τ).loc main_arg2))) :=
  (HostValue.mid2_keep_v104 (F := Ideal) (W4 m ρ c)).trans (W4_v104 m ρ c)
theorem W5_v111 : W5 m ρ c (Proc.devRef .tc main_call0_v111) = Cert.KStage.sortedI (F := Ideal) (Cert.Stage.dstOf (F := Ideal) (m ((c : Thread nD τ).loc main_arg2))) (Cert.Stage.dstOf (F := Ideal) (m ((c : Thread nD τ).loc main_arg2))) :=
  (HostValue.mid2_keep_v111 (F := Ideal) (W4 m ρ c)).trans (W4_v111 m ρ c)
theorem W5_v118 : W5 m ρ c (Proc.devRef .tc main_call0_v118) = Cert.KStage.sortedF (F := Ideal) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) (Cert.Stage.dstOf (F := Ideal) (m ((c : Thread nD τ).loc main_arg2))) :=
  (HostValue.mid2_keep_v118 (F := Ideal) (W4 m ρ c)).trans (W4_v118 m ρ c)
theorem W5_v157 : W5 m ρ c (Proc.devRef .tc main_call0_v157) = Cert.KStage.sortedI (F := Ideal) (Cert.Stage.srcOf (F := Ideal) (m ((c : Thread nD τ).loc main_arg3))) (Cert.Stage.dstOf (F := Ideal) (m ((c : Thread nD τ).loc main_arg3))) :=
  (HostValue.mid2_keep_v157 (F := Ideal) (W4 m ρ c)).trans (W4_v157 m ρ c)
theorem W5_v164 : W5 m ρ c (Proc.devRef .tc main_call0_v164) = Cert.KStage.sortedI (F := Ideal) (Cert.Stage.dstOf (F := Ideal) (m ((c : Thread nD τ).loc main_arg3))) (Cert.Stage.dstOf (F := Ideal) (m ((c : Thread nD τ).loc main_arg3))) :=
  (HostValue.mid2_keep_v164 (F := Ideal) (W4 m ρ c)).trans (W4_v164 m ρ c)
theorem W5_v171 : W5 m ρ c (Proc.devRef .tc main_call0_v171) = Cert.KStage.sortedF (F := Ideal) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (Cert.Stage.dstOf (F := Ideal) (m ((c : Thread nD τ).loc main_arg3))) :=
  (HostValue.mid2_keep_v171 (F := Ideal) (W4 m ρ c)).trans (W4_v171 m ρ c)
theorem W5_arg10 : W5 m ρ c (Proc.devRef .tc main_arg10) = (m ((c : Thread nD τ).loc main_arg10)) :=
  (HostValue.mid2_keep_arg10 (F := Ideal) (W4 m ρ c)).trans (W4_arg10 m ρ c)
theorem W5_arg11 : W5 m ρ c (Proc.devRef .tc main_arg11) = (m ((c : Thread nD τ).loc main_arg11)) :=
  (HostValue.mid2_keep_arg11 (F := Ideal) (W4 m ρ c)).trans (W4_arg11 m ρ c)
theorem W5_arg12 : W5 m ρ c (Proc.devRef .tc main_arg12) = (m ((c : Thread nD τ).loc main_arg12)) :=
  (HostValue.mid2_keep_arg12 (F := Ideal) (W4 m ρ c)).trans (W4_arg12 m ρ c)
theorem W5_arg13 : W5 m ρ c (Proc.devRef .tc main_arg13) = (m ((c : Thread nD τ).loc main_arg13)) :=
  (HostValue.mid2_keep_arg13 (F := Ideal) (W4 m ρ c)).trans (W4_arg13 m ρ c)

/-! ## Boundary 6: after the third region -/

theorem W6_h : W6 m ρ c (Proc.devRef .tc main_call0_v261) = (Cert.Stage.hid2 (F := Ideal) (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg10)) (m ((c : Thread nD τ).loc main_arg8))) :=
  (W6_arr m ρ c 5).trans ((RegionValue.region2 (V5 m ρ) c).trans (by
    show Cert.Stage.layer2 (F := Ideal) (W5 m ρ c (Proc.devRef .tc main_call0_v231)) (W5 m ρ c (Proc.devRef .tc main_call0_v245)) (W5 m ρ c (Proc.devRef .tc main_call0_v259)) (W5 m ρ c (Proc.devRef .tc main_arg10)) (W5 m ρ c (Proc.devRef .tc main_call0_v260)) = _
    rw [W5_v231 m ρ c, W5_v245 m ρ c, W5_v259 m ρ c, W5_arg10 m ρ c, W5_wt m ρ c]; rfl))
theorem W6_v51 : W6 m ρ c (Proc.devRef .tc main_call0_v51) = Cert.KStage.sortedI (F := Ideal) (Cert.Stage.srcOf (F := Ideal) (m ((c : Thread nD τ).loc main_arg1))) (Cert.Stage.dstOf (F := Ideal) (m ((c : Thread nD τ).loc main_arg1))) :=
  (W6_of_ne m ρ c main_call0_v51 (by decide)).trans (W5_v51 m ρ c)
theorem W6_v58 : W6 m ρ c (Proc.devRef .tc main_call0_v58) = Cert.KStage.sortedI (F := Ideal) (Cert.Stage.dstOf (F := Ideal) (m ((c : Thread nD τ).loc main_arg1))) (Cert.Stage.dstOf (F := Ideal) (m ((c : Thread nD τ).loc main_arg1))) :=
  (W6_of_ne m ρ c main_call0_v58 (by decide)).trans (W5_v58 m ρ c)
theorem W6_v65 : W6 m ρ c (Proc.devRef .tc main_call0_v65) = Cert.KStage.sortedF (F := Ideal) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) (Cert.Stage.dstOf (F := Ideal) (m ((c : Thread nD τ).loc main_arg1))) :=
  (W6_of_ne m ρ c main_call0_v65 (by decide)).trans (W5_v65 m ρ c)
theorem W6_v104 : W6 m ρ c (Proc.devRef .tc main_call0_v104) = Cert.KStage.sortedI (F := Ideal) (Cert.Stage.srcOf (F := Ideal) (m ((c : Thread nD τ).loc main_arg2))) (Cert.Stage.dstOf (F := Ideal) (m ((c : Thread nD τ).loc main_arg2))) :=
  (W6_of_ne m ρ c main_call0_v104 (by decide)).trans (W5_v104 m ρ c)
theorem W6_v111 : W6 m ρ c (Proc.devRef .tc main_call0_v111) = Cert.KStage.sortedI (F := Ideal) (Cert.Stage.dstOf (F := Ideal) (m ((c : Thread nD τ).loc main_arg2))) (Cert.Stage.dstOf (F := Ideal) (m ((c : Thread nD τ).loc main_arg2))) :=
  (W6_of_ne m ρ c main_call0_v111 (by decide)).trans (W5_v111 m ρ c)
theorem W6_v118 : W6 m ρ c (Proc.devRef .tc main_call0_v118) = Cert.KStage.sortedF (F := Ideal) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) (Cert.Stage.dstOf (F := Ideal) (m ((c : Thread nD τ).loc main_arg2))) :=
  (W6_of_ne m ρ c main_call0_v118 (by decide)).trans (W5_v118 m ρ c)
theorem W6_v157 : W6 m ρ c (Proc.devRef .tc main_call0_v157) = Cert.KStage.sortedI (F := Ideal) (Cert.Stage.srcOf (F := Ideal) (m ((c : Thread nD τ).loc main_arg3))) (Cert.Stage.dstOf (F := Ideal) (m ((c : Thread nD τ).loc main_arg3))) :=
  (W6_of_ne m ρ c main_call0_v157 (by decide)).trans (W5_v157 m ρ c)
theorem W6_v164 : W6 m ρ c (Proc.devRef .tc main_call0_v164) = Cert.KStage.sortedI (F := Ideal) (Cert.Stage.dstOf (F := Ideal) (m ((c : Thread nD τ).loc main_arg3))) (Cert.Stage.dstOf (F := Ideal) (m ((c : Thread nD τ).loc main_arg3))) :=
  (W6_of_ne m ρ c main_call0_v164 (by decide)).trans (W5_v164 m ρ c)
theorem W6_v171 : W6 m ρ c (Proc.devRef .tc main_call0_v171) = Cert.KStage.sortedF (F := Ideal) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (Cert.Stage.dstOf (F := Ideal) (m ((c : Thread nD τ).loc main_arg3))) :=
  (W6_of_ne m ρ c main_call0_v171 (by decide)).trans (W5_v171 m ρ c)
theorem W6_arg11 : W6 m ρ c (Proc.devRef .tc main_arg11) = (m ((c : Thread nD τ).loc main_arg11)) :=
  (W6_of_ne m ρ c main_arg11 (by decide)).trans (W5_arg11 m ρ c)
theorem W6_arg12 : W6 m ρ c (Proc.devRef .tc main_arg12) = (m ((c : Thread nD τ).loc main_arg12)) :=
  (W6_of_ne m ρ c main_arg12 (by decide)).trans (W5_arg12 m ρ c)
theorem W6_arg13 : W6 m ρ c (Proc.devRef .tc main_arg13) = (m ((c : Thread nD τ).loc main_arg13)) :=
  (W6_of_ne m ρ c main_arg13 (by decide)).trans (W5_arg13 m ρ c)

/-! ## Boundary 7: after the last host stretch -/

theorem W7_v275 : W7 m ρ c (Proc.devRef .tc main_call0_v275) = Cert.Stage.prop64 (F := Ideal) (Cert.Stage.hid2 (F := Ideal) (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg10)) (m ((c : Thread nD τ).loc main_arg8)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal)))) :=
  (HostValue.mid3_p1 (F := Ideal) (W6 m ρ c)).trans (by
    rw [W6_h m ρ c, W6_v51 m ρ c, W6_v58 m ρ c, W6_v65 m ρ c]
    exact (HostValue.propSorted64_eq_propK _ _ _ _).symm.trans (Cert.SegPerm.propSorted64_eq _ _ _ _))
theorem W7_v289 : W7 m ρ c (Proc.devRef .tc main_call0_v289) = Cert.Stage.prop64 (F := Ideal) (Cert.Stage.hid2 (F := Ideal) (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg10)) (m ((c : Thread nD τ).loc main_arg8)))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4)))) :=
  (HostValue.mid3_p2 (F := Ideal) (W6 m ρ c)).trans (by
    rw [W6_h m ρ c, W6_v104 m ρ c, W6_v111 m ρ c, W6_v118 m ρ c]
    exact (HostValue.propSorted64_eq_propK _ _ _ _).symm.trans (Cert.SegPerm.propSorted64_eq _ _ _ _))
theorem W7_v303 : W7 m ρ c (Proc.devRef .tc main_call0_v303) = Cert.Stage.prop64 (F := Ideal) (Cert.Stage.hid2 (F := Ideal) (Cert.Stage.hid1 (F := Ideal) (Cert.Stage.hid0 (F := Ideal) (m ((c : Thread nD τ).loc main_arg0)) (m ((c : Thread nD τ).loc main_arg6)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg9)) (m ((c : Thread nD τ).loc main_arg7)))
      (Cert.Stage.srcOf (F := Ideal) (m ((c : Thread nD τ).loc main_arg1))) (Cert.Stage.dstOf (F := Ideal) (m ((c : Thread nD τ).loc main_arg1))) (Cert.Stage.normOf (F := Ideal) (Cert.Stage.srcOf (F := Ideal) (m ((c : Thread nD τ).loc main_arg1))) (Cert.Stage.dstOf (F := Ideal) (m ((c : Thread nD τ).loc main_arg1))) (Cert.Stage.selfW (F := Ideal) (Cert.Stage.onesW (F := Ideal))))
      (Cert.Stage.srcOf (F := Ideal) (m ((c : Thread nD τ).loc main_arg2))) (Cert.Stage.dstOf (F := Ideal) (m ((c : Thread nD τ).loc main_arg2))) (Cert.Stage.normOf (F := Ideal) (Cert.Stage.srcOf (F := Ideal) (m ((c : Thread nD τ).loc main_arg2))) (Cert.Stage.dstOf (F := Ideal) (m ((c : Thread nD τ).loc main_arg2))) (Cert.Stage.selfW (F := Ideal) (m ((c : Thread nD τ).loc main_arg4))))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) (m ((c : Thread nD τ).loc main_arg10)) (m ((c : Thread nD τ).loc main_arg8)))
      (Cert.Stage.srcOf (F := Ideal) (m ((c : Thread nD τ).loc main_arg3))) (Cert.Stage.dstOf (F := Ideal) (m ((c : Thread nD τ).loc main_arg3))) (Cert.Stage.normOf (F := Ideal) (Cert.Stage.srcOf (F := Ideal) (m ((c : Thread nD τ).loc main_arg3))) (Cert.Stage.dstOf (F := Ideal) (m ((c : Thread nD τ).loc main_arg3))) (Cert.Stage.selfW (F := Ideal) (m ((c : Thread nD τ).loc main_arg5)))) :=
  (HostValue.mid3_p3 (F := Ideal) (W6 m ρ c)).trans (by
    rw [W6_h m ρ c, W6_v157 m ρ c, W6_v164 m ρ c, W6_v171 m ρ c]
    exact (HostValue.propSorted64_eq_propK _ _ _ _).symm.trans (Cert.SegPerm.propSorted64_eq _ _ _ _))
theorem W7_wt : W7 m ρ c (Proc.devRef .tc main_call0_v304) = transpose S192x4 [1, 0] (m ((c : Thread nD τ).loc main_arg12)) transposes_S4x192_S192x4_1_0 :=
  (HostValue.mid3_wt (F := Ideal) (W6 m ρ c)).trans (by rw [W6_arg12 m ρ c])
theorem W7_bias : W7 m ρ c (Proc.devRef .tc main_call0_v305) = shapeCast S1x4 (m ((c : Thread nD τ).loc main_arg13)) shapeCasts_S4_S1x4 :=
  (HostValue.mid3_bias (F := Ideal) (W6 m ρ c)).trans (by rw [W6_arg13 m ρ c])
theorem W7_arg11 : W7 m ρ c (Proc.devRef .tc main_arg11) = (m ((c : Thread nD τ).loc main_arg11)) :=
  (HostValue.mid3_keep_arg11 (F := Ideal) (W6 m ρ c)).trans (W6_arg11 m ρ c)

/-! ## The results -/

/-- A 4-vector reshaped to one row is the vector laid along the row. -/
theorem bias_row (x : (⟨Cert.ReferenceIdeal.S4, .f32⟩ : BufTy).Contents (Elt Ideal)) :
    shapeCast S1x4 x shapeCasts_S4_S1x4
      = broadcastInDim Cert.ReferenceIdeal.S1x4 ![1] Cert.ReferenceIdeal.Gen.bcast_S4_S1x4_1 x := by
  funext j
  have hk : ∀ a : Fin Cert.ReferenceIdeal.S4.rank,
      ((fun a => j a.succ : Cert.ReferenceIdeal.S4.Idx) a).val
        = if Cert.ReferenceIdeal.S4.size a = 1 then 0 else (j ((![1] : Fin 1 → Fin 2) a)).val := by
    intro a
    obtain rfl : a = 0 := Subsingleton.elim _ _
    rfl
  rw [broadcastInDim_apply _ _ x j (fun a => j a.succ) hk]
  exact shapeCast_addUnit_apply ![4] x _ j

theorem W8_x : W8 m ρ c (Proc.devRef .tc main_v0_0) = Cert.Stage.outX (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W8_arr m ρ c 6).trans ((RegionValue.region3_x (V7 m ρ) c).trans (by
    show Cert.Stage.act64 (F := Ideal) (W7 m ρ c (Proc.devRef .tc main_call0_v275)) (W7 m ρ c (Proc.devRef .tc main_call0_v289)) (W7 m ρ c (Proc.devRef .tc main_call0_v303)) (W7 m ρ c (Proc.devRef .tc main_arg11)) = _
    rw [W7_v275 m ρ c, W7_v289 m ρ c, W7_v303 m ρ c, W7_arg11 m ρ c]; rfl))

theorem W8_y : W8 m ρ c (Proc.devRef .tc main_v0_1) = Cert.Stage.outY (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W8_arr m ρ c 7).trans ((RegionValue.region3_y (V7 m ρ) c).trans (by
    show Cert.Stage.logSoftmax (F := Ideal) (Cert.Stage.logits (F := Ideal) (Cert.Stage.act64 (F := Ideal) (W7 m ρ c (Proc.devRef .tc main_call0_v275)) (W7 m ρ c (Proc.devRef .tc main_call0_v289)) (W7 m ρ c (Proc.devRef .tc main_call0_v303)) (W7 m ρ c (Proc.devRef .tc main_arg11))) (W7 m ρ c (Proc.devRef .tc main_call0_v304)) (W7 m ρ c (Proc.devRef .tc main_call0_v305))) = _
    rw [W7_v275 m ρ c, W7_v289 m ρ c, W7_v303 m ρ c, W7_arg11 m ρ c, W7_wt m ρ c, W7_bias m ρ c, bias_row]; rfl))

/-- Every weakly fair execution of the kernel program terminates with its two results at the network's function of the
    arguments, and the arguments as launched. -/
theorem run : θ_run defs (onTc (τ := τ) (main (F := Ideal))) ⟨m, fun _ => 0, ρ⟩ (fun r => ∀ c : Dev nD,
      r.2.mem ((c.tc : Thread nD τ).loc main_v0_0) = Cert.Stage.outX (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v0_1) = Cert.Stage.outY (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W8_x m ρ c), (h c).2.1.trans (W8_y m ρ c), (h c).2.2⟩)
    (RunValue.run_values (F := Ideal) m ρ)

end Cert.KernelIdeal.Chain

end
-- ==== Proof.RefRun.lean ====
/-
  The reference program's run, read layer by layer.

  Its @main is a straight line of host operations, cut here into five consecutive segments: the preparation of the three
  graphs (self-arcs appended, degrees, scales, arc coefficients), one segment for each of the first two layers (a product
  with a weight matrix, three propagations, bias, clip, side by side), and two for the last (its propagations and bias; then
  its clip, the class layer and the logarithm of the softmax).  After
  each segment the buffers it wrote hold that layer's function (`Cert.Stage`) of the buffers before it, and every other
  buffer keeps its contents; composing the five gives the two results as `Cert.Stage.outX` / `outY` of the arguments.
-/
import proofs.«156776_j29454885716514_2_alg».proof.Proof.RefOps
import proofs.«156776_j29454885716514_2_alg».proof.Proof.Spec

set_option maxRecDepth 16384

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- Two lists of operations one after the other fold as the second over the first's result. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A buffer none of a literal list's operations writes keeps its contents: each operation's written buffer is another one. -/
macro "keeps_contents" ops:ident : tactic => `(tactic| (
  refine after_of_forall_not_mem _ _ (List.forall_iff_forall_mem.mp ?_)
  simp only [$ops:ident, List.Forall, nullary_writes, unary_writes, binary_writes, ternary_writes, quaternary_writes,
    reshape_writes, nary_writes, Finset.mem_singleton]
  repeat' apply And.intro
  all_goals exact devRef_ne_of_ne (by decide)))

variable (V : Valuation τ sig (Elt F))

/-! ## The graphs' preparation -/

set_option maxHeartbeats 4000000 in
theorem prep_src1 : after opsA V (Proc.devRef .tc main_v6) = Cert.Stage.srcOf (F := F) (V (Proc.devRef .tc main_arg1)) := by
  after_results_simp <;> rfl
set_option maxHeartbeats 4000000 in
theorem prep_dst1 : after opsA V (Proc.devRef .tc main_v7) = Cert.Stage.dstOf (F := F) (V (Proc.devRef .tc main_arg1)) := by
  after_results_simp <;> rfl
set_option maxHeartbeats 4000000 in
theorem prep_norm1 : after opsA V (Proc.devRef .tc main_v35) = Cert.Stage.normOf (F := F) (Cert.Stage.srcOf (F := F) (V (Proc.devRef .tc main_arg1)))
    (Cert.Stage.dstOf (F := F) (V (Proc.devRef .tc main_arg1))) (Cert.Stage.selfW (F := F) (Cert.Stage.onesW (F := F))) := by
  after_results_simp <;> rfl
set_option maxHeartbeats 4000000 in
theorem prep_src2 : after opsA V (Proc.devRef .tc main_v41) = Cert.Stage.srcOf (F := F) (V (Proc.devRef .tc main_arg2)) := by
  after_results_simp <;> rfl
set_option maxHeartbeats 4000000 in
theorem prep_dst2 : after opsA V (Proc.devRef .tc main_v42) = Cert.Stage.dstOf (F := F) (V (Proc.devRef .tc main_arg2)) := by
  after_results_simp <;> rfl
set_option maxHeartbeats 4000000 in
theorem prep_norm2 : after opsA V (Proc.devRef .tc main_v70) = Cert.Stage.normOf (F := F) (Cert.Stage.srcOf (F := F) (V (Proc.devRef .tc main_arg2)))
    (Cert.Stage.dstOf (F := F) (V (Proc.devRef .tc main_arg2))) (Cert.Stage.selfW (F := F) (V (Proc.devRef .tc main_arg4))) := by
  after_results_simp <;> rfl
set_option maxHeartbeats 4000000 in
theorem prep_src3 : after opsA V (Proc.devRef .tc main_v76) = Cert.Stage.srcOf (F := F) (V (Proc.devRef .tc main_arg3)) := by
  after_results_simp <;> rfl
set_option maxHeartbeats 4000000 in
theorem prep_dst3 : after opsA V (Proc.devRef .tc main_v77) = Cert.Stage.dstOf (F := F) (V (Proc.devRef .tc main_arg3)) := by
  after_results_simp <;> rfl
set_option maxHeartbeats 4000000 in
theorem prep_norm3 : after opsA V (Proc.devRef .tc main_v105) = Cert.Stage.normOf (F := F) (Cert.Stage.srcOf (F := F) (V (Proc.devRef .tc main_arg3)))
    (Cert.Stage.dstOf (F := F) (V (Proc.devRef .tc main_arg3))) (Cert.Stage.selfW (F := F) (V (Proc.devRef .tc main_arg5))) := by
  after_results_simp <;> rfl

set_option maxHeartbeats 4000000 in
theorem prep_keep_arg0 : after opsA V (Proc.devRef .tc main_arg0) = V (Proc.devRef .tc main_arg0) := by keeps_contents opsA
set_option maxHeartbeats 4000000 in
theorem prep_keep_arg6 : after opsA V (Proc.devRef .tc main_arg6) = V (Proc.devRef .tc main_arg6) := by keeps_contents opsA
set_option maxHeartbeats 4000000 in
theorem prep_keep_arg7 : after opsA V (Proc.devRef .tc main_arg7) = V (Proc.devRef .tc main_arg7) := by keeps_contents opsA
set_option maxHeartbeats 4000000 in
theorem prep_keep_arg8 : after opsA V (Proc.devRef .tc main_arg8) = V (Proc.devRef .tc main_arg8) := by keeps_contents opsA
set_option maxHeartbeats 4000000 in
theorem prep_keep_arg9 : after opsA V (Proc.devRef .tc main_arg9) = V (Proc.devRef .tc main_arg9) := by keeps_contents opsA
set_option maxHeartbeats 4000000 in
theorem prep_keep_arg10 : after opsA V (Proc.devRef .tc main_arg10) = V (Proc.devRef .tc main_arg10) := by keeps_contents opsA
set_option maxHeartbeats 4000000 in
theorem prep_keep_arg11 : after opsA V (Proc.devRef .tc main_arg11) = V (Proc.devRef .tc main_arg11) := by keeps_contents opsA
set_option maxHeartbeats 4000000 in
theorem prep_keep_arg12 : after opsA V (Proc.devRef .tc main_arg12) = V (Proc.devRef .tc main_arg12) := by keeps_contents opsA
set_option maxHeartbeats 4000000 in
theorem prep_keep_arg13 : after opsA V (Proc.devRef .tc main_arg13) = V (Proc.devRef .tc main_arg13) := by keeps_contents opsA

/-! ## The first layer -/

set_option maxHeartbeats 4000000 in
theorem layer1_out : after opsL1 V (Proc.devRef .tc main_v156) =
    Cert.Stage.hid1 (F := F) (Cert.Stage.hid0 (F := F) (V (Proc.devRef .tc main_arg0)) (V (Proc.devRef .tc main_arg6))) (V (Proc.devRef .tc main_v6)) (V (Proc.devRef .tc main_v7)) (V (Proc.devRef .tc main_v35)) (V (Proc.devRef .tc main_v41)) (V (Proc.devRef .tc main_v42)) (V (Proc.devRef .tc main_v70)) (V (Proc.devRef .tc main_v76)) (V (Proc.devRef .tc main_v77)) (V (Proc.devRef .tc main_v105))
      (V (Proc.devRef .tc main_arg9)) (V (Proc.devRef .tc main_arg7)) := by
  after_results_simp <;> rfl

set_option maxHeartbeats 4000000 in
theorem layer1_keep_v6 : after opsL1 V (Proc.devRef .tc main_v6) = V (Proc.devRef .tc main_v6) := by keeps_contents opsL1
set_option maxHeartbeats 4000000 in
theorem layer1_keep_v7 : after opsL1 V (Proc.devRef .tc main_v7) = V (Proc.devRef .tc main_v7) := by keeps_contents opsL1
set_option maxHeartbeats 4000000 in
theorem layer1_keep_v35 : after opsL1 V (Proc.devRef .tc main_v35) = V (Proc.devRef .tc main_v35) := by keeps_contents opsL1
set_option maxHeartbeats 4000000 in
theorem layer1_keep_v41 : after opsL1 V (Proc.devRef .tc main_v41) = V (Proc.devRef .tc main_v41) := by keeps_contents opsL1
set_option maxHeartbeats 4000000 in
theorem layer1_keep_v42 : after opsL1 V (Proc.devRef .tc main_v42) = V (Proc.devRef .tc main_v42) := by keeps_contents opsL1
set_option maxHeartbeats 4000000 in
theorem layer1_keep_v70 : after opsL1 V (Proc.devRef .tc main_v70) = V (Proc.devRef .tc main_v70) := by keeps_contents opsL1
set_option maxHeartbeats 4000000 in
theorem layer1_keep_v76 : after opsL1 V (Proc.devRef .tc main_v76) = V (Proc.devRef .tc main_v76) := by keeps_contents opsL1
set_option maxHeartbeats 4000000 in
theorem layer1_keep_v77 : after opsL1 V (Proc.devRef .tc main_v77) = V (Proc.devRef .tc main_v77) := by keeps_contents opsL1
set_option maxHeartbeats 4000000 in
theorem layer1_keep_v105 : after opsL1 V (Proc.devRef .tc main_v105) = V (Proc.devRef .tc main_v105) := by keeps_contents opsL1
set_option maxHeartbeats 4000000 in
theorem layer1_keep_arg8 : after opsL1 V (Proc.devRef .tc main_arg8) = V (Proc.devRef .tc main_arg8) := by keeps_contents opsL1
set_option maxHeartbeats 4000000 in
theorem layer1_keep_arg10 : after opsL1 V (Proc.devRef .tc main_arg10) = V (Proc.devRef .tc main_arg10) := by keeps_contents opsL1
set_option maxHeartbeats 4000000 in
theorem layer1_keep_arg11 : after opsL1 V (Proc.devRef .tc main_arg11) = V (Proc.devRef .tc main_arg11) := by keeps_contents opsL1
set_option maxHeartbeats 4000000 in
theorem layer1_keep_arg12 : after opsL1 V (Proc.devRef .tc main_arg12) = V (Proc.devRef .tc main_arg12) := by keeps_contents opsL1
set_option maxHeartbeats 4000000 in
theorem layer1_keep_arg13 : after opsL1 V (Proc.devRef .tc main_arg13) = V (Proc.devRef .tc main_arg13) := by keeps_contents opsL1

/-! ## The second layer -/

set_option maxHeartbeats 4000000 in
theorem layer2_out : after opsL2 V (Proc.devRef .tc main_v205) =
    Cert.Stage.hid2 (F := F) (V (Proc.devRef .tc main_v156)) (V (Proc.devRef .tc main_v6)) (V (Proc.devRef .tc main_v7)) (V (Proc.devRef .tc main_v35)) (V (Proc.devRef .tc main_v41)) (V (Proc.devRef .tc main_v42)) (V (Proc.devRef .tc main_v70)) (V (Proc.devRef .tc main_v76)) (V (Proc.devRef .tc main_v77)) (V (Proc.devRef .tc main_v105)) (V (Proc.devRef .tc main_arg10)) (V (Proc.devRef .tc main_arg8)) := by
  after_results_simp <;> rfl

set_option maxHeartbeats 4000000 in
theorem layer2_keep_v6 : after opsL2 V (Proc.devRef .tc main_v6) = V (Proc.devRef .tc main_v6) := by keeps_contents opsL2
set_option maxHeartbeats 4000000 in
theorem layer2_keep_v7 : after opsL2 V (Proc.devRef .tc main_v7) = V (Proc.devRef .tc main_v7) := by keeps_contents opsL2
set_option maxHeartbeats 4000000 in
theorem layer2_keep_v35 : after opsL2 V (Proc.devRef .tc main_v35) = V (Proc.devRef .tc main_v35) := by keeps_contents opsL2
set_option maxHeartbeats 4000000 in
theorem layer2_keep_v41 : after opsL2 V (Proc.devRef .tc main_v41) = V (Proc.devRef .tc main_v41) := by keeps_contents opsL2
set_option maxHeartbeats 4000000 in
theorem layer2_keep_v42 : after opsL2 V (Proc.devRef .tc main_v42) = V (Proc.devRef .tc main_v42) := by keeps_contents opsL2
set_option maxHeartbeats 4000000 in
theorem layer2_keep_v70 : after opsL2 V (Proc.devRef .tc main_v70) = V (Proc.devRef .tc main_v70) := by keeps_contents opsL2
set_option maxHeartbeats 4000000 in
theorem layer2_keep_v76 : after opsL2 V (Proc.devRef .tc main_v76) = V (Proc.devRef .tc main_v76) := by keeps_contents opsL2
set_option maxHeartbeats 4000000 in
theorem layer2_keep_v77 : after opsL2 V (Proc.devRef .tc main_v77) = V (Proc.devRef .tc main_v77) := by keeps_contents opsL2
set_option maxHeartbeats 4000000 in
theorem layer2_keep_v105 : after opsL2 V (Proc.devRef .tc main_v105) = V (Proc.devRef .tc main_v105) := by keeps_contents opsL2
set_option maxHeartbeats 4000000 in
theorem layer2_keep_arg11 : after opsL2 V (Proc.devRef .tc main_arg11) = V (Proc.devRef .tc main_arg11) := by keeps_contents opsL2
set_option maxHeartbeats 4000000 in
theorem layer2_keep_arg12 : after opsL2 V (Proc.devRef .tc main_arg12) = V (Proc.devRef .tc main_arg12) := by keeps_contents opsL2
set_option maxHeartbeats 4000000 in
theorem layer2_keep_arg13 : after opsL2 V (Proc.devRef .tc main_arg13) = V (Proc.devRef .tc main_arg13) := by keeps_contents opsL2

/-! ## The third layer: its propagations and bias -/

set_option maxHeartbeats 4000000 in
theorem layer3_p1 : after opsL3a V (Proc.devRef .tc main_v220) =
    addf (Cert.Stage.prop64 (F := F) (V (Proc.devRef .tc main_v205)) (V (Proc.devRef .tc main_v6)) (V (Proc.devRef .tc main_v7)) (V (Proc.devRef .tc main_v35)))
      (broadcastInDim S50000x64 ![0, 1] bcast_S1x64_S50000x64_0_1 (V (Proc.devRef .tc main_arg11))) := by
  after_results_simp <;> rfl
set_option maxHeartbeats 4000000 in
theorem layer3_p2 : after opsL3a V (Proc.devRef .tc main_v235) =
    addf (Cert.Stage.prop64 (F := F) (V (Proc.devRef .tc main_v205)) (V (Proc.devRef .tc main_v41)) (V (Proc.devRef .tc main_v42)) (V (Proc.devRef .tc main_v70)))
      (broadcastInDim S50000x64 ![0, 1] bcast_S1x64_S50000x64_0_1 (V (Proc.devRef .tc main_arg11))) := by
  after_results_simp <;> rfl
set_option maxHeartbeats 4000000 in
theorem layer3_p3 : after opsL3a V (Proc.devRef .tc main_v250) =
    addf (Cert.Stage.prop64 (F := F) (V (Proc.devRef .tc main_v205)) (V (Proc.devRef .tc main_v76)) (V (Proc.devRef .tc main_v77)) (V (Proc.devRef .tc main_v105)))
      (broadcastInDim S50000x64 ![0, 1] bcast_S1x64_S50000x64_0_1 (V (Proc.devRef .tc main_arg11))) := by
  after_results_simp <;> rfl

set_option maxHeartbeats 4000000 in
theorem layer3_keep_arg12 : after opsL3a V (Proc.devRef .tc main_arg12) = V (Proc.devRef .tc main_arg12) := by keeps_contents opsL3a
set_option maxHeartbeats 4000000 in
theorem layer3_keep_arg13 : after opsL3a V (Proc.devRef .tc main_arg13) = V (Proc.devRef .tc main_arg13) := by keeps_contents opsL3a

/-! ## The third layer's clip and the class scores -/

/-- Three 64-column arrays side by side, clipped at zero. -/
def clip3 (q1 q2 q3 : (⟨S50000x64, .f32⟩ : BufTy).Contents (Elt F)) : (⟨S50000x192, .f32⟩ : BufTy).Contents (Elt F) :=
  maximumf
    (concatenate S50000x192 1 [⟨S50000x64, q1⟩, ⟨S50000x64, q2⟩, ⟨S50000x64, q3⟩]
      concatenates_S50000x64_S50000x64_S50000x64_S50000x192_d1)
    (broadcastInDim S50000x192 ![] bcast_S_S50000x192 (constant S_ .f32 0x00000000#32))

theorem act64_eq_clip3 (p1 p2 p3 : (⟨S50000x64, .f32⟩ : BufTy).Contents (Elt F)) (b : (⟨S1x64, .f32⟩ : BufTy).Contents (Elt F)) :
    Cert.Stage.act64 (F := F) p1 p2 p3 b = clip3 (F := F) (addf p1 (broadcastInDim S50000x64 ![0, 1] bcast_S1x64_S50000x64_0_1 b)) (addf p2 (broadcastInDim S50000x64 ![0, 1] bcast_S1x64_S50000x64_0_1 b)) (addf p3 (broadcastInDim S50000x64 ![0, 1] bcast_S1x64_S50000x64_0_1 b)) := rfl

set_option maxHeartbeats 4000000 in
theorem layer3_x : after opsL3b V (Proc.devRef .tc main_v252) =
    clip3 (F := F) (V (Proc.devRef .tc main_v220)) (V (Proc.devRef .tc main_v235)) (V (Proc.devRef .tc main_v250)) := by
  after_results_simp <;> rfl

/-- A transport along an equation between a type and itself changes nothing. -/
theorem cast_same {α : Sort _} (h : α = α) (a : α) : cast h a = a := by cases h; rfl

set_option maxHeartbeats 4000000 in
theorem layer3_y : after opsL3b V (Proc.devRef .tc main_v258) =
    Cert.Stage.scores (F := F) (clip3 (F := F) (V (Proc.devRef .tc main_v220)) (V (Proc.devRef .tc main_v235)) (V (Proc.devRef .tc main_v250)))
      (V (Proc.devRef .tc main_arg12)) (V (Proc.devRef .tc main_arg13)) := by
  after_results_simp
  simp only [TRef.toBuf, TRef.ofBuf, cast_same]
  rfl

/-! ## The whole run -/

section Whole

variable (m : (ℓ : Loc nD τ sig) → Buf (Elt F) ℓ) (d : Dev nD)

/-- The buffers' contents at launch, and after each of the five segments. -/
abbrev U0 : Valuation τ sig (Elt F) := launchContents m d
abbrev U1 : Valuation τ sig (Elt F) := after opsA (U0 m d)
abbrev U2 : Valuation τ sig (Elt F) := after opsL1 (U1 m d)
abbrev U3 : Valuation τ sig (Elt F) := after opsL2 (U2 m d)
abbrev U4 : Valuation τ sig (Elt F) := after opsL3a (U3 m d)
abbrev U5 : Valuation τ sig (Elt F) := after opsL3b (U4 m d)

theorem after_ops : after (ops : List (HloOp τ sig (Elt F))) (launchContents m d) = U5 m d := by
  rw [ops_split, after_append, after_append, after_append, after_append]

theorem U1_v6 : U1 m d (Proc.devRef .tc main_v6) = (Cert.Stage.srcOf (F := F) (m ((d.tc : Thread nD τ).loc main_arg1))) := prep_src1 (F := F) (U0 m d)
theorem U1_v7 : U1 m d (Proc.devRef .tc main_v7) = (Cert.Stage.dstOf (F := F) (m ((d.tc : Thread nD τ).loc main_arg1))) := prep_dst1 (F := F) (U0 m d)
theorem U1_v35 : U1 m d (Proc.devRef .tc main_v35) = (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F)))) := prep_norm1 (F := F) (U0 m d)
theorem U1_v41 : U1 m d (Proc.devRef .tc main_v41) = (Cert.Stage.srcOf (F := F) (m ((d.tc : Thread nD τ).loc main_arg2))) := prep_src2 (F := F) (U0 m d)
theorem U1_v42 : U1 m d (Proc.devRef .tc main_v42) = (Cert.Stage.dstOf (F := F) (m ((d.tc : Thread nD τ).loc main_arg2))) := prep_dst2 (F := F) (U0 m d)
theorem U1_v70 : U1 m d (Proc.devRef .tc main_v70) = (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4)))) := prep_norm2 (F := F) (U0 m d)
theorem U1_v76 : U1 m d (Proc.devRef .tc main_v76) = (Cert.Stage.srcOf (F := F) (m ((d.tc : Thread nD τ).loc main_arg3))) := prep_src3 (F := F) (U0 m d)
theorem U1_v77 : U1 m d (Proc.devRef .tc main_v77) = (Cert.Stage.dstOf (F := F) (m ((d.tc : Thread nD τ).loc main_arg3))) := prep_dst3 (F := F) (U0 m d)
theorem U1_v105 : U1 m d (Proc.devRef .tc main_v105) = (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) := prep_norm3 (F := F) (U0 m d)
theorem U1_arg0 : U1 m d (Proc.devRef .tc main_arg0) = (m ((d.tc : Thread nD τ).loc main_arg0)) := prep_keep_arg0 (F := F) (U0 m d)
theorem U1_arg6 : U1 m d (Proc.devRef .tc main_arg6) = (m ((d.tc : Thread nD τ).loc main_arg6)) := prep_keep_arg6 (F := F) (U0 m d)
theorem U1_arg7 : U1 m d (Proc.devRef .tc main_arg7) = (m ((d.tc : Thread nD τ).loc main_arg7)) := prep_keep_arg7 (F := F) (U0 m d)
theorem U1_arg8 : U1 m d (Proc.devRef .tc main_arg8) = (m ((d.tc : Thread nD τ).loc main_arg8)) := prep_keep_arg8 (F := F) (U0 m d)
theorem U1_arg9 : U1 m d (Proc.devRef .tc main_arg9) = (m ((d.tc : Thread nD τ).loc main_arg9)) := prep_keep_arg9 (F := F) (U0 m d)
theorem U1_arg10 : U1 m d (Proc.devRef .tc main_arg10) = (m ((d.tc : Thread nD τ).loc main_arg10)) := prep_keep_arg10 (F := F) (U0 m d)
theorem U1_arg11 : U1 m d (Proc.devRef .tc main_arg11) = (m ((d.tc : Thread nD τ).loc main_arg11)) := prep_keep_arg11 (F := F) (U0 m d)
theorem U1_arg12 : U1 m d (Proc.devRef .tc main_arg12) = (m ((d.tc : Thread nD τ).loc main_arg12)) := prep_keep_arg12 (F := F) (U0 m d)
theorem U1_arg13 : U1 m d (Proc.devRef .tc main_arg13) = (m ((d.tc : Thread nD τ).loc main_arg13)) := prep_keep_arg13 (F := F) (U0 m d)
theorem U2_h : U2 m d (Proc.devRef .tc main_v156) = (Cert.Stage.hid1 (F := F) (Cert.Stage.hid0 (F := F) (m ((d.tc : Thread nD τ).loc main_arg0)) (m ((d.tc : Thread nD τ).loc main_arg6)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg9)) (m ((d.tc : Thread nD τ).loc main_arg7))) := by
  refine (layer1_out (F := F) (U1 m d)).trans ?_
  rw [U1_arg0 m d, U1_arg6 m d, U1_arg7 m d, U1_arg9 m d, U1_v6 m d, U1_v7 m d, U1_v35 m d, U1_v41 m d, U1_v42 m d, U1_v70 m d, U1_v76 m d, U1_v77 m d, U1_v105 m d]
theorem U2_v6 : U2 m d (Proc.devRef .tc main_v6) = (Cert.Stage.srcOf (F := F) (m ((d.tc : Thread nD τ).loc main_arg1))) := (layer1_keep_v6 (F := F) (U1 m d)).trans (U1_v6 m d)
theorem U2_v7 : U2 m d (Proc.devRef .tc main_v7) = (Cert.Stage.dstOf (F := F) (m ((d.tc : Thread nD τ).loc main_arg1))) := (layer1_keep_v7 (F := F) (U1 m d)).trans (U1_v7 m d)
theorem U2_v35 : U2 m d (Proc.devRef .tc main_v35) = (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F)))) := (layer1_keep_v35 (F := F) (U1 m d)).trans (U1_v35 m d)
theorem U2_v41 : U2 m d (Proc.devRef .tc main_v41) = (Cert.Stage.srcOf (F := F) (m ((d.tc : Thread nD τ).loc main_arg2))) := (layer1_keep_v41 (F := F) (U1 m d)).trans (U1_v41 m d)
theorem U2_v42 : U2 m d (Proc.devRef .tc main_v42) = (Cert.Stage.dstOf (F := F) (m ((d.tc : Thread nD τ).loc main_arg2))) := (layer1_keep_v42 (F := F) (U1 m d)).trans (U1_v42 m d)
theorem U2_v70 : U2 m d (Proc.devRef .tc main_v70) = (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4)))) := (layer1_keep_v70 (F := F) (U1 m d)).trans (U1_v70 m d)
theorem U2_v76 : U2 m d (Proc.devRef .tc main_v76) = (Cert.Stage.srcOf (F := F) (m ((d.tc : Thread nD τ).loc main_arg3))) := (layer1_keep_v76 (F := F) (U1 m d)).trans (U1_v76 m d)
theorem U2_v77 : U2 m d (Proc.devRef .tc main_v77) = (Cert.Stage.dstOf (F := F) (m ((d.tc : Thread nD τ).loc main_arg3))) := (layer1_keep_v77 (F := F) (U1 m d)).trans (U1_v77 m d)
theorem U2_v105 : U2 m d (Proc.devRef .tc main_v105) = (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) := (layer1_keep_v105 (F := F) (U1 m d)).trans (U1_v105 m d)
theorem U2_arg8 : U2 m d (Proc.devRef .tc main_arg8) = (m ((d.tc : Thread nD τ).loc main_arg8)) := (layer1_keep_arg8 (F := F) (U1 m d)).trans (U1_arg8 m d)
theorem U2_arg10 : U2 m d (Proc.devRef .tc main_arg10) = (m ((d.tc : Thread nD τ).loc main_arg10)) := (layer1_keep_arg10 (F := F) (U1 m d)).trans (U1_arg10 m d)
theorem U2_arg11 : U2 m d (Proc.devRef .tc main_arg11) = (m ((d.tc : Thread nD τ).loc main_arg11)) := (layer1_keep_arg11 (F := F) (U1 m d)).trans (U1_arg11 m d)
theorem U2_arg12 : U2 m d (Proc.devRef .tc main_arg12) = (m ((d.tc : Thread nD τ).loc main_arg12)) := (layer1_keep_arg12 (F := F) (U1 m d)).trans (U1_arg12 m d)
theorem U2_arg13 : U2 m d (Proc.devRef .tc main_arg13) = (m ((d.tc : Thread nD τ).loc main_arg13)) := (layer1_keep_arg13 (F := F) (U1 m d)).trans (U1_arg13 m d)
theorem U3_h : U3 m d (Proc.devRef .tc main_v205) = (Cert.Stage.hid2 (F := F) (Cert.Stage.hid1 (F := F) (Cert.Stage.hid0 (F := F) (m ((d.tc : Thread nD τ).loc main_arg0)) (m ((d.tc : Thread nD τ).loc main_arg6)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg9)) (m ((d.tc : Thread nD τ).loc main_arg7)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg10)) (m ((d.tc : Thread nD τ).loc main_arg8))) := by
  refine (layer2_out (F := F) (U2 m d)).trans ?_
  rw [U2_h m d, U2_arg8 m d, U2_arg10 m d, U2_v6 m d, U2_v7 m d, U2_v35 m d, U2_v41 m d, U2_v42 m d, U2_v70 m d, U2_v76 m d, U2_v77 m d, U2_v105 m d]
theorem U3_v6 : U3 m d (Proc.devRef .tc main_v6) = (Cert.Stage.srcOf (F := F) (m ((d.tc : Thread nD τ).loc main_arg1))) := (layer2_keep_v6 (F := F) (U2 m d)).trans (U2_v6 m d)
theorem U3_v7 : U3 m d (Proc.devRef .tc main_v7) = (Cert.Stage.dstOf (F := F) (m ((d.tc : Thread nD τ).loc main_arg1))) := (layer2_keep_v7 (F := F) (U2 m d)).trans (U2_v7 m d)
theorem U3_v35 : U3 m d (Proc.devRef .tc main_v35) = (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F)))) := (layer2_keep_v35 (F := F) (U2 m d)).trans (U2_v35 m d)
theorem U3_v41 : U3 m d (Proc.devRef .tc main_v41) = (Cert.Stage.srcOf (F := F) (m ((d.tc : Thread nD τ).loc main_arg2))) := (layer2_keep_v41 (F := F) (U2 m d)).trans (U2_v41 m d)
theorem U3_v42 : U3 m d (Proc.devRef .tc main_v42) = (Cert.Stage.dstOf (F := F) (m ((d.tc : Thread nD τ).loc main_arg2))) := (layer2_keep_v42 (F := F) (U2 m d)).trans (U2_v42 m d)
theorem U3_v70 : U3 m d (Proc.devRef .tc main_v70) = (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4)))) := (layer2_keep_v70 (F := F) (U2 m d)).trans (U2_v70 m d)
theorem U3_v76 : U3 m d (Proc.devRef .tc main_v76) = (Cert.Stage.srcOf (F := F) (m ((d.tc : Thread nD τ).loc main_arg3))) := (layer2_keep_v76 (F := F) (U2 m d)).trans (U2_v76 m d)
theorem U3_v77 : U3 m d (Proc.devRef .tc main_v77) = (Cert.Stage.dstOf (F := F) (m ((d.tc : Thread nD τ).loc main_arg3))) := (layer2_keep_v77 (F := F) (U2 m d)).trans (U2_v77 m d)
theorem U3_v105 : U3 m d (Proc.devRef .tc main_v105) = (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) := (layer2_keep_v105 (F := F) (U2 m d)).trans (U2_v105 m d)
theorem U3_arg11 : U3 m d (Proc.devRef .tc main_arg11) = (m ((d.tc : Thread nD τ).loc main_arg11)) := (layer2_keep_arg11 (F := F) (U2 m d)).trans (U2_arg11 m d)
theorem U3_arg12 : U3 m d (Proc.devRef .tc main_arg12) = (m ((d.tc : Thread nD τ).loc main_arg12)) := (layer2_keep_arg12 (F := F) (U2 m d)).trans (U2_arg12 m d)
theorem U3_arg13 : U3 m d (Proc.devRef .tc main_arg13) = (m ((d.tc : Thread nD τ).loc main_arg13)) := (layer2_keep_arg13 (F := F) (U2 m d)).trans (U2_arg13 m d)
theorem U4_v220 : U4 m d (Proc.devRef .tc main_v220) = (addf (Cert.Stage.prop64 (F := F) (Cert.Stage.hid2 (F := F) (Cert.Stage.hid1 (F := F) (Cert.Stage.hid0 (F := F) (m ((d.tc : Thread nD τ).loc main_arg0)) (m ((d.tc : Thread nD τ).loc main_arg6)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg9)) (m ((d.tc : Thread nD τ).loc main_arg7)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg10)) (m ((d.tc : Thread nD τ).loc main_arg8)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))) (broadcastInDim S50000x64 ![0, 1] bcast_S1x64_S50000x64_0_1 (m ((d.tc : Thread nD τ).loc main_arg11)))) := by
  refine (layer3_p1 (F := F) (U3 m d)).trans ?_
  rw [U3_h m d, U3_arg11 m d, U3_v6 m d, U3_v7 m d, U3_v35 m d]
theorem U4_v235 : U4 m d (Proc.devRef .tc main_v235) = (addf (Cert.Stage.prop64 (F := F) (Cert.Stage.hid2 (F := F) (Cert.Stage.hid1 (F := F) (Cert.Stage.hid0 (F := F) (m ((d.tc : Thread nD τ).loc main_arg0)) (m ((d.tc : Thread nD τ).loc main_arg6)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg9)) (m ((d.tc : Thread nD τ).loc main_arg7)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg10)) (m ((d.tc : Thread nD τ).loc main_arg8)))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))) (broadcastInDim S50000x64 ![0, 1] bcast_S1x64_S50000x64_0_1 (m ((d.tc : Thread nD τ).loc main_arg11)))) := by
  refine (layer3_p2 (F := F) (U3 m d)).trans ?_
  rw [U3_h m d, U3_arg11 m d, U3_v41 m d, U3_v42 m d, U3_v70 m d]
theorem U4_v250 : U4 m d (Proc.devRef .tc main_v250) = (addf (Cert.Stage.prop64 (F := F) (Cert.Stage.hid2 (F := F) (Cert.Stage.hid1 (F := F) (Cert.Stage.hid0 (F := F) (m ((d.tc : Thread nD τ).loc main_arg0)) (m ((d.tc : Thread nD τ).loc main_arg6)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg9)) (m ((d.tc : Thread nD τ).loc main_arg7)))
      (Cert.Stage.srcOf (F := F) (m ((d.tc : Thread nD τ).loc main_arg1))) (Cert.Stage.dstOf (F := F) (m ((d.tc : Thread nD τ).loc main_arg1))) (Cert.Stage.normOf (F := F) (Cert.Stage.srcOf (F := F) (m ((d.tc : Thread nD τ).loc main_arg1))) (Cert.Stage.dstOf (F := F) (m ((d.tc : Thread nD τ).loc main_arg1))) (Cert.Stage.selfW (F := F) (Cert.Stage.onesW (F := F))))
      (Cert.Stage.srcOf (F := F) (m ((d.tc : Thread nD τ).loc main_arg2))) (Cert.Stage.dstOf (F := F) (m ((d.tc : Thread nD τ).loc main_arg2))) (Cert.Stage.normOf (F := F) (Cert.Stage.srcOf (F := F) (m ((d.tc : Thread nD τ).loc main_arg2))) (Cert.Stage.dstOf (F := F) (m ((d.tc : Thread nD τ).loc main_arg2))) (Cert.Stage.selfW (F := F) (m ((d.tc : Thread nD τ).loc main_arg4))))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5)))) (m ((d.tc : Thread nD τ).loc main_arg10)) (m ((d.tc : Thread nD τ).loc main_arg8)))
      (Cert.Stage.srcOf (F := F) (m ((d.tc : Thread nD τ).loc main_arg3))) (Cert.Stage.dstOf (F := F) (m ((d.tc : Thread nD τ).loc main_arg3))) (Cert.Stage.normOf (F := F) (Cert.Stage.srcOf (F := F) (m ((d.tc : Thread nD τ).loc main_arg3))) (Cert.Stage.dstOf (F := F) (m ((d.tc : Thread nD τ).loc main_arg3))) (Cert.Stage.selfW (F := F) (m ((d.tc : Thread nD τ).loc main_arg5))))) (broadcastInDim S50000x64 ![0, 1] bcast_S1x64_S50000x64_0_1 (m ((d.tc : Thread nD τ).loc main_arg11)))) := by
  refine (layer3_p3 (F := F) (U3 m d)).trans ?_
  rw [U3_h m d, U3_arg11 m d, U3_v76 m d, U3_v77 m d, U3_v105 m d]
theorem U4_arg12 : U4 m d (Proc.devRef .tc main_arg12) = (m ((d.tc : Thread nD τ).loc main_arg12)) := (layer3_keep_arg12 (F := F) (U3 m d)).trans (U3_arg12 m d)
theorem U4_arg13 : U4 m d (Proc.devRef .tc main_arg13) = (m ((d.tc : Thread nD τ).loc main_arg13)) := (layer3_keep_arg13 (F := F) (U3 m d)).trans (U3_arg13 m d)
theorem U5_x : U5 m d (Proc.devRef .tc main_v252) = Cert.Stage.outX (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) := by
  refine (layer3_x (F := F) (U4 m d)).trans ?_
  rw [U4_v220 m d, U4_v235 m d, U4_v250 m d]
  exact (act64_eq_clip3 (F := F) _ _ _ _).symm
theorem U5_y : U5 m d (Proc.devRef .tc main_v258) = Cert.Stage.outY (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  refine (layer3_y (F := F) (U4 m d)).trans ?_
  rw [U4_v220 m d, U4_v235 m d, U4_v250 m d, U4_arg12 m d, U4_arg13 m d, ← act64_eq_clip3 (F := F)]
  rfl

end Whole

set_option maxRecDepth 8192 in
set_option maxHeartbeats 139600000 in
/-- Every weakly fair execution of the reference program terminates with its two results at the network's function of the
    arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v252) = Cert.Stage.outX (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))
      ∧ r.2.mem ((d.tc : Thread nD τ).loc main_v258) = Cert.Stage.outY (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)
      ∧ r.2.mem ((d.tc : Thread nD τ).loc main_arg13) = m ((d.tc : Thread nD τ).loc main_arg13) :=
  (θ_run defs _ _).mono (fun _ h d => ⟨(h d main_v252).trans ((congrFun (after_ops (F := F) m d) _).trans (U5_x m d)),
      (h d main_v258).trans ((congrFun (after_ops (F := F) m d) _).trans (U5_y m d)),
      (h d main_arg0).trans (by after_results_simp <;> rfl),
      (h d main_arg1).trans (by after_results_simp <;> rfl),
      (h d main_arg2).trans (by after_results_simp <;> rfl),
      (h d main_arg3).trans (by after_results_simp <;> rfl),
      (h d main_arg4).trans (by after_results_simp <;> rfl),
      (h d main_arg5).trans (by after_results_simp <;> rfl),
      (h d main_arg6).trans (by after_results_simp <;> rfl),
      (h d main_arg7).trans (by after_results_simp <;> rfl),
      (h d main_arg8).trans (by after_results_simp <;> rfl),
      (h d main_arg9).trans (by after_results_simp <;> rfl),
      (h d main_arg10).trans (by after_results_simp <;> rfl),
      (h d main_arg11).trans (by after_results_simp <;> rfl),
      (h d main_arg12).trans (by after_results_simp <;> rfl),
      (h d main_arg13).trans (by after_results_simp <;> rfl)⟩)
    (run_after (F := F) m ρ)

end Cert.ReferenceIdeal.RefValue

end
-- ==== Proof.lean ====
/-
  A three-layer graph network over three weighted graphs on 50000 nodes, computed two ways.

  Both programs append a self-arc of weight one per node to each graph, give every arc the coefficient
  weight · scale(source) · scale(target) (a node's scale the reciprocal square root of its positive degree), and then, per
  layer, multiply the node array by a weight matrix, propagate the product along each graph (row v of the result: the sum
  over the arcs ending in v of coefficient · the source's row), add a bias row, clip at zero and lay the three results side
  by side; the last layer's array is the first result, and the logarithm of the softmax of a class layer over it the second.
  The kernel program sorts each graph's arcs by target first (a permutation of the arcs: the sums per target row keep their
  terms), runs the dense layers as four tiled regions (25 tiles of 2000 rows; the 384 or 192 contracted columns in three
  thirds, one product each, added up; the node arrays between layers kept in a 16-bit format) and the propagations on
  the host; the reference program does everything on the host.  At the ideal instance — floats extended reals, format
  changes the identity — both results are one function of the arguments (`Cert.Stage.outX`, `Cert.Stage.outY`): the kernel's
  by its regions' value lemmas, the re-indexing of the propagation sums by the sorting permutation and its run read boundary
  by boundary (`Cert.KernelIdeal.Chain.run`); the reference's by its run read layer by layer
  (`Cert.ReferenceIdeal.RefValue.run`).  No law used needs finiteness: sums are only re-ordered and re-grouped.
  The idealization rewrote no operation, so `preserves` asks nothing; the kernels' frames are the generated ones, the
  reference's frame is its run with the results dropped.
-/
import proofs.«156776_j29454885716514_2_alg».proof.Defs
import proofs.«156776_j29454885716514_2_alg».proof.Proof.Gen.Kernel
import proofs.«156776_j29454885716514_2_alg».proof.Proof.Gen.Kernel.Skeleton
import proofs.«156776_j29454885716514_2_alg».proof.Proof.Gen.Kernel.Launch
import proofs.«156776_j29454885716514_2_alg».proof.Proof.Gen.Kernel.Points
import proofs.«156776_j29454885716514_2_alg».proof.Proof.Gen.Kernel.Frame
import proofs.«156776_j29454885716514_2_alg».proof.Proof.Gen.KernelIdeal
import proofs.«156776_j29454885716514_2_alg».proof.Proof.Gen.KernelIdeal.Skeleton
import proofs.«156776_j29454885716514_2_alg».proof.Proof.Gen.KernelIdeal.Launch
import proofs.«156776_j29454885716514_2_alg».proof.Proof.Gen.KernelIdeal.Points
import proofs.«156776_j29454885716514_2_alg».proof.Proof.Gen.KernelIdeal.Frame
import proofs.«156776_j29454885716514_2_alg».proof.Proof.Gen.ReferenceIdeal
import proofs.«156776_j29454885716514_2_alg».proof.Proof.Gen.Pre_finite_inputs
import proofs.«156776_j29454885716514_2_alg».proof.Proof.KChain
import proofs.«156776_j29454885716514_2_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.RefValue.run (F := Ideal) m ρ)

/-- The idealization rewrote no operation. -/
theorem preserves : Cert.preserves_Kernel_KernelIdeal := trivial

/-- Both runs end at the network's function of the arguments; the arguments agree. -/
theorem algebraic : Cert.algebraic_KernelIdeal_ReferenceIdeal := by
  intro m ρ m' ρ' _ hagree
  refine ⟨_, _, Cert.KernelIdeal.Chain.run m ρ, ?_⟩
  refine (θ_run Cert.ReferenceIdeal.defs _ _).mono (fun r h c => ?_) (Cert.ReferenceIdeal.RefValue.run (F := Ideal) m' ρ')
  obtain ⟨h0, h1, hargs⟩ := h c
  obtain ⟨a0, a1, a2, a3, a4, a5, a6, a7, a8, a9, a10, a11, a12, a13⟩ := hagree c
  refine ⟨h0.trans ?_, h1.trans ?_, hargs⟩
  · rw [a0, a1, a2, a3, a4, a5, a6, a7, a8, a9, a10, a11]
  · rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
